-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S7x4095 : Shape := ⟨2, ![7, 4095]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S7x4095 : S_.BroadcastsInDim S7x4095 (![] : Fin 0 → Fin S7x4095.rank)
  reducesTo_S7x4095_S_d0_1 : S7x4095.ReducesTo [0, 1] S_

variable [Facts]

def fn_part1 {F : FTy → Type} [FloatOps F] (main_arg4 : FVec F S4096 .f32) (main_v13 : IVec S_ 1) (main_v16 : IVec S7x4095 1) : IVec S_ 1 :=
  let main_c_5 : IVec S_ 1 := constantI S_ 1 1#1
  let main_v17 : IVec S_ 1 := (fun x v => Host.reduce IntOp.andi x v reducesTo_S7x4095_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096 .f32) (main_arg2 : FVec F S7x4095 .f32) (main_arg3 : FVec F S7x4095 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S7x4095 .f32 := Host.absf main_arg2
  let main_cst_2 : FVec F S_ .f32 := constant S_ .f32 0x7F800000#32
  let main_v10 : FVec F S7x4095 .f32 := broadcastInDim S7x4095 ![] bcast_S_S7x4095 main_cst_2
  let main_v11 : IVec S7x4095 1 := cmpf .olt main_v9 main_v10
  let main_c_3 : IVec S_ 1 := constantI S_ 1 1#1
  let main_v12 : IVec S_ 1 := (fun x v => Host.reduce IntOp.andi x v reducesTo_S7x4095_S_d0_1 h_S_) main_v11 main_c_3
  let main_v13 : IVec S_ 1 := andi main_v8 main_v12
  let main_v14 : FVec F S7x4095 .f32 := Host.absf main_arg3
  let main_cst_4 : FVec F S_ .f32 := constant S_ .f32 0x7F800000#32
  let main_v15 : FVec F S7x4095 .f32 := broadcastInDim S7x4095 ![] bcast_S_S7x4095 main_cst_4
  let main_v16 : IVec S7x4095 1 := cmpf .olt main_v14 main_v15
  fn_part1 (F := F) main_arg4 main_v13 main_v16
-- ==== Kernel.lean ====
abbrev S8192x4096 : Shape := ⟨2, ![8192, 4096]⟩
abbrev S4096 : Shape := ⟨1, ![4096]⟩
abbrev S7x4095 : Shape := ⟨2, ![7, 4095]⟩
abbrev S1x4095 : Shape := ⟨2, ![1, 4095]⟩
abbrev S4095 : Shape := ⟨1, ![4095]⟩
abbrev S_ : Shape := ⟨0, ![]⟩
abbrev S1x4094 : Shape := ⟨2, ![1, 4094]⟩
abbrev S4094 : Shape := ⟨1, ![4094]⟩
abbrev S1x4093 : Shape := ⟨2, ![1, 4093]⟩
abbrev S4093 : Shape := ⟨1, ![4093]⟩
abbrev S1x4092 : Shape := ⟨2, ![1, 4092]⟩
abbrev S4092 : Shape := ⟨1, ![4092]⟩
abbrev S1x4091 : Shape := ⟨2, ![1, 4091]⟩
abbrev S4091 : Shape := ⟨1, ![4091]⟩
abbrev S1x4090 : Shape := ⟨2, ![1, 4090]⟩
abbrev S4090 : Shape := ⟨1, ![4090]⟩
abbrev S1x4089 : Shape := ⟨2, ![1, 4089]⟩
abbrev S4089 : Shape := ⟨1, ![4089]⟩
abbrev S1x4096 : Shape := ⟨2, ![1, 4096]⟩
abbrev S7x4096 : Shape := ⟨2, ![7, 4096]⟩
abbrev S256x4096 : Shape := ⟨2, ![256, 4096]⟩

abbrev nBuf : Space → Nat
  | .hbm => 94
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S7x4095, .f32⟩
  | .hbm, ⟨3, _⟩ => ⟨S7x4095, .f32⟩
  | .hbm, ⟨4, _⟩ => ⟨S4096, .f32⟩
  | .hbm, ⟨5, _⟩ => ⟨S1x4095, .f32⟩
  | .hbm, ⟨6, _⟩ => ⟨S4095, .f32⟩
  | .hbm, ⟨7, _⟩ => ⟨S_, .i32⟩
  | .hbm, ⟨8, _⟩ => ⟨S_, .f32⟩
  | .hbm, ⟨9, _⟩ => ⟨S4096, .f32⟩
  | .hbm, ⟨10, _⟩ => ⟨S1x4095, .f32⟩
  | .hbm, ⟨11, _⟩ => ⟨S4095, .f32⟩
  | .hbm, ⟨12, _⟩ => ⟨S_, .i32⟩
  | .hbm, ⟨13, _⟩ => ⟨S_, .f32⟩
  | .hbm, ⟨14, _⟩ => ⟨S4096, .f32⟩
  | .hbm, ⟨15, _⟩ => ⟨S1x4094, .f32⟩
  | .hbm, ⟨16, _⟩ => ⟨S4094, .f32⟩
  | .hbm, ⟨17, _⟩ => ⟨S_, .i32⟩
  | .hbm, ⟨18, _⟩ => ⟨S_, .f32⟩
  | .hbm, ⟨19, _⟩ => ⟨S4096, .f32⟩
  | .hbm, ⟨20, _⟩ => ⟨S1x4094, .f32⟩
  | .hbm, ⟨21, _⟩ => ⟨S4094, .f32⟩
  | .hbm, ⟨22, _⟩ => ⟨S_, .i32⟩
  | .hbm, ⟨23, _⟩ => ⟨S_, .f32⟩
  | .hbm, ⟨24, _⟩ => ⟨S4096, .f32⟩
  | .hbm, ⟨25, _⟩ => ⟨S1x4093, .f32⟩
  | .hbm, ⟨26, _⟩ => ⟨S4093, .f32⟩
  | .hbm, ⟨27, _⟩ => ⟨S_, .i32⟩
  | .hbm, ⟨28, _⟩ => ⟨S_, .f32⟩
  | .hbm, ⟨29, _⟩ => ⟨S4096, .f32⟩
  | .hbm, ⟨30, _⟩ => ⟨S1x4093, .f32⟩
  | .hbm, ⟨31, _⟩ => ⟨S4093, .f32⟩
  | .hbm, ⟨32, _⟩ => ⟨S_, .i32⟩
  | .hbm, ⟨33, _⟩ => ⟨S_, .f32⟩
  | .hbm, ⟨34, _⟩ => ⟨S4096, .f32⟩
  | .hbm, ⟨35, _⟩ => ⟨S1x4092, .f32⟩
  | .hbm, ⟨36, _⟩ => ⟨S4092, .f32⟩
  | .hbm, ⟨37, _⟩ => ⟨S_, .i32⟩
  | .hbm, ⟨38, _⟩ => ⟨S_, .f32⟩
  | .hbm, ⟨39, _⟩ => ⟨S4096, .f32⟩
  | .hbm, ⟨40, _⟩ => ⟨S1x4092, .f32⟩
  | .hbm, ⟨41, _⟩ => ⟨S4092, .f32⟩
  | .hbm, ⟨42, _⟩ => ⟨S_, .i32⟩
  | .hbm, ⟨43, _⟩ => ⟨S_, .f32⟩
  | .hbm, ⟨44, _⟩ => ⟨S4096, .f32⟩
  | .hbm, ⟨45, _⟩ => ⟨S1x4091, .f32⟩
  | .hbm, ⟨46, _⟩ => ⟨S4091, .f32⟩
  | .hbm, ⟨47, _⟩ => ⟨S_, .i32⟩
  | .hbm, ⟨48, _⟩ => ⟨S_, .f32⟩
  | .hbm, ⟨49, _⟩ => ⟨S4096, .f32⟩
  | .hbm, ⟨50, _⟩ => ⟨S1x4091, .f32⟩
  | .hbm, ⟨51, _⟩ => ⟨S4091, .f32⟩
  | .hbm, ⟨52, _⟩ => ⟨S_, .i32⟩
  | .hbm, ⟨53, _⟩ => ⟨S_, .f32⟩
  | .hbm, ⟨54, _⟩ => ⟨S4096, .f32⟩
  | .hbm, ⟨55, _⟩ => ⟨S1x4090, .f32⟩
  | .hbm, ⟨56, _⟩ => ⟨S4090, .f32⟩
  | .hbm, ⟨57, _⟩ => ⟨S_, .i32⟩
  | .hbm, ⟨58, _⟩ => ⟨S_, .f32⟩
  | .hbm, ⟨59, _⟩ => ⟨S4096, .f32⟩
  | .hbm, ⟨60, _⟩ => ⟨S1x4090, .f32⟩
  | .hbm, ⟨61, _⟩ => ⟨S4090, .f32⟩
  | .hbm, ⟨62, _⟩ => ⟨S_, .i32⟩
  | .hbm, ⟨63, _⟩ => ⟨S_, .f32⟩
  | .hbm, ⟨64, _⟩ => ⟨S4096, .f32⟩
  | .hbm, ⟨65, _⟩ => ⟨S1x4089, .f32⟩
  | .hbm, ⟨66, _⟩ => ⟨S4089, .f32⟩
  | .hbm, ⟨67, _⟩ => ⟨S_, .i32⟩
  | .hbm, ⟨68, _⟩ => ⟨S_, .f32⟩
  | .hbm, ⟨69, _⟩ => ⟨S4096, .f32⟩
  | .hbm, ⟨70, _⟩ => ⟨S1x4089, .f32⟩
  | .hbm, ⟨71, _⟩ => ⟨S4089, .f32⟩
  | .hbm, ⟨72, _⟩ => ⟨S_, .i32⟩
  | .hbm, ⟨73, _⟩ => ⟨S_, .f32⟩
  | .hbm, ⟨74, _⟩ => ⟨S4096, .f32⟩
  | .hbm, ⟨75, _⟩ => ⟨S1x4096, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S7x4096, .f32⟩
  | .hbm, ⟨83, _⟩ => ⟨S1x4096, .f32⟩
  | .hbm, ⟨84, _⟩ => ⟨S1x4096, .f32⟩
  | .hbm, ⟨85, _⟩ => ⟨S1x4096, .f32⟩
  | .hbm, ⟨86, _⟩ => ⟨S1x4096, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S7x4096, .f32⟩
  | .hbm, ⟨91, _⟩ => ⟨S1x4096, .f32⟩
  | .hbm, ⟨92, _⟩ => ⟨S1x4096, .f32⟩
  | .hbm, ⟨93, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S7x4096, .f32⟩
  | .local _ .vmem, ⟨4, _⟩ => ⟨S7x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_call4_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_call5_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_call6_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_call7_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_call8_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_call9_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_call10_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_call11_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_11 : Ref sig .tc := ⟨.hbm, 67, rfl⟩
abbrev main_call12_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_12 : Ref sig .tc := ⟨.hbm, 72, rfl⟩
abbrev main_call13_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S7x4095_S1x4095_0_0 : S7x4095.Slices ![0, 0] S1x4095
  shapeCasts_S1x4095_S4095 : S1x4095.ShapeCasts S4095
  pads_S4095_S4096_010 : S4095.Pads (![0] : Fin 1 → Nat) ![1] ![0] S4096
  h_S_ : 0 < S_.numel
  pads_S4095_S4096_100 : S4095.Pads (![1] : Fin 1 → Nat) ![0] ![0] S4096
  slices_S7x4095_S1x4094_1_0 : S7x4095.Slices ![1, 0] S1x4094
  shapeCasts_S1x4094_S4094 : S1x4094.ShapeCasts S4094
  pads_S4094_S4096_020 : S4094.Pads (![0] : Fin 1 → Nat) ![2] ![0] S4096
  pads_S4094_S4096_200 : S4094.Pads (![2] : Fin 1 → Nat) ![0] ![0] S4096
  slices_S7x4095_S1x4093_2_0 : S7x4095.Slices ![2, 0] S1x4093
  shapeCasts_S1x4093_S4093 : S1x4093.ShapeCasts S4093
  pads_S4093_S4096_030 : S4093.Pads (![0] : Fin 1 → Nat) ![3] ![0] S4096
  pads_S4093_S4096_300 : S4093.Pads (![3] : Fin 1 → Nat) ![0] ![0] S4096
  slices_S7x4095_S1x4092_3_0 : S7x4095.Slices ![3, 0] S1x4092
  shapeCasts_S1x4092_S4092 : S1x4092.ShapeCasts S4092
  pads_S4092_S4096_040 : S4092.Pads (![0] : Fin 1 → Nat) ![4] ![0] S4096
  pads_S4092_S4096_400 : S4092.Pads (![4] : Fin 1 → Nat) ![0] ![0] S4096
  slices_S7x4095_S1x4091_4_0 : S7x4095.Slices ![4, 0] S1x4091
  shapeCasts_S1x4091_S4091 : S1x4091.ShapeCasts S4091
  pads_S4091_S4096_050 : S4091.Pads (![0] : Fin 1 → Nat) ![5] ![0] S4096
  pads_S4091_S4096_500 : S4091.Pads (![5] : Fin 1 → Nat) ![0] ![0] S4096
  slices_S7x4095_S1x4090_5_0 : S7x4095.Slices ![5, 0] S1x4090
  shapeCasts_S1x4090_S4090 : S1x4090.ShapeCasts S4090
  pads_S4090_S4096_060 : S4090.Pads (![0] : Fin 1 → Nat) ![6] ![0] S4096
  pads_S4090_S4096_600 : S4090.Pads (![6] : Fin 1 → Nat) ![0] ![0] S4096
  slices_S7x4095_S1x4089_6_0 : S7x4095.Slices ![6, 0] S1x4089
  shapeCasts_S1x4089_S4089 : S1x4089.ShapeCasts S4089
  pads_S4089_S4096_070 : S4089.Pads (![0] : Fin 1 → Nat) ![7] ![0] S4096
  pads_S4089_S4096_700 : S4089.Pads (![7] : Fin 1 → Nat) ![0] ![0] S4096
  bcast_S4096_S1x4096_1 : S4096.BroadcastsInDim S1x4096 (![1] : Fin 1 → Fin S1x4096.rank)
  concatenates_S1x4096_S1x4096_S1x4096_S1x4096_S1x4096_S1x4096_S1x4096_S7x4096_d0 : Shape.Concatenates [S1x4096, S1x4096, S1x4096, S1x4096, S1x4096, S1x4096, S1x4096] S7x4096 0
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S7x4096_S7x4096_0_0 : ∀ a, (![0, 0] : Fin 2 → Nat) a + S7x4096.size a ≤ S7x4096.size a
  h_S7x4096 : 0 < S7x4096.numel
  shapeCasts_S7x4096_S7x4096 : S7x4096.ShapeCasts S7x4096
  broadcasts_S1x4096_S256x4096 : S1x4096.Broadcasts S256x4096
  slices_S7x4096_o0_0_S1x4096 : S7x4096.Slices ![0, 0] S1x4096
  rotates_S256x4096_d1 : S256x4096.Rotates 1 none
  slices_S7x4096_o1_0_S1x4096 : S7x4096.Slices ![1, 0] S1x4096
  slices_S7x4096_o2_0_S1x4096 : S7x4096.Slices ![2, 0] S1x4096
  slices_S7x4096_o3_0_S1x4096 : S7x4096.Slices ![3, 0] S1x4096
  slices_S7x4096_o4_0_S1x4096 : S7x4096.Slices ![4, 0] S1x4096
  slices_S7x4096_o5_0_S1x4096 : S7x4096.Slices ![5, 0] S1x4096
  slices_S7x4096_o6_0_S1x4096 : S7x4096.Slices ![6, 0] S1x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x4096.size a ≤ S7x4096.size a
  hwx0_2 : ∀ i : grid0.Coords, EltTy.bits .f32 = 32 ∨ (Rect.block (s := S7x4096) S7x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x4096.size a ≤ S7x4096.size a
  hwx0_3 : ∀ i : grid0.Coords, EltTy.bits .f32 = 32 ∨ (Rect.block (s := S7x4096) S7x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S7x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S7x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S7x4095 : Shape := ⟨2, ![7, 4095]⟩
abbrev S_ : Shape := ⟨0, ![]⟩
abbrev S4096x4096 : Shape := ⟨2, ![4096, 4096]⟩
abbrev S4096x1 : Shape := ⟨2, ![4096, 1]⟩
abbrev S1x4095 : Shape := ⟨2, ![1, 4095]⟩
abbrev S4095 : Shape := ⟨1, ![4095]⟩
abbrev S1x4094 : Shape := ⟨2, ![1, 4094]⟩
abbrev S4094 : Shape := ⟨1, ![4094]⟩
abbrev S1x4093 : Shape := ⟨2, ![1, 4093]⟩
abbrev S4093 : Shape := ⟨1, ![4093]⟩
abbrev S1x4092 : Shape := ⟨2, ![1, 4092]⟩
abbrev S4092 : Shape := ⟨1, ![4092]⟩
abbrev S1x4091 : Shape := ⟨2, ![1, 4091]⟩
abbrev S4091 : Shape := ⟨1, ![4091]⟩
abbrev S1x4090 : Shape := ⟨2, ![1, 4090]⟩
abbrev S4090 : Shape := ⟨1, ![4090]⟩
abbrev S1x4089 : Shape := ⟨2, ![1, 4089]⟩
abbrev S4089 : Shape := ⟨1, ![4089]⟩
abbrev S1x4096 : Shape := ⟨2, ![1, 4096]⟩

abbrev nBuf : Space → Nat
  | .hbm => 246
  | .vmem => 0
  | .smem => 0
  | _ => 0

abbrev hbmTy0_0 (i : Nat) : BufTy := match i % 128 with
  | 0 => ⟨S8192x4096, .f32⟩
  | 1 => ⟨S4096, .f32⟩
  | 2 => ⟨S7x4095, .f32⟩
  | 3 => ⟨S7x4095, .f32⟩
  | 4 => ⟨S4096, .f32⟩
  | 5 => ⟨S_, .f32⟩
  | 6 => ⟨S4096, .f32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S4096x4096, .i1⟩
  | 13 => ⟨S4096x1, .f32⟩
  | 14 => ⟨S_, .f32⟩
  | 15 => ⟨S4096x4096, .f32⟩
  | 16 => ⟨S4096x4096, .f32⟩
  | 17 => ⟨S4096x4096, .f32⟩
  | 18 => ⟨S1x4095, .f32⟩
  | 19 => ⟨S4095, .f32⟩
  | 20 => ⟨S_, .f32⟩
  | 21 => ⟨S4096, .f32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .i1⟩
  | 28 => ⟨S4096x1, .f32⟩
  | 29 => ⟨S_, .f32⟩
  | 30 => ⟨S4096x4096, .f32⟩
  | 31 => ⟨S4096x4096, .f32⟩
  | 32 => ⟨S4096x4096, .f32⟩
  | 33 => ⟨S4096x4096, .f32⟩
  | 34 => ⟨S1x4095, .f32⟩
  | 35 => ⟨S4095, .f32⟩
  | 36 => ⟨S_, .f32⟩
  | 37 => ⟨S4096, .f32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .i1⟩
  | 44 => ⟨S4096x1, .f32⟩
  | 45 => ⟨S_, .f32⟩
  | 46 => ⟨S4096x4096, .f32⟩
  | 47 => ⟨S4096x4096, .f32⟩
  | 48 => ⟨S4096x4096, .f32⟩
  | 49 => ⟨S4096x4096, .f32⟩
  | 50 => ⟨S1x4094, .f32⟩
  | 51 => ⟨S4094, .f32⟩
  | 52 => ⟨S_, .f32⟩
  | 53 => ⟨S4096, .f32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S4096x4096, .i1⟩
  | 60 => ⟨S4096x1, .f32⟩
  | 61 => ⟨S_, .f32⟩
  | 62 => ⟨S4096x4096, .f32⟩
  | 63 => ⟨S4096x4096, .f32⟩
  | 64 => ⟨S4096x4096, .f32⟩
  | 65 => ⟨S4096x4096, .f32⟩
  | 66 => ⟨S1x4094, .f32⟩
  | 67 => ⟨S4094, .f32⟩
  | 68 => ⟨S_, .f32⟩
  | 69 => ⟨S4096, .f32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S4096x4096, .i1⟩
  | 76 => ⟨S4096x1, .f32⟩
  | 77 => ⟨S_, .f32⟩
  | 78 => ⟨S4096x4096, .f32⟩
  | 79 => ⟨S4096x4096, .f32⟩
  | 80 => ⟨S4096x4096, .f32⟩
  | 81 => ⟨S4096x4096, .f32⟩
  | 82 => ⟨S1x4093, .f32⟩
  | 83 => ⟨S4093, .f32⟩
  | 84 => ⟨S_, .f32⟩
  | 85 => ⟨S4096, .f32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i1⟩
  | 92 => ⟨S4096x1, .f32⟩
  | 93 => ⟨S_, .f32⟩
  | 94 => ⟨S4096x4096, .f32⟩
  | 95 => ⟨S4096x4096, .f32⟩
  | 96 => ⟨S4096x4096, .f32⟩
  | 97 => ⟨S4096x4096, .f32⟩
  | 98 => ⟨S1x4093, .f32⟩
  | 99 => ⟨S4093, .f32⟩
  | 100 => ⟨S_, .f32⟩
  | 101 => ⟨S4096, .f32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i1⟩
  | 108 => ⟨S4096x1, .f32⟩
  | 109 => ⟨S_, .f32⟩
  | 110 => ⟨S4096x4096, .f32⟩
  | 111 => ⟨S4096x4096, .f32⟩
  | 112 => ⟨S4096x4096, .f32⟩
  | 113 => ⟨S4096x4096, .f32⟩
  | 114 => ⟨S1x4092, .f32⟩
  | 115 => ⟨S4092, .f32⟩
  | 116 => ⟨S_, .f32⟩
  | 117 => ⟨S4096, .f32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S4096x4096, .i1⟩
  | 124 => ⟨S4096x1, .f32⟩
  | 125 => ⟨S_, .f32⟩
  | 126 => ⟨S4096x4096, .f32⟩
  | 127 => ⟨S4096x4096, .f32⟩
  | _ => ⟨S8192x4096, .f32⟩

abbrev hbmTy0_1 (i : Nat) : BufTy := match i % 128 with
  | 0 => ⟨S4096x4096, .f32⟩
  | 1 => ⟨S4096x4096, .f32⟩
  | 2 => ⟨S1x4092, .f32⟩
  | 3 => ⟨S4092, .f32⟩
  | 4 => ⟨S_, .f32⟩
  | 5 => ⟨S4096, .f32⟩
  | 6 => ⟨S4096x4096, .i32⟩
  | 7 => ⟨S4096x4096, .i32⟩
  | 8 => ⟨S_, .i32⟩
  | 9 => ⟨S4096x4096, .i32⟩
  | 10 => ⟨S4096x4096, .i32⟩
  | 11 => ⟨S4096x4096, .i1⟩
  | 12 => ⟨S4096x1, .f32⟩
  | 13 => ⟨S_, .f32⟩
  | 14 => ⟨S4096x4096, .f32⟩
  | 15 => ⟨S4096x4096, .f32⟩
  | 16 => ⟨S4096x4096, .f32⟩
  | 17 => ⟨S4096x4096, .f32⟩
  | 18 => ⟨S1x4091, .f32⟩
  | 19 => ⟨S4091, .f32⟩
  | 20 => ⟨S_, .f32⟩
  | 21 => ⟨S4096, .f32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .i1⟩
  | 28 => ⟨S4096x1, .f32⟩
  | 29 => ⟨S_, .f32⟩
  | 30 => ⟨S4096x4096, .f32⟩
  | 31 => ⟨S4096x4096, .f32⟩
  | 32 => ⟨S4096x4096, .f32⟩
  | 33 => ⟨S4096x4096, .f32⟩
  | 34 => ⟨S1x4091, .f32⟩
  | 35 => ⟨S4091, .f32⟩
  | 36 => ⟨S_, .f32⟩
  | 37 => ⟨S4096, .f32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .i1⟩
  | 44 => ⟨S4096x1, .f32⟩
  | 45 => ⟨S_, .f32⟩
  | 46 => ⟨S4096x4096, .f32⟩
  | 47 => ⟨S4096x4096, .f32⟩
  | 48 => ⟨S4096x4096, .f32⟩
  | 49 => ⟨S4096x4096, .f32⟩
  | 50 => ⟨S1x4090, .f32⟩
  | 51 => ⟨S4090, .f32⟩
  | 52 => ⟨S_, .f32⟩
  | 53 => ⟨S4096, .f32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S4096x4096, .i1⟩
  | 60 => ⟨S4096x1, .f32⟩
  | 61 => ⟨S_, .f32⟩
  | 62 => ⟨S4096x4096, .f32⟩
  | 63 => ⟨S4096x4096, .f32⟩
  | 64 => ⟨S4096x4096, .f32⟩
  | 65 => ⟨S4096x4096, .f32⟩
  | 66 => ⟨S1x4090, .f32⟩
  | 67 => ⟨S4090, .f32⟩
  | 68 => ⟨S_, .f32⟩
  | 69 => ⟨S4096, .f32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S4096x4096, .i1⟩
  | 76 => ⟨S4096x1, .f32⟩
  | 77 => ⟨S_, .f32⟩
  | 78 => ⟨S4096x4096, .f32⟩
  | 79 => ⟨S4096x4096, .f32⟩
  | 80 => ⟨S4096x4096, .f32⟩
  | 81 => ⟨S4096x4096, .f32⟩
  | 82 => ⟨S1x4089, .f32⟩
  | 83 => ⟨S4089, .f32⟩
  | 84 => ⟨S_, .f32⟩
  | 85 => ⟨S4096, .f32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i1⟩
  | 92 => ⟨S4096x1, .f32⟩
  | 93 => ⟨S_, .f32⟩
  | 94 => ⟨S4096x4096, .f32⟩
  | 95 => ⟨S4096x4096, .f32⟩
  | 96 => ⟨S4096x4096, .f32⟩
  | 97 => ⟨S4096x4096, .f32⟩
  | 98 => ⟨S1x4089, .f32⟩
  | 99 => ⟨S4089, .f32⟩
  | 100 => ⟨S_, .f32⟩
  | 101 => ⟨S4096, .f32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i1⟩
  | 108 => ⟨S4096x1, .f32⟩
  | 109 => ⟨S_, .f32⟩
  | 110 => ⟨S4096x4096, .f32⟩
  | 111 => ⟨S4096x4096, .f32⟩
  | 112 => ⟨S4096x4096, .f32⟩
  | 113 => ⟨S4096x4096, .f32⟩
  | 114 => ⟨S8192x4096, .f32⟩
  | 115 => ⟨S1x4096, .f32⟩
  | 116 => ⟨S8192x4096, .f32⟩
  | 117 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_c : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_0 : Ref sig .tc := ⟨.hbm, 29, rfl⟩
abbrev main_call1_call0_v0 : Ref sig .tc := ⟨.hbm, 30, rfl⟩
abbrev main_call1_call0_v1 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_call2_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_c : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_0 : Ref sig .tc := ⟨.hbm, 45, rfl⟩
abbrev main_call2_call0_v0 : Ref sig .tc := ⟨.hbm, 46, rfl⟩
abbrev main_call2_call0_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_call3_cst : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_c : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_cst_0 : Ref sig .tc := ⟨.hbm, 61, rfl⟩
abbrev main_call3_call0_v0 : Ref sig .tc := ⟨.hbm, 62, rfl⟩
abbrev main_call3_call0_v1 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_call4_cst : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_c : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_cst_0 : Ref sig .tc := ⟨.hbm, 77, rfl⟩
abbrev main_call4_call0_v0 : Ref sig .tc := ⟨.hbm, 78, rfl⟩
abbrev main_call4_call0_v1 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_call5_cst : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_c : Ref sig .tc := ⟨.hbm, 88, rfl⟩
abbrev main_call5_v3 : Ref sig .tc := ⟨.hbm, 89, rfl⟩
abbrev main_call5_v4 : Ref sig .tc := ⟨.hbm, 90, rfl⟩
abbrev main_call5_v5 : Ref sig .tc := ⟨.hbm, 91, rfl⟩
abbrev main_call5_v6 : Ref sig .tc := ⟨.hbm, 92, rfl⟩
abbrev main_call5_cst_0 : Ref sig .tc := ⟨.hbm, 93, rfl⟩
abbrev main_call5_call0_v0 : Ref sig .tc := ⟨.hbm, 94, rfl⟩
abbrev main_call5_call0_v1 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_call6_cst : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_c : Ref sig .tc := ⟨.hbm, 104, rfl⟩
abbrev main_call6_v3 : Ref sig .tc := ⟨.hbm, 105, rfl⟩
abbrev main_call6_v4 : Ref sig .tc := ⟨.hbm, 106, rfl⟩
abbrev main_call6_v5 : Ref sig .tc := ⟨.hbm, 107, rfl⟩
abbrev main_call6_v6 : Ref sig .tc := ⟨.hbm, 108, rfl⟩
abbrev main_call6_cst_0 : Ref sig .tc := ⟨.hbm, 109, rfl⟩
abbrev main_call6_call0_v0 : Ref sig .tc := ⟨.hbm, 110, rfl⟩
abbrev main_call6_call0_v1 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_call7_cst : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_c : Ref sig .tc := ⟨.hbm, 120, rfl⟩
abbrev main_call7_v3 : Ref sig .tc := ⟨.hbm, 121, rfl⟩
abbrev main_call7_v4 : Ref sig .tc := ⟨.hbm, 122, rfl⟩
abbrev main_call7_v5 : Ref sig .tc := ⟨.hbm, 123, rfl⟩
abbrev main_call7_v6 : Ref sig .tc := ⟨.hbm, 124, rfl⟩
abbrev main_call7_cst_0 : Ref sig .tc := ⟨.hbm, 125, rfl⟩
abbrev main_call7_call0_v0 : Ref sig .tc := ⟨.hbm, 126, rfl⟩
abbrev main_call7_call0_v1 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_call8_cst : Ref sig .tc := ⟨.hbm, 132, rfl⟩
abbrev main_call8_v0 : Ref sig .tc := ⟨.hbm, 133, rfl⟩
abbrev main_call8_v1 : Ref sig .tc := ⟨.hbm, 134, rfl⟩
abbrev main_call8_v2 : Ref sig .tc := ⟨.hbm, 135, rfl⟩
abbrev main_call8_c : Ref sig .tc := ⟨.hbm, 136, rfl⟩
abbrev main_call8_v3 : Ref sig .tc := ⟨.hbm, 137, rfl⟩
abbrev main_call8_v4 : Ref sig .tc := ⟨.hbm, 138, rfl⟩
abbrev main_call8_v5 : Ref sig .tc := ⟨.hbm, 139, rfl⟩
abbrev main_call8_v6 : Ref sig .tc := ⟨.hbm, 140, rfl⟩
abbrev main_call8_cst_0 : Ref sig .tc := ⟨.hbm, 141, rfl⟩
abbrev main_call8_call0_v0 : Ref sig .tc := ⟨.hbm, 142, rfl⟩
abbrev main_call8_call0_v1 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call9_cst : Ref sig .tc := ⟨.hbm, 148, rfl⟩
abbrev main_call9_v0 : Ref sig .tc := ⟨.hbm, 149, rfl⟩
abbrev main_call9_v1 : Ref sig .tc := ⟨.hbm, 150, rfl⟩
abbrev main_call9_v2 : Ref sig .tc := ⟨.hbm, 151, rfl⟩
abbrev main_call9_c : Ref sig .tc := ⟨.hbm, 152, rfl⟩
abbrev main_call9_v3 : Ref sig .tc := ⟨.hbm, 153, rfl⟩
abbrev main_call9_v4 : Ref sig .tc := ⟨.hbm, 154, rfl⟩
abbrev main_call9_v5 : Ref sig .tc := ⟨.hbm, 155, rfl⟩
abbrev main_call9_v6 : Ref sig .tc := ⟨.hbm, 156, rfl⟩
abbrev main_call9_cst_0 : Ref sig .tc := ⟨.hbm, 157, rfl⟩
abbrev main_call9_call0_v0 : Ref sig .tc := ⟨.hbm, 158, rfl⟩
abbrev main_call9_call0_v1 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_call10_cst : Ref sig .tc := ⟨.hbm, 164, rfl⟩
abbrev main_call10_v0 : Ref sig .tc := ⟨.hbm, 165, rfl⟩
abbrev main_call10_v1 : Ref sig .tc := ⟨.hbm, 166, rfl⟩
abbrev main_call10_v2 : Ref sig .tc := ⟨.hbm, 167, rfl⟩
abbrev main_call10_c : Ref sig .tc := ⟨.hbm, 168, rfl⟩
abbrev main_call10_v3 : Ref sig .tc := ⟨.hbm, 169, rfl⟩
abbrev main_call10_v4 : Ref sig .tc := ⟨.hbm, 170, rfl⟩
abbrev main_call10_v5 : Ref sig .tc := ⟨.hbm, 171, rfl⟩
abbrev main_call10_v6 : Ref sig .tc := ⟨.hbm, 172, rfl⟩
abbrev main_call10_cst_0 : Ref sig .tc := ⟨.hbm, 173, rfl⟩
abbrev main_call10_call0_v0 : Ref sig .tc := ⟨.hbm, 174, rfl⟩
abbrev main_call10_call0_v1 : Ref sig .tc := ⟨.hbm, 175, rfl⟩
abbrev main_v39 : Ref sig .tc := ⟨.hbm, 176, rfl⟩
abbrev main_v40 : Ref sig .tc := ⟨.hbm, 177, rfl⟩
abbrev main_v41 : Ref sig .tc := ⟨.hbm, 178, rfl⟩
abbrev main_v42 : Ref sig .tc := ⟨.hbm, 179, rfl⟩
abbrev main_call11_cst : Ref sig .tc := ⟨.hbm, 180, rfl⟩
abbrev main_call11_v0 : Ref sig .tc := ⟨.hbm, 181, rfl⟩
abbrev main_call11_v1 : Ref sig .tc := ⟨.hbm, 182, rfl⟩
abbrev main_call11_v2 : Ref sig .tc := ⟨.hbm, 183, rfl⟩
abbrev main_call11_c : Ref sig .tc := ⟨.hbm, 184, rfl⟩
abbrev main_call11_v3 : Ref sig .tc := ⟨.hbm, 185, rfl⟩
abbrev main_call11_v4 : Ref sig .tc := ⟨.hbm, 186, rfl⟩
abbrev main_call11_v5 : Ref sig .tc := ⟨.hbm, 187, rfl⟩
abbrev main_call11_v6 : Ref sig .tc := ⟨.hbm, 188, rfl⟩
abbrev main_call11_cst_0 : Ref sig .tc := ⟨.hbm, 189, rfl⟩
abbrev main_call11_call0_v0 : Ref sig .tc := ⟨.hbm, 190, rfl⟩
abbrev main_call11_call0_v1 : Ref sig .tc := ⟨.hbm, 191, rfl⟩
abbrev main_v43 : Ref sig .tc := ⟨.hbm, 192, rfl⟩
abbrev main_v44 : Ref sig .tc := ⟨.hbm, 193, rfl⟩
abbrev main_v45 : Ref sig .tc := ⟨.hbm, 194, rfl⟩
abbrev main_v46 : Ref sig .tc := ⟨.hbm, 195, rfl⟩
abbrev main_call12_cst : Ref sig .tc := ⟨.hbm, 196, rfl⟩
abbrev main_call12_v0 : Ref sig .tc := ⟨.hbm, 197, rfl⟩
abbrev main_call12_v1 : Ref sig .tc := ⟨.hbm, 198, rfl⟩
abbrev main_call12_v2 : Ref sig .tc := ⟨.hbm, 199, rfl⟩
abbrev main_call12_c : Ref sig .tc := ⟨.hbm, 200, rfl⟩
abbrev main_call12_v3 : Ref sig .tc := ⟨.hbm, 201, rfl⟩
abbrev main_call12_v4 : Ref sig .tc := ⟨.hbm, 202, rfl⟩
abbrev main_call12_v5 : Ref sig .tc := ⟨.hbm, 203, rfl⟩
abbrev main_call12_v6 : Ref sig .tc := ⟨.hbm, 204, rfl⟩
abbrev main_call12_cst_0 : Ref sig .tc := ⟨.hbm, 205, rfl⟩
abbrev main_call12_call0_v0 : Ref sig .tc := ⟨.hbm, 206, rfl⟩
abbrev main_call12_call0_v1 : Ref sig .tc := ⟨.hbm, 207, rfl⟩
abbrev main_v47 : Ref sig .tc := ⟨.hbm, 208, rfl⟩
abbrev main_v48 : Ref sig .tc := ⟨.hbm, 209, rfl⟩
abbrev main_v49 : Ref sig .tc := ⟨.hbm, 210, rfl⟩
abbrev main_v50 : Ref sig .tc := ⟨.hbm, 211, rfl⟩
abbrev main_call13_cst : Ref sig .tc := ⟨.hbm, 212, rfl⟩
abbrev main_call13_v0 : Ref sig .tc := ⟨.hbm, 213, rfl⟩
abbrev main_call13_v1 : Ref sig .tc := ⟨.hbm, 214, rfl⟩
abbrev main_call13_v2 : Ref sig .tc := ⟨.hbm, 215, rfl⟩
abbrev main_call13_c : Ref sig .tc := ⟨.hbm, 216, rfl⟩
abbrev main_call13_v3 : Ref sig .tc := ⟨.hbm, 217, rfl⟩
abbrev main_call13_v4 : Ref sig .tc := ⟨.hbm, 218, rfl⟩
abbrev main_call13_v5 : Ref sig .tc := ⟨.hbm, 219, rfl⟩
abbrev main_call13_v6 : Ref sig .tc := ⟨.hbm, 220, rfl⟩
abbrev main_call13_cst_0 : Ref sig .tc := ⟨.hbm, 221, rfl⟩
abbrev main_call13_call0_v0 : Ref sig .tc := ⟨.hbm, 222, rfl⟩
abbrev main_call13_call0_v1 : Ref sig .tc := ⟨.hbm, 223, rfl⟩
abbrev main_v51 : Ref sig .tc := ⟨.hbm, 224, rfl⟩
abbrev main_v52 : Ref sig .tc := ⟨.hbm, 225, rfl⟩
abbrev main_v53 : Ref sig .tc := ⟨.hbm, 226, rfl⟩
abbrev main_v54 : Ref sig .tc := ⟨.hbm, 227, rfl⟩
abbrev main_call14_cst : Ref sig .tc := ⟨.hbm, 228, rfl⟩
abbrev main_call14_v0 : Ref sig .tc := ⟨.hbm, 229, rfl⟩
abbrev main_call14_v1 : Ref sig .tc := ⟨.hbm, 230, rfl⟩
abbrev main_call14_v2 : Ref sig .tc := ⟨.hbm, 231, rfl⟩
abbrev main_call14_c : Ref sig .tc := ⟨.hbm, 232, rfl⟩
abbrev main_call14_v3 : Ref sig .tc := ⟨.hbm, 233, rfl⟩
abbrev main_call14_v4 : Ref sig .tc := ⟨.hbm, 234, rfl⟩
abbrev main_call14_v5 : Ref sig .tc := ⟨.hbm, 235, rfl⟩
abbrev main_call14_v6 : Ref sig .tc := ⟨.hbm, 236, rfl⟩
abbrev main_call14_cst_0 : Ref sig .tc := ⟨.hbm, 237, rfl⟩
abbrev main_call14_call0_v0 : Ref sig .tc := ⟨.hbm, 238, rfl⟩
abbrev main_call14_call0_v1 : Ref sig .tc := ⟨.hbm, 239, rfl⟩
abbrev main_v55 : Ref sig .tc := ⟨.hbm, 240, rfl⟩
abbrev main_v56 : Ref sig .tc := ⟨.hbm, 241, rfl⟩
abbrev main_v57 : Ref sig .tc := ⟨.hbm, 242, rfl⟩
abbrev main_v58 : Ref sig .tc := ⟨.hbm, 243, rfl⟩
abbrev main_v59 : Ref sig .tc := ⟨.hbm, 244, rfl⟩
abbrev main_v60 : Ref sig .tc := ⟨.hbm, 245, rfl⟩

abbrev nD : Nat := 1
abbrev τ : Topo := Topo.v7x

variable {F : FTy → Type} [FloatOps F]

class Facts₀ : Prop where
  pads_S4096_S4096_000 : S4096.Pads (![0] : Fin 1 → Nat) ![0] ![0] S4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  slices_S7x4095_S1x4095_0_0 : S7x4095.Slices ![0, 0] S1x4095
  shapeCasts_S1x4095_S4095 : S1x4095.ShapeCasts S4095
  pads_S4095_S4096_100 : S4095.Pads (![1] : Fin 1 → Nat) ![0] ![0] S4096
  pads_S4095_S4096_010 : S4095.Pads (![0] : Fin 1 → Nat) ![1] ![0] S4096
  slices_S7x4095_S1x4094_1_0 : S7x4095.Slices ![1, 0] S1x4094
  shapeCasts_S1x4094_S4094 : S1x4094.ShapeCasts S4094
  pads_S4094_S4096_200 : S4094.Pads (![2] : Fin 1 → Nat) ![0] ![0] S4096
  pads_S4094_S4096_020 : S4094.Pads (![0] : Fin 1 → Nat) ![2] ![0] S4096
  slices_S7x4095_S1x4093_2_0 : S7x4095.Slices ![2, 0] S1x4093
  shapeCasts_S1x4093_S4093 : S1x4093.ShapeCasts S4093
  pads_S4093_S4096_300 : S4093.Pads (![3] : Fin 1 → Nat) ![0] ![0] S4096
  pads_S4093_S4096_030 : S4093.Pads (![0] : Fin 1 → Nat) ![3] ![0] S4096
  slices_S7x4095_S1x4092_3_0 : S7x4095.Slices ![3, 0] S1x4092
  shapeCasts_S1x4092_S4092 : S1x4092.ShapeCasts S4092
  pads_S4092_S4096_400 : S4092.Pads (![4] : Fin 1 → Nat) ![0] ![0] S4096
  pads_S4092_S4096_040 : S4092.Pads (![0] : Fin 1 → Nat) ![4] ![0] S4096
  slices_S7x4095_S1x4091_4_0 : S7x4095.Slices ![4, 0] S1x4091
  shapeCasts_S1x4091_S4091 : S1x4091.ShapeCasts S4091
  pads_S4091_S4096_500 : S4091.Pads (![5] : Fin 1 → Nat) ![0] ![0] S4096
  pads_S4091_S4096_050 : S4091.Pads (![0] : Fin 1 → Nat) ![5] ![0] S4096
  slices_S7x4095_S1x4090_5_0 : S7x4095.Slices ![5, 0] S1x4090
  shapeCasts_S1x4090_S4090 : S1x4090.ShapeCasts S4090
  pads_S4090_S4096_600 : S4090.Pads (![6] : Fin 1 → Nat) ![0] ![0] S4096
  pads_S4090_S4096_060 : S4090.Pads (![0] : Fin 1 → Nat) ![6] ![0] S4096
  slices_S7x4095_S1x4089_6_0 : S7x4095.Slices ![6, 0] S1x4089
  shapeCasts_S1x4089_S4089 : S1x4089.ShapeCasts S4089
  pads_S4089_S4096_700 : S4089.Pads (![7] : Fin 1 → Nat) ![0] ![0] S4096
  pads_S4089_S4096_070 : S4089.Pads (![0] : Fin 1 → Nat) ![7] ![0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelEntry.lean ====
/-
  The host lines of the program before its one kernel call, as the list of their stretches, and what each buffer of a
  core holds when the call is entered: the launch contents folded through those lines, in order.
-/
import proofs.«138330_j66048007078594_2_alg».proof.Proof.Gen.Kernel.Launch

noncomputable section

namespace Cert.Kernel.Band

open Idealize.ShloMosaic Idealize.ShloMosaic.TcCoe Idealize.SL.Sem
open Cert.Kernel Cert.Kernel.Gen

variable {F : FTy → Type} [FloatOps F]

/-- The twenty-nine stretches of host lines before the call, in program order: the diagonals' rows cut out, reshaped and
    zero-filled to 4096, spread to one row each, stacked into the two [7, 4096] tables, and the main diagonal and the
    bias reshaped to one row. -/
abbrev prefixOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18, hostOps0_19,
   hostOps0_20, hostOps0_21, hostOps0_22, hostOps0_23, hostOps0_24, hostOps0_25, hostOps0_26, hostOps0_27, hostOps0_28]

/-- Core `c`'s buffer `b` when the call is entered: the launch contents after the host lines. -/
abbrev V (m : (ℓ : Loc nD τ sig) → Buf (Elt F) ℓ) (c : Dev nD) (b : Ref sig .tc) : Buf (Elt F) ((c : Thread nD τ).loc b) :=
  StableHlo.after (List.flatten prefixOps) (fun b => m (c, b)) b

end Cert.Kernel.Band

end
-- ==== Proof.KernelFrame.lean ====
/-
  The program with the kernel call, run to its end: the host lines before the call leave the five argument arrays as
  launched; the call walks 32 blocks of 256 rows, at each one handing the body the block of `x`, the four one-block
  weight arrays (main diagonal, the two tables of seven laid-out diagonals, bias) and the output block's buffer; the
  body reads the five inputs whole, and overwrites the whole output buffer once. From that: what every array of the
  call holds at the end in terms of what the body leaves at each block, and in particular that the five argument
  arrays end as they began.
-/
import proofs.«138330_j66048007078594_2_alg».proof.Proof.KernelEntry
import proofs.«138330_j66048007078594_2_alg».proof.Proof.Gen.Kernel.Skeleton
import proofs.«138330_j66048007078594_2_alg».proof.Proof.Gen.Kernel.Points
import Idealize.ShloMosaic.Lib.Pipeline.FrameBody
import Idealize.ShloMosaic.Lib.Ring
import Idealize.ShloMosaic.Lib.Tactic

-- the one store's rectangle is the whole 256 × 4096 buffer: checking that it covers walks the long axis
set_option maxRecDepth 16384

noncomputable section

namespace Cert.Kernel.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- Every stretch of host lines touches buffers of the core only. -/
theorem prefix_sub : (prefixOps (F := F)).Forall fun ops => ops.Forall fun op => op.bufs ⊆ StableHlo.tcRefs τ sig := by
  simp only [prefixOps, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub⟩

/-- No host line allocates a buffer. -/
theorem prefix_fresh : (prefixOps (F := F)).Forall fun ops => ops.Forall fun op => op.fresh = ∅ := by
  simp only [prefixOps, List.Forall]; repeat' constructor

/-- The program up to its call: the stretches of host lines in order, then the call, entered at contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps prefix_sub prefix_fresh main_chain

/-- No line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds the window's block at every point — fetched there, or left from the point before
    with the block index unmoved (the four weight windows are fetched once, at the first point) — for any proof data
    whose array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from the run's post -/

/-- From a run to the library's post over any proof data whose arrays are the entry contents: `x` is the first
    window's array, an input, so it ends as the call found it; the other four arguments are no window's array and end
    as the call found them; and the call found all five as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: every one the whole of its buffer -/

abbrev rBlock : Rect S256x4096 := Rect.unit (s := S256x4096) ![0, 0] S256x4096.size inb_S256x4096_S256x4096_0_0
abbrev rRow : Rect S1x4096 := Rect.unit (s := S1x4096) ![0, 0] S1x4096.size inb_S1x4096_S1x4096_0_0
abbrev rTable : Rect S7x4096 := Rect.unit (s := S7x4096) ![0, 0] S7x4096.size inb_S7x4096_S7x4096_0_0

/-! ## What the body leaves in the output buffer -/

/-- The output buffer after the body, from the five input blocks: its one store, of the sum of the fifteen products
    and the bias, over the five whole-buffer reads. -/
def blockOut (x0 : Vec F S256x4096 .f32) (x1 : Vec F S1x4096 .f32) (x2 x3 : Vec F S7x4096 .f32) (x4 : Vec F S1x4096 .f32) : Vec F S256x4096 .f32 :=
  View.canon [⟨rBlock, k0_pay1 (View.ld x0 rBlock) (k0_pay2 (View.ld x2 rTable)) (k0_pay3 (View.ld x3 rTable)) (k0_pay4 (View.ld x4 rRow))
    (k0_pay5 (View.ld x0 rBlock) (View.ld x1 rRow) (View.ld x2 rTable) (View.ld x3 rTable)) (k0_pay6 (View.ld x3 rTable)) 4#32⟩]

/-- The one store is of the whole buffer, so it covers it. -/
theorem cover_out (p0 : Vec F S256x4096 .f32) (y : S256x4096.Idx) :
    ∃ pc ∈ ([⟨rBlock, p0⟩] : List (View.Piece (Elt F) S256x4096 .f32)), y ∈ pc.1.set :=
  View.cover_of_tiled [⟨rBlock, p0⟩] S256x4096.size (by rfl) y

/-! ## The body's triple -/

set_option maxHeartbeats 4000000 in
/-- The body on whole buffers — the five inputs' at contents `x0 … x4`, the output's at anything — runs to the
    continuation with the inputs' as they were and the output's at `blockOut` of them: five reads, a read of the output
    buffer whose value goes nowhere, one store. -/
theorem sound_kernel (c : Dev nD) (E : Set ℕ) (i : grid0.Coords) (arg1 : Memref sig .tc .vmem S256x4096 .f32) (harg1 : arg1.IsWhole) (arg2 : Memref sig .tc .vmem S1x4096 .f32) (harg2 : arg2.IsWhole) (arg3 : Memref sig .tc .vmem S7x4096 .f32) (harg3 : arg3.IsWhole) (arg4 : Memref sig .tc .vmem S7x4096 .f32) (harg4 : arg4.IsWhole) (arg5 : Memref sig .tc .vmem S1x4096 .f32) (harg5 : arg5.IsWhole) (arg6 : Memref sig .tc .vmem S256x4096 .f32) (harg6 : arg6.IsWhole)
    (x0 : Vec F S256x4096 .f32) (x1 : Vec F S1x4096 .f32) (x2 x3 : Vec F S7x4096 .f32) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockOut x0 x1 x2 x3 x4)) -∗ K ⟨⟩))
      ⊢ wp frame (wpE (defs₀ (F := F)) Variants.none c none) E (cc0__banded_kernel i arg1 harg1 arg2 harg2 arg3 harg3 arg4 harg4 arg5 harg5 arg6 harg6) K := by
  simp only [cc0__banded_kernel_eq_skeleton]; unfold cc0__banded_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The call's proof data -/

/-- The proof data of the call on core `c`: the arrays as the call finds them; after the body at point `t` each
    input's buffer at its block, the output's at `blockOut` of the five input blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

/-- The proof data's arrays are the entry contents (the definition projected, the fold over the host lines left
    folded). -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) :
    (dats m 0 c).after 5 t = blockOut (iblk m c 0 t) (iblk m c 1 t) (iblk m c 2 t) (iblk m c 3 t) (iblk m c 4 t) := by dsimp only [dats]

/-- Each input's buffer holds its block at every point. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the argument arrays at its end -/

-- the run theorem's implicit arguments are found by unifying its conclusion with this one, which takes unfolding plain
-- definitions in a metavariable's type
set_option backward.isDefEq.respectTransparency.types false in
/-- From any memory with zero counters: every weakly fair execution of the program on the cores terminates, and at the
    end every array of the call is what the library computes from the proof data and every other unscoped buffer is
    as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Band

end
-- ==== Proof.KernelIdealEntry.lean ====
/-
  The host lines of the program before its one kernel call, as the list of their stretches, and what each buffer of a
  core holds when the call is entered: the launch contents folded through those lines, in order.
-/
import proofs.«138330_j66048007078594_2_alg».proof.Proof.Gen.KernelIdeal.Launch

noncomputable section

namespace Cert.KernelIdeal.Band

open Idealize.ShloMosaic Idealize.ShloMosaic.TcCoe Idealize.SL.Sem
open Cert.KernelIdeal Cert.KernelIdeal.Gen

variable {F : FTy → Type} [FloatOps F]

/-- The twenty-nine stretches of host lines before the call, in program order: the diagonals' rows cut out, reshaped and
    zero-filled to 4096, spread to one row each, stacked into the two [7, 4096] tables, and the main diagonal and the
    bias reshaped to one row. -/
abbrev prefixOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18, hostOps0_19,
   hostOps0_20, hostOps0_21, hostOps0_22, hostOps0_23, hostOps0_24, hostOps0_25, hostOps0_26, hostOps0_27, hostOps0_28]

/-- Core `c`'s buffer `b` when the call is entered: the launch contents after the host lines. -/
abbrev V (m : (ℓ : Loc nD τ sig) → Buf (Elt F) ℓ) (c : Dev nD) (b : Ref sig .tc) : Buf (Elt F) ((c : Thread nD τ).loc b) :=
  StableHlo.after (List.flatten prefixOps) (fun b => m (c, b)) b

end Cert.KernelIdeal.Band

end
-- ==== Proof.KernelIdealFrame.lean ====
/-
  The program with the kernel call, run to its end: the host lines before the call leave the five argument arrays as
  launched; the call walks 32 blocks of 256 rows, at each one handing the body the block of `x`, the four one-block
  weight arrays (main diagonal, the two tables of seven laid-out diagonals, bias) and the output block's buffer; the
  body reads the five inputs whole, and overwrites the whole output buffer once. From that: what every array of the
  call holds at the end in terms of what the body leaves at each block, and in particular that the five argument
  arrays end as they began.
-/
import proofs.«138330_j66048007078594_2_alg».proof.Proof.KernelIdealEntry
import proofs.«138330_j66048007078594_2_alg».proof.Proof.Gen.KernelIdeal.Skeleton
import proofs.«138330_j66048007078594_2_alg».proof.Proof.Gen.KernelIdeal.Points
import Idealize.ShloMosaic.Lib.Pipeline.FrameBody
import Idealize.ShloMosaic.Lib.Ring
import Idealize.ShloMosaic.Lib.Tactic

-- the one store's rectangle is the whole 256 × 4096 buffer: checking that it covers walks the long axis
set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- Every stretch of host lines touches buffers of the core only. -/
theorem prefix_sub : (prefixOps (F := F)).Forall fun ops => ops.Forall fun op => op.bufs ⊆ StableHlo.tcRefs τ sig := by
  simp only [prefixOps, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub⟩

/-- No host line allocates a buffer. -/
theorem prefix_fresh : (prefixOps (F := F)).Forall fun ops => ops.Forall fun op => op.fresh = ∅ := by
  simp only [prefixOps, List.Forall]; repeat' constructor

/-- The program up to its call: the stretches of host lines in order, then the call, entered at contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps prefix_sub prefix_fresh main_chain

/-- No line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds the window's block at every point — fetched there, or left from the point before
    with the block index unmoved (the four weight windows are fetched once, at the first point) — for any proof data
    whose array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from the run's post -/

/-- From a run to the library's post over any proof data whose arrays are the entry contents: `x` is the first
    window's array, an input, so it ends as the call found it; the other four arguments are no window's array and end
    as the call found them; and the call found all five as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: every one the whole of its buffer -/

abbrev rBlock : Rect S256x4096 := Rect.unit (s := S256x4096) ![0, 0] S256x4096.size inb_S256x4096_S256x4096_0_0
abbrev rRow : Rect S1x4096 := Rect.unit (s := S1x4096) ![0, 0] S1x4096.size inb_S1x4096_S1x4096_0_0
abbrev rTable : Rect S7x4096 := Rect.unit (s := S7x4096) ![0, 0] S7x4096.size inb_S7x4096_S7x4096_0_0

/-! ## What the body leaves in the output buffer -/

/-- The output buffer after the body, from the five input blocks: its one store, of the sum of the fifteen products
    and the bias, over the five whole-buffer reads. -/
def blockOut (x0 : Vec F S256x4096 .f32) (x1 : Vec F S1x4096 .f32) (x2 x3 : Vec F S7x4096 .f32) (x4 : Vec F S1x4096 .f32) : Vec F S256x4096 .f32 :=
  View.canon [⟨rBlock, k0_pay1 (View.ld x0 rBlock) (k0_pay2 (View.ld x2 rTable)) (k0_pay3 (View.ld x3 rTable)) (k0_pay4 (View.ld x4 rRow))
    (k0_pay5 (View.ld x0 rBlock) (View.ld x1 rRow) (View.ld x2 rTable) (View.ld x3 rTable)) (k0_pay6 (View.ld x3 rTable)) 4#32⟩]

/-- The one store is of the whole buffer, so it covers it. -/
theorem cover_out (p0 : Vec F S256x4096 .f32) (y : S256x4096.Idx) :
    ∃ pc ∈ ([⟨rBlock, p0⟩] : List (View.Piece (Elt F) S256x4096 .f32)), y ∈ pc.1.set :=
  View.cover_of_tiled [⟨rBlock, p0⟩] S256x4096.size (by rfl) y

/-! ## The body's triple -/

set_option maxHeartbeats 4000000 in
/-- The body on whole buffers — the five inputs' at contents `x0 … x4`, the output's at anything — runs to the
    continuation with the inputs' as they were and the output's at `blockOut` of them: five reads, a read of the output
    buffer whose value goes nowhere, one store. -/
theorem sound_kernel (c : Dev nD) (E : Set ℕ) (i : grid0.Coords) (arg1 : Memref sig .tc .vmem S256x4096 .f32) (harg1 : arg1.IsWhole) (arg2 : Memref sig .tc .vmem S1x4096 .f32) (harg2 : arg2.IsWhole) (arg3 : Memref sig .tc .vmem S7x4096 .f32) (harg3 : arg3.IsWhole) (arg4 : Memref sig .tc .vmem S7x4096 .f32) (harg4 : arg4.IsWhole) (arg5 : Memref sig .tc .vmem S1x4096 .f32) (harg5 : arg5.IsWhole) (arg6 : Memref sig .tc .vmem S256x4096 .f32) (harg6 : arg6.IsWhole)
    (x0 : Vec F S256x4096 .f32) (x1 : Vec F S1x4096 .f32) (x2 x3 : Vec F S7x4096 .f32) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockOut x0 x1 x2 x3 x4)) -∗ K ⟨⟩))
      ⊢ wp frame (wpE (defs₀ (F := F)) Variants.none c none) E (cc0__banded_kernel i arg1 harg1 arg2 harg2 arg3 harg3 arg4 harg4 arg5 harg5 arg6 harg6) K := by
  simp only [cc0__banded_kernel_eq_skeleton]; unfold cc0__banded_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The call's proof data -/

/-- The proof data of the call on core `c`: the arrays as the call finds them; after the body at point `t` each
    input's buffer at its block, the output's at `blockOut` of the five input blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

/-- The proof data's arrays are the entry contents (the definition projected, the fold over the host lines left
    folded). -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) :
    (dats m 0 c).after 5 t = blockOut (iblk m c 0 t) (iblk m c 1 t) (iblk m c 2 t) (iblk m c 3 t) (iblk m c 4 t) := by dsimp only [dats]

/-- Each input's buffer holds its block at every point. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the argument arrays at its end -/

-- the run theorem's implicit arguments are found by unifying its conclusion with this one, which takes unfolding plain
-- definitions in a metavariable's type
set_option backward.isDefEq.respectTransparency.types false in
/-- From any memory with zero counters: every weakly fair execution of the program on the cores terminates, and at the
    end every array of the call is what the library computes from the proof data and every other unscoped buffer is
    as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Band

end
-- ==== Proof.BandSpec.lean ====
/-
  The banded layer as one function of its arguments, in the two arrangements the two programs compute it in.

  A row `x[r, ·]` of 4096 entries meets a 4096 × 4096 matrix whose only entries are a main diagonal `diag`, seven
  sub-diagonals `lower[i, ·]` and seven super-diagonals `upper[i, ·]` (the i-th at distance `i + 1` from the main
  one), and a `bias` is added: the entry at column `q` is
      x[r,q]·diag[q] + Σ_{d = 1..7} ( upper[d-1, q-d]·x[r, q-d] + lower[d-1, q]·x[r, q+d] ) + bias[q],
  a term being absent where its column falls outside 0 … 4095.

  `blockForm` is that entry as a scheme of lane rotations computes it: each diagonal is a row of 4096 weights laid out by
  OUTPUT column (the super-diagonals shifted right by their distance and zero-filled in front, the sub-diagonals
  zero-filled behind), multiplied into the row rotated by the diagonal's distance; where the rotation wraps around the
  end of the row the weight is one of the filled-in zeros. `refForm` is the same entry as the row against column `q` of
  the dense matrix, each of whose entries is the sum of the fifteen diagonals' contributions, at most one of them not zero.
  `refForm_eq_kernelForm` (in the algebra module) is that the two agree on real entries.
-/
import Idealize.ShloMosaic.PureOps.Ideal
import Idealize.ShloMosaic.Lib.ValueIdx

noncomputable section

open scoped BigOperators

namespace Cert.Band

open Idealize.ShloMosaic Idealize.ShloMosaic.ValueIdx

/-- Column `q` moved back by `s` places around the end of a 4096-entry row: the column a rotation by `s` reads at `q`. -/
def rot (q : Fin 4096) (s : Nat) : Fin 4096 := ⟨(q.val + 4096 - s % 4096) % 4096, Nat.mod_lt _ (by norm_num)⟩

/-- Row `i` of a [7, 4095] table of diagonals, cut to its first `4096 - (i+1)` entries and zero-filled BEHIND to 4096:
    entry `k` while `k + (i+1) < 4096`, zero after. -/
def padHi (w : (⟨2, ![7, 4095]⟩ : Shape).Idx → EReal) (i : Fin 7) (k : Fin 4096) : EReal :=
  if h : k.val + (i.val + 1) < 4096 then w (ix2 i (⟨k.val, by omega⟩ : Fin 4095)) else 0

/-- The same row zero-filled IN FRONT by `i + 1` places: entry `k - (i+1)` from place `i + 1` on, zero before. -/
def padLo (w : (⟨2, ![7, 4095]⟩ : Shape).Idx → EReal) (i : Fin 7) (k : Fin 4096) : EReal :=
  if h : i.val + 1 ≤ k.val then w (ix2 i (⟨k.val - (i.val + 1), by have := k.isLt; omega⟩ : Fin 4095)) else 0

/-- One entry of the layer as the rotation scheme adds it up, over a block of `R` rows: the main diagonal's product,
    then for each distance the super-diagonal's weight times the row rotated by the distance and the sub-diagonal's
    weight times the row rotated the other way (by 4096 less the distance), in that order, then the bias. The
    weights are already laid out by output column: `dg`, `bs` one row, `lo`, `up` seven. -/
def blockForm {R : Nat} (xb : (⟨2, ![R, 4096]⟩ : Shape).Idx → EReal) (dg : (⟨2, ![1, 4096]⟩ : Shape).Idx → EReal)
    (lo up : (⟨2, ![7, 4096]⟩ : Shape).Idx → EReal) (bs : (⟨2, ![1, 4096]⟩ : Shape).Idx → EReal)
    (p : Fin R) (q : Fin 4096) : EReal :=
  ((((((((((((((xb (ix2 p q) * dg (ix2 (0 : Fin 1) q)
      + up (ix2 (0 : Fin 7) q) * xb (ix2 p (rot q 1)))
      + lo (ix2 (0 : Fin 7) q) * xb (ix2 p (rot q 4095)))
      + up (ix2 (1 : Fin 7) q) * xb (ix2 p (rot q 2)))
      + lo (ix2 (1 : Fin 7) q) * xb (ix2 p (rot q 4094)))
      + up (ix2 (2 : Fin 7) q) * xb (ix2 p (rot q 3)))
      + lo (ix2 (2 : Fin 7) q) * xb (ix2 p (rot q 4093)))
      + up (ix2 (3 : Fin 7) q) * xb (ix2 p (rot q 4)))
      + lo (ix2 (3 : Fin 7) q) * xb (ix2 p (rot q 4092)))
      + up (ix2 (4 : Fin 7) q) * xb (ix2 p (rot q 5)))
      + lo (ix2 (4 : Fin 7) q) * xb (ix2 p (rot q 4091)))
      + up (ix2 (5 : Fin 7) q) * xb (ix2 p (rot q 6)))
      + lo (ix2 (5 : Fin 7) q) * xb (ix2 p (rot q 4090)))
      + up (ix2 (6 : Fin 7) q) * xb (ix2 p (rot q 7)))
      + lo (ix2 (6 : Fin 7) q) * xb (ix2 p (rot q 4089)))
      + bs (ix2 (0 : Fin 1) q)

/-- The layer's entry at row `r`, column `q` of the whole array, in the rotation scheme's arrangement: `blockForm` over
    all 8192 rows with the weights laid out from the arguments — the diagonal and the bias as they are, the sub-diagonals
    zero-filled behind, the super-diagonals zero-filled in front. -/
def kernelForm (x : (⟨2, ![8192, 4096]⟩ : Shape).Idx → EReal) (diag : (⟨1, ![4096]⟩ : Shape).Idx → EReal)
    (lower upper : (⟨2, ![7, 4095]⟩ : Shape).Idx → EReal) (bias : (⟨1, ![4096]⟩ : Shape).Idx → EReal)
    (r : Fin 8192) (q : Fin 4096) : EReal :=
  blockForm (R := 8192) x (fun j => diag (ix1 (j 1))) (fun j => padHi lower (j 0) (j 1))
    (fun j => padLo upper (j 0) (j 1)) (fun j => bias (ix1 (j 1))) r q

/-- The main diagonal's contribution to entry (k, q) of the dense matrix. -/
def dgE (diag : (⟨1, ![4096]⟩ : Shape).Idx → EReal) (k q : Fin 4096) : EReal :=
  if k.val = q.val then diag (ix1 k) else 0

/-- Sub-diagonal `i`'s contribution to entry (k, q): on the diagonal `k = q + (i+1)`, the row's entry of the diagonal
    zero-filled in front (indexed by the ROW `k`). -/
def subE (lower : (⟨2, ![7, 4095]⟩ : Shape).Idx → EReal) (i : Fin 7) (k q : Fin 4096) : EReal :=
  if k.val = q.val + (i.val + 1) then padLo lower i k else 0

/-- Super-diagonal `i`'s contribution to entry (k, q): on the diagonal `k + (i+1) = q`, the row's entry of the diagonal
    zero-filled behind. -/
def supE (upper : (⟨2, ![7, 4095]⟩ : Shape).Idx → EReal) (i : Fin 7) (k q : Fin 4096) : EReal :=
  if k.val + (i.val + 1) = q.val then padHi upper i k else 0

/-- Entry (k, q) of the dense band matrix as it is assembled: the main diagonal's matrix, then for each distance the
    sub-diagonal's and the super-diagonal's added, in that order. -/
def bandEntry (diag : (⟨1, ![4096]⟩ : Shape).Idx → EReal) (lower upper : (⟨2, ![7, 4095]⟩ : Shape).Idx → EReal)
    (k q : Fin 4096) : EReal :=
  (((((((((((((dgE diag k q + subE lower (0 : Fin 7) k q) + supE upper (0 : Fin 7) k q) + subE lower (1 : Fin 7) k q) + supE upper (1 : Fin 7) k q) + subE lower (2 : Fin 7) k q) + supE upper (2 : Fin 7) k q) + subE lower (3 : Fin 7) k q) + supE upper (3 : Fin 7) k q) + subE lower (4 : Fin 7) k q) + supE upper (4 : Fin 7) k q) + subE lower (5 : Fin 7) k q) + supE upper (5 : Fin 7) k q) + subE lower (6 : Fin 7) k q)
    + supE upper (6 : Fin 7) k q

/-- The layer's entry at row `r`, column `q` as a matrix product: the row against column `q` of the dense band matrix,
    plus the bias. -/
def refForm (x : (⟨2, ![8192, 4096]⟩ : Shape).Idx → EReal) (diag : (⟨1, ![4096]⟩ : Shape).Idx → EReal)
    (lower upper : (⟨2, ![7, 4095]⟩ : Shape).Idx → EReal) (bias : (⟨1, ![4096]⟩ : Shape).Idx → EReal)
    (r : Fin 8192) (q : Fin 4096) : EReal :=
  (∑ k : Fin 4096, x (ix2 r k) * bandEntry diag lower upper k q) + bias (ix1 q)

end Cert.Band

end
-- ==== Proof.KernelIdealBlock.lean ====
/-
  The stored value of the banded kernel's body, read at one entry of its [256, 4096] block.

  The body multiplies the row block by the main diagonal's weights, then for each distance d = 1 … 7 adds the
  super-diagonal's row of weights (row d-1 of its table, spread down the 256 rows) times the block rotated by d
  along the lanes, and the sub-diagonal's row of weights times the block rotated by 4096 - d, and last adds the
  bias row. Two operations of it are not entry by entry: a row of a table spread over the block (at (p, q) it is
  the table at (i, q)) and the rotation along the lanes (at (p, q) it is the block at (p, q moved back by the
  amount around the end of the row)). Each is read once below over variables; the whole value at (p, q) is then
  the rotation scheme's sum `Cert.Band.blockForm`, term by term.
-/
import proofs.«138330_j66048007078594_2_alg».proof.Proof.Gen.KernelIdeal.Skeleton
import proofs.«138330_j66048007078594_2_alg».proof.Proof.BandSpec
import Idealize.ShloMosaic.Lib.KernelVsHost

noncomputable section

namespace Cert.KernelIdeal.BandBlock

open Idealize.ShloMosaic Idealize.ShloMosaic.ValueIdx Cert.KernelIdeal

/-- A one-row matrix spread down the 256 rows of the block, at (p, q), is the row at (0, q). -/
theorem spread_apply (v : S1x4096.Idx → EReal) (hb : S1x4096.Broadcasts S256x4096) (p : Fin 256) (q : Fin 4096) :
    broadcastTo S256x4096 v hb (ix2 p q) = v (ix2 (0 : Fin 1) q) := by
  refine broadcastTo_apply v hb (ix2 p q) (ix2 (0 : Fin 1) q) ?_
  intro a
  match a with
  | ⟨0, _⟩ => rfl
  | ⟨1, _⟩ =>
    show q.val = if (4096 : Nat) = 1 then 0 else q.val
    rw [if_neg (by norm_num)]

/-- Row `i` of a seven-row table spread down the 256 rows of the block, at (p, q), is the table at (i, q). -/
theorem row_spread_apply (i : Fin 7) (n : Nat) (hn : n = i.val) (tb : S7x4096.Idx → EReal)
    (hs : S7x4096.Slices ![n, 0] S1x4096) (hb : S1x4096.Broadcasts S256x4096) (p : Fin 256) (q : Fin 4096) :
    broadcastTo S256x4096 (extractStridedSlice S1x4096 ![n, 0] tb hs) hb (ix2 p q) = tb (ix2 i q) := by
  refine (spread_apply _ hb p q).trans ?_
  refine extractStridedSlice_apply ![n, 0] tb hs (ix2 (0 : Fin 1) q) (ix2 i q) ?_
  intro a
  match a with
  | ⟨0, _⟩ => show i.val = n + 0; omega
  | ⟨1, _⟩ => show q.val = 0 + q.val; omega

/-- The block rotated by `s` places along the lanes, at (p, q), is the block at (p, q moved back by `s` around the
    end of the row). -/
theorem rotate_apply (sb : BitVec 32) (s : Nat) (hs : sb.toNat = s) (x : S256x4096.Idx → EReal)
    (h : S256x4096.Rotates 1 none) (p : Fin 256) (q : Fin 4096) :
    dynamicRotate 1 sb none x h (ix2 p q) = x (ix2 p (Cert.Band.rot q s)) := by
  refine dynamicRotate_apply 1 sb x h (ix2 p q) (ix2 p (Cert.Band.rot q s)) ?_
  intro b
  match b with
  | ⟨0, _⟩ => rfl
  | ⟨1, _⟩ =>
    show (q.val + 4096 - s % 4096) % 4096 = (q.val + 4096 - sb.toNat % 4096) % 4096
    rw [hs]

/-- The body's stored value at entry (p, q) of the block is the rotation scheme's sum. -/
theorem payload_apply (v0 : Vec Ideal S256x4096 .f32) (v1 : Vec Ideal S1x4096 .f32) (v3 v5 : Vec Ideal S7x4096 .f32)
    (v7 : Vec Ideal S1x4096 .f32) (p : Fin 256) (q : Fin 4096) :
    Gen.k0_pay1 v0 (Gen.k0_pay2 v3) (Gen.k0_pay3 v5) (Gen.k0_pay4 v7) (Gen.k0_pay5 v0 v1 v3 v5) (Gen.k0_pay6 v5) 4#32 (ix2 p q)
      = Cert.Band.blockForm (R := 256) v0 v1 v3 v5 v7 p q := by
  unfold Gen.k0_pay1 Gen.k0_pay5 Gen.k0_pay6 Gen.k0_pay2 Gen.k0_pay3 Gen.k0_pay4 Cert.Band.blockForm
  simp only [shapeCast_self, addf_apply, mulf_apply, spread_apply,
    row_spread_apply (0 : Fin 7) 0 rfl, row_spread_apply (1 : Fin 7) 1 rfl, row_spread_apply (2 : Fin 7) 2 rfl,
    row_spread_apply (3 : Fin 7) 3 rfl, row_spread_apply (4 : Fin 7) 4 rfl, row_spread_apply (5 : Fin 7) 5 rfl,
    row_spread_apply (6 : Fin 7) 6 rfl,
    rotate_apply 1#32 1 rfl, rotate_apply 2#32 2 rfl, rotate_apply 3#32 3 rfl, rotate_apply 4#32 4 rfl,
    rotate_apply 5#32 5 rfl, rotate_apply 6#32 6 rfl, rotate_apply 7#32 7 rfl,
    rotate_apply 4095#32 4095 rfl, rotate_apply 4094#32 4094 rfl, rotate_apply 4093#32 4093 rfl,
    rotate_apply 4092#32 4092 rfl, rotate_apply 4091#32 4091 rfl, rotate_apply 4090#32 4090 rfl,
    rotate_apply 4089#32 4089 rfl]

end Cert.KernelIdeal.BandBlock

end
-- ==== Proof.KernelIdealPrefix.lean ====
/-
  What the four weight windows of the banded kernel hold when its call is entered, entry by entry, in terms of the
  program's argument arrays.

  Before the call the host lays each diagonal out by OUTPUT column. For distance d = i + 1 it cuts row i of the
  [7, 4095] array of sub-diagonals to its first 4096 - d entries, reshapes the one-row piece to a vector, fills it
  with d zeros BEHIND up to 4096 entries and spreads it to a [1, 4096] row; the row of the super-diagonals is made the
  same way with the zeros IN FRONT. The seven rows of each kind are stacked into a [7, 4096] table. The main diagonal
  and the bias are reshaped from 4096 entries to one row. The padding value is the integer constant 0 converted to a
  float, which is 0.

  The host lines are a fold over the launch contents. It is opened once per window into the composed operations of
  the arguments (the stacking's seven operands named one by one, so that each operand's own lines are opened in
  turn), and that term is then read at an index: the stacked table's row i is its i-th operand; a spread row at
  (0, q) is the vector at q; a zero-filled vector at q is the cut vector's entry where q falls inside it and the
  padding value elsewhere; a reshaped row keeps its row-major position; a cut row is the array's row.
-/
import proofs.«138330_j66048007078594_2_alg».proof.Proof.KernelIdealEntry
import proofs.«138330_j66048007078594_2_alg».proof.Proof.BandSpec
import Idealize.ShloMosaic.Lib.KernelVsHost
import Idealize.ShloMosaic.Lib.StableHlo.Run

noncomputable section

namespace Cert.KernelIdeal.BandPrefix

section Stacked

open Idealize.ShloMosaic Idealize.ShloMosaic.StableHlo

variable {τ : Topo} {sig : RefSig} {Val : EltTy → Type}

/-- A host line with seven operands, read at its own result buffer: its function of the seven operands' contents,
    each named at its own buffer. -/
theorem pick7_0 {α : Type} (a0 a1 a2 a3 a4 a5 a6 : α) : (![a0, a1, a2, a3, a4, a5, a6] : Fin 7 → α) 0 = a0 := rfl
theorem pick7_1 {α : Type} (a0 a1 a2 a3 a4 a5 a6 : α) : (![a0, a1, a2, a3, a4, a5, a6] : Fin 7 → α) 1 = a1 := rfl
theorem pick7_2 {α : Type} (a0 a1 a2 a3 a4 a5 a6 : α) : (![a0, a1, a2, a3, a4, a5, a6] : Fin 7 → α) 2 = a2 := rfl
theorem pick7_3 {α : Type} (a0 a1 a2 a3 a4 a5 a6 : α) : (![a0, a1, a2, a3, a4, a5, a6] : Fin 7 → α) 3 = a3 := rfl
theorem pick7_4 {α : Type} (a0 a1 a2 a3 a4 a5 a6 : α) : (![a0, a1, a2, a3, a4, a5, a6] : Fin 7 → α) 4 = a4 := rfl
theorem pick7_5 {α : Type} (a0 a1 a2 a3 a4 a5 a6 : α) : (![a0, a1, a2, a3, a4, a5, a6] : Fin 7 → α) 5 = a5 := rfl
theorem pick7_6 {α : Type} (a0 a1 a2 a3 a4 a5 a6 : α) : (![a0, a1, a2, a3, a4, a5, a6] : Fin 7 → α) 6 = a6 := rfl

end Stacked

open Idealize.ShloMosaic Idealize.ShloMosaic.TcCoe Idealize.SL.Sem Idealize.ShloMosaic.ValueIdx
open Cert.KernelIdeal Cert.KernelIdeal.Gen Cert.KernelIdeal.Band
open Idealize.ShloMosaic.StableHlo

/-- One sub-diagonal's row of the lower table at column `q`: row `i` of the [7, 4095] array cut to its first `n`
    entries, reshaped to a vector, zero-filled behind by `d = i + 1` places to 4096 and laid out as one row. -/
theorem hiRow_read (i : Fin 7) (k d n : Nat) (hk : k = i.val) (hd : d = k + 1) (hn : n + d = 4096)
    (w : S7x4095.Idx → EReal)
    (hs : S7x4095.Slices ![k, 0] ⟨2, ![1, n]⟩) (hc : (⟨2, ![1, n]⟩ : Shape).ShapeCasts ⟨1, ![n]⟩)
    (hp : (⟨1, ![n]⟩ : Shape).Pads (![0] : Fin 1 → Nat) ![d] ![0] S4096) (z : S_.Idx → EReal) (hu : 0 < S_.numel)
    (hz : z (Shape.Idx.first hu) = 0)
    (hb : S4096.BroadcastsInDim S1x4096 (![1] : Fin 1 → Fin S1x4096.rank)) (q : Fin 4096) :
    broadcastInDim S1x4096 ![1] hb
        (pad S4096 ![0] ![d] ![0] (shapeCast ⟨1, ![n]⟩ (extractStridedSlice ⟨2, ![1, n]⟩ ![k, 0] w hs) hc) z hp hu)
        (ix2 (0 : Fin 1) q)
      = Cert.Band.padHi w i q := by
  subst hk hd
  refine (broadcastInDim_apply ![1] hb _ (ix2 (0 : Fin 1) q) (ix1 q) ?_).trans ?_
  · intro a
    match a with
    | ⟨0, _⟩ =>
      show q.val = if (4096 : Nat) = 1 then 0 else q.val
      rw [if_neg (by norm_num)]
  unfold Cert.Band.padHi
  by_cases h : q.val + (i.val + 1) < 4096
  · rw [dif_pos h]
    have hqn : q.val < n := by omega
    refine (pad_apply_of_inside ![0] ![i.val + 1] ![0] _ z hp hu (ix1 q) (ix1 (⟨q.val, hqn⟩ : Fin n)) ?_).trans ?_
    · intro a
      match a with
      | ⟨0, _⟩ => show q.val = 0 + q.val * (0 + 1); omega
    refine (shapeCast_apply _ hc (ix1 (⟨q.val, hqn⟩ : Fin n)) (ix2 (0 : Fin 1) (⟨q.val, hqn⟩ : Fin n)) ?_).trans ?_
    · rw [Shape.rowMajor_val_two, Shape.rowMajor_val_one]
      show 0 * n + q.val = q.val
      omega
    refine extractStridedSlice_apply ![i.val, 0] w hs (ix2 (0 : Fin 1) (⟨q.val, hqn⟩ : Fin n))
      (ix2 i (⟨q.val, by omega⟩ : Fin 4095)) ?_
    intro a
    match a with
    | ⟨0, _⟩ => show i.val = i.val + 0; omega
    | ⟨1, _⟩ => show q.val = 0 + q.val; omega
  · rw [dif_neg h]
    refine (pad_apply_of_not_inside ![0] ![i.val + 1] ![0] _ z hp hu (ix1 q) (⟨0, Nat.zero_lt_one⟩ : Fin (⟨1, ![n]⟩ : Shape).rank) ?_).trans hz
    show ¬ (0 ≤ q.val ∧ (q.val - 0) % (0 + 1) = 0 ∧ (q.val - 0) / (0 + 1) < n)
    intro h3
    have h4 := h3.2.2
    rw [Nat.sub_zero, Nat.zero_add, Nat.div_one] at h4
    omega

/-- One super-diagonal's row of the upper table at column `q`: row `i` of the [7, 4095] array cut to its first `n`
    entries, reshaped to a vector, zero-filled in front by `d = i + 1` places to 4096 and laid out as one row. -/
theorem loRow_read (i : Fin 7) (k d n : Nat) (hk : k = i.val) (hd : d = k + 1) (hn : n + d = 4096)
    (w : S7x4095.Idx → EReal)
    (hs : S7x4095.Slices ![k, 0] ⟨2, ![1, n]⟩) (hc : (⟨2, ![1, n]⟩ : Shape).ShapeCasts ⟨1, ![n]⟩)
    (hp : (⟨1, ![n]⟩ : Shape).Pads (![d] : Fin 1 → Nat) ![0] ![0] S4096) (z : S_.Idx → EReal) (hu : 0 < S_.numel)
    (hz : z (Shape.Idx.first hu) = 0)
    (hb : S4096.BroadcastsInDim S1x4096 (![1] : Fin 1 → Fin S1x4096.rank)) (q : Fin 4096) :
    broadcastInDim S1x4096 ![1] hb
        (pad S4096 ![d] ![0] ![0] (shapeCast ⟨1, ![n]⟩ (extractStridedSlice ⟨2, ![1, n]⟩ ![k, 0] w hs) hc) z hp hu)
        (ix2 (0 : Fin 1) q)
      = Cert.Band.padLo w i q := by
  subst hk hd
  refine (broadcastInDim_apply ![1] hb _ (ix2 (0 : Fin 1) q) (ix1 q) ?_).trans ?_
  · intro a
    match a with
    | ⟨0, _⟩ =>
      show q.val = if (4096 : Nat) = 1 then 0 else q.val
      rw [if_neg (by norm_num)]
  unfold Cert.Band.padLo
  by_cases h : i.val + 1 ≤ q.val
  · rw [dif_pos h]
    have hq := q.isLt
    have hqn : q.val - (i.val + 1) < n := by omega
    refine (pad_apply_of_inside ![i.val + 1] ![0] ![0] _ z hp hu (ix1 q) (ix1 (⟨q.val - (i.val + 1), hqn⟩ : Fin n)) ?_).trans ?_
    · intro a
      match a with
      | ⟨0, _⟩ => show q.val = (i.val + 1) + (q.val - (i.val + 1)) * (0 + 1); omega
    refine (shapeCast_apply _ hc (ix1 (⟨q.val - (i.val + 1), hqn⟩ : Fin n))
      (ix2 (0 : Fin 1) (⟨q.val - (i.val + 1), hqn⟩ : Fin n)) ?_).trans ?_
    · rw [Shape.rowMajor_val_two, Shape.rowMajor_val_one]
      show 0 * n + (q.val - (i.val + 1)) = q.val - (i.val + 1)
      omega
    refine extractStridedSlice_apply ![i.val, 0] w hs (ix2 (0 : Fin 1) (⟨q.val - (i.val + 1), hqn⟩ : Fin n))
      (ix2 i (⟨q.val - (i.val + 1), by omega⟩ : Fin 4095)) ?_
    intro a
    match a with
    | ⟨0, _⟩ => show i.val = i.val + 0; omega
    | ⟨1, _⟩ => show q.val - (i.val + 1) = 0 + (q.val - (i.val + 1)); omega
  · rw [dif_neg h]
    refine (pad_apply_of_not_inside ![i.val + 1] ![0] ![0] _ z hp hu (ix1 q) (⟨0, Nat.zero_lt_one⟩ : Fin (⟨1, ![n]⟩ : Shape).rank) ?_).trans hz
    show ¬ (i.val + 1 ≤ q.val ∧ (q.val - (i.val + 1)) % (0 + 1) = 0 ∧ (q.val - (i.val + 1)) / (0 + 1) < n)
    intro h3
    exact h h3.1

/-- Seven rows of 4096 entries stacked into a [7, 4096] table. -/
def cat7 {α : Type} (r0 r1 r2 r3 r4 r5 r6 : S1x4096.Idx → α) : S7x4096.Idx → α :=
  concatenate S7x4096 0 [⟨S1x4096, r0⟩, ⟨S1x4096, r1⟩, ⟨S1x4096, r2⟩, ⟨S1x4096, r3⟩, ⟨S1x4096, r4⟩, ⟨S1x4096, r5⟩, ⟨S1x4096, r6⟩]
    concatenates_S1x4096_S1x4096_S1x4096_S1x4096_S1x4096_S1x4096_S1x4096_S7x4096_d0

/-- Row `i` of the stacked table is the `i`-th of the seven rows. -/
theorem cat7_apply {α : Type} (r0 r1 r2 r3 r4 r5 r6 : S1x4096.Idx → α) (i : Fin 7) (q : Fin 4096) :
    cat7 r0 r1 r2 r3 r4 r5 r6 (ix2 i q) = (![r0, r1, r2, r3, r4, r5, r6] i) (ix2 (0 : Fin 1) q) := by
  unfold cat7
  match i with
  | ⟨0, _⟩ =>
    exact concatenate_apply_piece (0 : Fin S7x4096.rank) _ _ (ix2 (⟨0, by omega⟩ : Fin 7) q) 0 (by simp) S1x4096 r0 rfl rfl 0 rfl
      (ix2 (0 : Fin 1) q) (fun b hb => by
        match b with
        | ⟨0, _⟩ => exact absurd rfl hb
        | ⟨1, _⟩ => rfl) rfl
  | ⟨1, _⟩ =>
    exact concatenate_apply_piece (0 : Fin S7x4096.rank) _ _ (ix2 (⟨1, by omega⟩ : Fin 7) q) 1 (by simp) S1x4096 r1 rfl rfl 1 rfl
      (ix2 (0 : Fin 1) q) (fun b hb => by
        match b with
        | ⟨0, _⟩ => exact absurd rfl hb
        | ⟨1, _⟩ => rfl) rfl
  | ⟨2, _⟩ =>
    exact concatenate_apply_piece (0 : Fin S7x4096.rank) _ _ (ix2 (⟨2, by omega⟩ : Fin 7) q) 2 (by simp) S1x4096 r2 rfl rfl 2 rfl
      (ix2 (0 : Fin 1) q) (fun b hb => by
        match b with
        | ⟨0, _⟩ => exact absurd rfl hb
        | ⟨1, _⟩ => rfl) rfl
  | ⟨3, _⟩ =>
    exact concatenate_apply_piece (0 : Fin S7x4096.rank) _ _ (ix2 (⟨3, by omega⟩ : Fin 7) q) 3 (by simp) S1x4096 r3 rfl rfl 3 rfl
      (ix2 (0 : Fin 1) q) (fun b hb => by
        match b with
        | ⟨0, _⟩ => exact absurd rfl hb
        | ⟨1, _⟩ => rfl) rfl
  | ⟨4, _⟩ =>
    exact concatenate_apply_piece (0 : Fin S7x4096.rank) _ _ (ix2 (⟨4, by omega⟩ : Fin 7) q) 4 (by simp) S1x4096 r4 rfl rfl 4 rfl
      (ix2 (0 : Fin 1) q) (fun b hb => by
        match b with
        | ⟨0, _⟩ => exact absurd rfl hb
        | ⟨1, _⟩ => rfl) rfl
  | ⟨5, _⟩ =>
    exact concatenate_apply_piece (0 : Fin S7x4096.rank) _ _ (ix2 (⟨5, by omega⟩ : Fin 7) q) 5 (by simp) S1x4096 r5 rfl rfl 5 rfl
      (ix2 (0 : Fin 1) q) (fun b hb => by
        match b with
        | ⟨0, _⟩ => exact absurd rfl hb
        | ⟨1, _⟩ => rfl) rfl
  | ⟨6, _⟩ =>
    exact concatenate_apply_piece (0 : Fin S7x4096.rank) _ _ (ix2 (⟨6, by omega⟩ : Fin 7) q) 6 (by simp) S1x4096 r6 rfl rfl 6 rfl
      (ix2 (0 : Fin 1) q) (fun b hb => by
        match b with
        | ⟨0, _⟩ => exact absurd rfl hb
        | ⟨1, _⟩ => rfl) rfl

/-- The padding value of the host's zero-filling: the integer constant 0 converted to a float, which is 0. -/
def zeroS : S_.Idx → EReal := (sitofp .f32 (constantI S_ 32 0#32) : FVec Ideal S_ .f32)

theorem zeroS_first : zeroS (Shape.Idx.first h_S_) = 0 := by
  show ((((0#32 : BitVec 32).toInt : ℤ) : ℝ) : EReal) = 0
  simp

/-- Sub-diagonal row `k` as the host lines lay it out: cut to its first `n` entries, reshaped, zero-filled behind by `d`
    places, spread to one row. -/
def hiRow (k d n : Nat) (w : S7x4095.Idx → EReal) (hs : S7x4095.Slices ![k, 0] ⟨2, ![1, n]⟩)
    (hc : (⟨2, ![1, n]⟩ : Shape).ShapeCasts ⟨1, ![n]⟩) (hp : (⟨1, ![n]⟩ : Shape).Pads (![0] : Fin 1 → Nat) ![d] ![0] S4096) :
    S1x4096.Idx → EReal :=
  broadcastInDim S1x4096 ![1] bcast_S4096_S1x4096_1
    (pad S4096 ![0] ![d] ![0] (shapeCast ⟨1, ![n]⟩ (extractStridedSlice ⟨2, ![1, n]⟩ ![k, 0] w hs) hc) zeroS hp h_S_)

/-- Super-diagonal row `k` as the host lines lay it out: the same, zero-filled in front. -/
def loRow (k d n : Nat) (w : S7x4095.Idx → EReal) (hs : S7x4095.Slices ![k, 0] ⟨2, ![1, n]⟩)
    (hc : (⟨2, ![1, n]⟩ : Shape).ShapeCasts ⟨1, ![n]⟩) (hp : (⟨1, ![n]⟩ : Shape).Pads (![d] : Fin 1 → Nat) ![0] ![0] S4096) :
    S1x4096.Idx → EReal :=
  broadcastInDim S1x4096 ![1] bcast_S4096_S1x4096_1
    (pad S4096 ![d] ![0] ![0] (shapeCast ⟨1, ![n]⟩ (extractStridedSlice ⟨2, ![1, n]⟩ ![k, 0] w hs) hc) zeroS hp h_S_)

/-- Sub-diagonal row `i` as laid out, at column `q`: the array's entry while `q + (i+1) < 4096`, zero after. -/
theorem hiRow_apply (i : Fin 7) (k d n : Nat) (hk : k = i.val) (hd : d = k + 1) (hn : n + d = 4096)
    (w : S7x4095.Idx → EReal) (hs : S7x4095.Slices ![k, 0] ⟨2, ![1, n]⟩)
    (hc : (⟨2, ![1, n]⟩ : Shape).ShapeCasts ⟨1, ![n]⟩) (hp : (⟨1, ![n]⟩ : Shape).Pads (![0] : Fin 1 → Nat) ![d] ![0] S4096)
    (q : Fin 4096) : hiRow k d n w hs hc hp (ix2 (0 : Fin 1) q) = Cert.Band.padHi w i q :=
  hiRow_read i k d n hk hd hn w hs hc hp zeroS h_S_ zeroS_first bcast_S4096_S1x4096_1 q

/-- Super-diagonal row `i` as laid out, at column `q`: the array's entry `q - (i+1)` from place `i + 1` on, zero before. -/
theorem loRow_apply (i : Fin 7) (k d n : Nat) (hk : k = i.val) (hd : d = k + 1) (hn : n + d = 4096)
    (w : S7x4095.Idx → EReal) (hs : S7x4095.Slices ![k, 0] ⟨2, ![1, n]⟩)
    (hc : (⟨2, ![1, n]⟩ : Shape).ShapeCasts ⟨1, ![n]⟩) (hp : (⟨1, ![n]⟩ : Shape).Pads (![d] : Fin 1 → Nat) ![0] ![0] S4096)
    (q : Fin 4096) : loRow k d n w hs hc hp (ix2 (0 : Fin 1) q) = Cert.Band.padLo w i q :=
  loRow_read i k d n hk hd hn w hs hc hp zeroS h_S_ zeroS_first bcast_S4096_S1x4096_1 q

variable (m : (ℓ : Loc nD τ sig) → Buf (Elt Ideal) ℓ) (c : Dev nD)

/-- The lower table when the call is entered: the seven sub-diagonal rows of argument 2, laid out and stacked. -/
theorem lower_term (w : S7x4095.Idx → EReal) (hw : w = m ((c.tc : Thread nD τ).loc main_arg2)) :
    (V m c main_v49 : S7x4096.Idx → EReal) = cat7
      (hiRow 0 1 4095 w (by decide) (by decide) (by decide))
      (hiRow 1 2 4094 w (by decide) (by decide) (by decide))
      (hiRow 2 3 4093 w (by decide) (by decide) (by decide))
      (hiRow 3 4 4092 w (by decide) (by decide) (by decide))
      (hiRow 4 5 4091 w (by decide) (by decide) (by decide))
      (hiRow 5 6 4090 w (by decide) (by decide) (by decide))
      (hiRow 6 7 4089 w (by decide) (by decide) (by decide)) := by
  subst hw
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append, List.nil_append]
  simp (disch := decide) only [after_cons, after_nil, nullary_result', unary_result', binary_result', reshape_result',
    nary_result', nullary_result_ne', unary_result_ne', binary_result_ne', reshape_result_ne', nary_result_ne',
    pick7_0, pick7_1, pick7_2, pick7_3, pick7_4, pick7_5, pick7_6]
  show cat7 _ _ _ _ _ _ _ = _
  simp (disch := decide) only [after_cons, after_nil, nullary_result', unary_result', binary_result', reshape_result',
    nary_result', nullary_result_ne', unary_result_ne', binary_result_ne', reshape_result_ne', nary_result_ne',
    pick7_0, pick7_1, pick7_2, pick7_3, pick7_4, pick7_5, pick7_6]
  rfl

/-- The upper table when the call is entered: the seven super-diagonal rows of argument 3, laid out and stacked. -/
theorem upper_term (w : S7x4095.Idx → EReal) (hw : w = m ((c.tc : Thread nD τ).loc main_arg3)) :
    (V m c main_v57 : S7x4096.Idx → EReal) = cat7
      (loRow 0 1 4095 w (by decide) (by decide) (by decide))
      (loRow 1 2 4094 w (by decide) (by decide) (by decide))
      (loRow 2 3 4093 w (by decide) (by decide) (by decide))
      (loRow 3 4 4092 w (by decide) (by decide) (by decide))
      (loRow 4 5 4091 w (by decide) (by decide) (by decide))
      (loRow 5 6 4090 w (by decide) (by decide) (by decide))
      (loRow 6 7 4089 w (by decide) (by decide) (by decide)) := by
  subst hw
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append, List.nil_append]
  simp (disch := decide) only [after_cons, after_nil, nullary_result', unary_result', binary_result', reshape_result',
    nary_result', nullary_result_ne', unary_result_ne', binary_result_ne', reshape_result_ne', nary_result_ne',
    pick7_0, pick7_1, pick7_2, pick7_3, pick7_4, pick7_5, pick7_6]
  show cat7 _ _ _ _ _ _ _ = _
  simp (disch := decide) only [after_cons, after_nil, nullary_result', unary_result', binary_result', reshape_result',
    nary_result', nullary_result_ne', unary_result_ne', binary_result_ne', reshape_result_ne', nary_result_ne',
    pick7_0, pick7_1, pick7_2, pick7_3, pick7_4, pick7_5, pick7_6]
  rfl

/-- The main diagonal's window when the call is entered: argument 1 reshaped to one row. -/
theorem diag_term :
    (V m c main_v58 : S1x4096.Idx → EReal)
      = shapeCast S1x4096 (m ((c.tc : Thread nD τ).loc main_arg1) : S4096.Idx → EReal) shapeCasts_S4096_S1x4096 := by
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append, List.nil_append]
  simp (disch := decide) only [after_cons, after_nil, nullary_result', unary_result', binary_result', reshape_result',
    nary_result', nullary_result_ne', unary_result_ne', binary_result_ne', reshape_result_ne', nary_result_ne',
    pick7_0, pick7_1, pick7_2, pick7_3, pick7_4, pick7_5, pick7_6]
  rfl

/-- The bias's window when the call is entered: argument 4 reshaped to one row. -/
theorem bias_term :
    (V m c main_v59 : S1x4096.Idx → EReal)
      = shapeCast S1x4096 (m ((c.tc : Thread nD τ).loc main_arg4) : S4096.Idx → EReal) shapeCasts_S4096_S1x4096 := by
  dsimp only [V]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, List.flatten_cons, List.flatten_nil, List.append_nil, List.cons_append, List.nil_append]
  simp (disch := decide) only [after_cons, after_nil, nullary_result', unary_result', binary_result', reshape_result',
    nary_result', nullary_result_ne', unary_result_ne', binary_result_ne', reshape_result_ne', nary_result_ne',
    pick7_0, pick7_1, pick7_2, pick7_3, pick7_4, pick7_5, pick7_6]
  rfl

/-- A vector of 4096 entries reshaped to one row, at (0, q), is the vector at q. -/
theorem oneRow_apply (x : S4096.Idx → EReal) (h : S4096.ShapeCasts S1x4096) (q : Fin 4096) :
    shapeCast S1x4096 x h (ix2 (0 : Fin 1) q) = x (ix1 q) := by
  refine shapeCast_apply x h (ix2 (0 : Fin 1) q) (ix1 q) ?_
  rw [Shape.rowMajor_val_one, Shape.rowMajor_val_two]
  show q.val = 0 * 4096 + q.val
  omega

/-- The main diagonal's window at column `q` is argument 1 at `q`. -/
theorem entry_diag (q : Fin 4096) :
    V m c main_v58 (ix2 (0 : Fin 1) q) = m ((c.tc : Thread nD τ).loc main_arg1) (ix1 q) :=
  (congrFun (diag_term m c) (ix2 (0 : Fin 1) q)).trans (oneRow_apply _ _ q)

/-- The bias's window at column `q` is argument 4 at `q`. -/
theorem entry_bias (q : Fin 4096) :
    V m c main_v59 (ix2 (0 : Fin 1) q) = m ((c.tc : Thread nD τ).loc main_arg4) (ix1 q) :=
  (congrFun (bias_term m c) (ix2 (0 : Fin 1) q)).trans (oneRow_apply _ _ q)

/-- The lower table at row `i`, column `q`: sub-diagonal `i` of argument 2 laid out by output column, zero-filled behind. -/
theorem entry_lower (i : Fin 7) (q : Fin 4096) :
    V m c main_v49 (ix2 i q) = Cert.Band.padHi (m ((c.tc : Thread nD τ).loc main_arg2)) i q := by
  refine (congrFun (lower_term m c _ rfl) (ix2 i q)).trans ?_
  refine (cat7_apply _ _ _ _ _ _ _ i q).trans ?_
  match i with
  | ⟨0, _⟩ => exact hiRow_apply (⟨0, by omega⟩ : Fin 7) 0 1 4095 rfl rfl rfl _ (by decide) (by decide) (by decide) q
  | ⟨1, _⟩ => exact hiRow_apply (⟨1, by omega⟩ : Fin 7) 1 2 4094 rfl rfl rfl _ (by decide) (by decide) (by decide) q
  | ⟨2, _⟩ => exact hiRow_apply (⟨2, by omega⟩ : Fin 7) 2 3 4093 rfl rfl rfl _ (by decide) (by decide) (by decide) q
  | ⟨3, _⟩ => exact hiRow_apply (⟨3, by omega⟩ : Fin 7) 3 4 4092 rfl rfl rfl _ (by decide) (by decide) (by decide) q
  | ⟨4, _⟩ => exact hiRow_apply (⟨4, by omega⟩ : Fin 7) 4 5 4091 rfl rfl rfl _ (by decide) (by decide) (by decide) q
  | ⟨5, _⟩ => exact hiRow_apply (⟨5, by omega⟩ : Fin 7) 5 6 4090 rfl rfl rfl _ (by decide) (by decide) (by decide) q
  | ⟨6, _⟩ => exact hiRow_apply (⟨6, by omega⟩ : Fin 7) 6 7 4089 rfl rfl rfl _ (by decide) (by decide) (by decide) q

/-- The upper table at row `i`, column `q`: super-diagonal `i` of argument 3 laid out by output column, zero-filled in front. -/
theorem entry_upper (i : Fin 7) (q : Fin 4096) :
    V m c main_v57 (ix2 i q) = Cert.Band.padLo (m ((c.tc : Thread nD τ).loc main_arg3)) i q := by
  refine (congrFun (upper_term m c _ rfl) (ix2 i q)).trans ?_
  refine (cat7_apply _ _ _ _ _ _ _ i q).trans ?_
  match i with
  | ⟨0, _⟩ => exact loRow_apply (⟨0, by omega⟩ : Fin 7) 0 1 4095 rfl rfl rfl _ (by decide) (by decide) (by decide) q
  | ⟨1, _⟩ => exact loRow_apply (⟨1, by omega⟩ : Fin 7) 1 2 4094 rfl rfl rfl _ (by decide) (by decide) (by decide) q
  | ⟨2, _⟩ => exact loRow_apply (⟨2, by omega⟩ : Fin 7) 2 3 4093 rfl rfl rfl _ (by decide) (by decide) (by decide) q
  | ⟨3, _⟩ => exact loRow_apply (⟨3, by omega⟩ : Fin 7) 3 4 4092 rfl rfl rfl _ (by decide) (by decide) (by decide) q
  | ⟨4, _⟩ => exact loRow_apply (⟨4, by omega⟩ : Fin 7) 4 5 4091 rfl rfl rfl _ (by decide) (by decide) (by decide) q
  | ⟨5, _⟩ => exact loRow_apply (⟨5, by omega⟩ : Fin 7) 5 6 4090 rfl rfl rfl _ (by decide) (by decide) (by decide) q
  | ⟨6, _⟩ => exact loRow_apply (⟨6, by omega⟩ : Fin 7) 6 7 4089 rfl rfl rfl _ (by decide) (by decide) (by decide) q

end Cert.KernelIdeal.BandPrefix

end
-- ==== Proof.KernelIdealArray.lean ====
/-
  The output array of the program with the kernel call, as one function of its five argument arrays.

  The call walks the 8192 rows in 32 blocks of 256. At block `t` the body is handed rows 256·t … 256·t + 255 of `x` and
  the four weight arrays whole — the main diagonal and the bias as one row each, the sub-diagonals zero-filled behind
  and the super-diagonals zero-filled in front as two tables of seven rows — and leaves, at entry (p, q) of the output
  block, the rotation scheme's sum over those; the block is written back to the same rows of the output. A rotation
  acts along a row and never across rows, so that sum over the block's row p is the sum over row 256·t + p of the whole
  array: what block `t` writes is rows 256·t … 256·t + 255 of ONE function of the arguments, `Cert.Band.kernelForm`,
  and the 32 blocks tile the array.
-/
import proofs.«138330_j66048007078594_2_alg».proof.Proof.KernelIdealFrame
import proofs.«138330_j66048007078594_2_alg».proof.Proof.KernelIdealBlock
import proofs.«138330_j66048007078594_2_alg».proof.Proof.KernelIdealPrefix
import proofs.«138330_j66048007078594_2_alg».proof.Proof.BandSpec
import Idealize.ShloMosaic.Lib.Pipeline.Value

noncomputable section

namespace Cert.KernelIdeal.BandArray

open Cert.KernelIdeal Cert.KernelIdeal.Gen Cert.KernelIdeal.Band Idealize.ShloMosaic Idealize.ShloMosaic.TcCoe Idealize.SL.Sem
open Idealize.ShloMosaic.ValueIdx
open Idealize.ShloMosaic.Pipeline (Dat)
open Cert.KernelIdeal.BandPrefix

variable (m : (ℓ : Loc nD τ sig) → Buf (Elt Ideal) ℓ) (ρ : Dev nD → PrngReg)

/-! ## Where each window's block sits in its array -/

theorem zero_offsets : (![0, 0] : Fin 2 → Nat) = fun _ => 0 := funext fun a => by fin_cases a <;> rfl

/-- The printed index maps over the 32 points: the block of `x` and the output block are block `t` of the rows and
    the one block of columns; each weight window's block is its whole array. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, q) of the block of `x` at point `t` is `x` at row 256·t + p, column q. -/
theorem block_x (c : Dev nD) (t : Fin cfg0.N) (p : Fin 256) (r : Fin 8192) (hr : r.val = 256 * t.val + p.val) (q : Fin 4096) :
    (iblk m c 0 t : Vec Ideal S256x4096 .f32) (ix2 p q) = m ((c.tc : Thread nD τ).loc main_arg0) (ix2 r q) := by
  obtain ⟨e0, e1, -⟩ := index_facts t
  show V m c main_arg0 (((cfg0.win 0).blk t).view.emb (ix2 p q)) = _
  rw [V_main_arg0]
  refine congrArg _ ?_
  funext a; apply Fin.ext
  match a with
  | ⟨0, _⟩ => show win0_0.index t (0 : Fin 2) * 256 + 1 * p.val = r.val; omega
  | ⟨1, _⟩ => show win0_0.index t (1 : Fin 2) * 4096 + 1 * q.val = q.val; omega

/-- The main diagonal's one-row block is the diagonal. -/
theorem block_diag (c : Dev nD) (t : Fin cfg0.N) (q : Fin 4096) :
    (iblk m c 1 t : Vec Ideal S1x4096 .f32) (ix2 (0 : Fin 1) q) = m ((c.tc : Thread nD τ).loc main_arg1) (ix1 q) := by
  obtain ⟨-, -, e0, e1, -⟩ := index_facts t
  show V m c main_v58 (((cfg0.win 1).blk t).view.emb (ix2 (0 : Fin 1) q)) = _
  refine (congrArg (V m c main_v58) ?_).trans (entry_diag m c q)
  funext a; apply Fin.ext
  match a with
  | ⟨0, _⟩ => show win0_1.index t (0 : Fin 2) * 1 + 1 * 0 = 0; omega
  | ⟨1, _⟩ => show win0_1.index t (1 : Fin 2) * 4096 + 1 * q.val = q.val; omega

/-- The sub-diagonals' table block is the sub-diagonals zero-filled behind. -/
theorem block_lower (c : Dev nD) (t : Fin cfg0.N) (i : Fin 7) (q : Fin 4096) :
    (iblk m c 2 t : Vec Ideal S7x4096 .f32) (ix2 i q) = Cert.Band.padHi (m ((c.tc : Thread nD τ).loc main_arg2)) i q := by
  obtain ⟨-, -, -, -, e0, e1, -⟩ := index_facts t
  show V m c main_v49 (((cfg0.win 2).blk t).view.emb (ix2 i q)) = _
  refine (congrArg (V m c main_v49) ?_).trans (entry_lower m c i q)
  funext a; apply Fin.ext
  match a with
  | ⟨0, _⟩ => show win0_2.index t (0 : Fin 2) * 7 + 1 * i.val = i.val; omega
  | ⟨1, _⟩ => show win0_2.index t (1 : Fin 2) * 4096 + 1 * q.val = q.val; omega

/-- The super-diagonals' table block is the super-diagonals zero-filled in front. -/
theorem block_upper (c : Dev nD) (t : Fin cfg0.N) (i : Fin 7) (q : Fin 4096) :
    (iblk m c 3 t : Vec Ideal S7x4096 .f32) (ix2 i q) = Cert.Band.padLo (m ((c.tc : Thread nD τ).loc main_arg3)) i q := by
  obtain ⟨-, -, -, -, -, -, e0, e1, -⟩ := index_facts t
  show V m c main_v57 (((cfg0.win 3).blk t).view.emb (ix2 i q)) = _
  refine (congrArg (V m c main_v57) ?_).trans (entry_upper m c i q)
  funext a; apply Fin.ext
  match a with
  | ⟨0, _⟩ => show win0_3.index t (0 : Fin 2) * 7 + 1 * i.val = i.val; omega
  | ⟨1, _⟩ => show win0_3.index t (1 : Fin 2) * 4096 + 1 * q.val = q.val; omega

/-- The bias's one-row block is the bias. -/
theorem block_bias (c : Dev nD) (t : Fin cfg0.N) (q : Fin 4096) :
    (iblk m c 4 t : Vec Ideal S1x4096 .f32) (ix2 (0 : Fin 1) q) = m ((c.tc : Thread nD τ).loc main_arg4) (ix1 q) := by
  obtain ⟨-, -, -, -, -, -, -, -, e0, e1, -⟩ := index_facts t
  show V m c main_v59 (((cfg0.win 4).blk t).view.emb (ix2 (0 : Fin 1) q)) = _
  refine (congrArg (V m c main_v59) ?_).trans (entry_bias m c q)
  funext a; apply Fin.ext
  match a with
  | ⟨0, _⟩ => show win0_4.index t (0 : Fin 2) * 1 + 1 * 0 = 0; omega
  | ⟨1, _⟩ => show win0_4.index t (1 : Fin 2) * 4096 + 1 * q.val = q.val; omega

/-! ## A block's sum is the whole array's, row for row -/

/-- The rotation scheme's sum over a block of 256 rows whose row `p` is row `r` of the whole array, and whose weight
    rows are the arguments laid out by output column, is the scheme's sum over the whole array at row `r`: every term
    reads one row only. -/
theorem blockForm_eq_kernelForm {xb : Vec Ideal S256x4096 .f32} {dg : Vec Ideal S1x4096 .f32} {lo up : Vec Ideal S7x4096 .f32}
    {bs : Vec Ideal S1x4096 .f32} {x : (⟨2, ![8192, 4096]⟩ : Shape).Idx → EReal} {diag : (⟨1, ![4096]⟩ : Shape).Idx → EReal}
    {lower upper : (⟨2, ![7, 4095]⟩ : Shape).Idx → EReal} {bias : (⟨1, ![4096]⟩ : Shape).Idx → EReal} (p : Fin 256) (r : Fin 8192)
    (hx : ∀ q, xb (ix2 p q) = x (ix2 r q)) (hd : ∀ q, dg (ix2 (0 : Fin 1) q) = diag (ix1 q))
    (hl : ∀ i q, lo (ix2 i q) = Cert.Band.padHi lower i q) (hu : ∀ i q, up (ix2 i q) = Cert.Band.padLo upper i q)
    (hb : ∀ q, bs (ix2 (0 : Fin 1) q) = bias (ix1 q)) (q : Fin 4096) :
    Cert.Band.blockForm (R := 256) xb dg lo up bs p q = Cert.Band.kernelForm x diag lower upper bias r q := by
  unfold Cert.Band.kernelForm Cert.Band.blockForm
  simp only [hx, hd, hl, hu, hb]

/-! ## What a point writes back, the cover, and the array at the end -/

/-- Point `t` writes back rows 256·t … 256·t + 255 of `kernelForm` of the arguments. -/
theorem flushed_out (c : Dev nD) (t : Fin cfg0.N) :
    (dats m 0 c).flushed 5 t = ((cfg0.win 5).blk t).view.read (Elt Ideal)
      (fun j => Cert.Band.kernelForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 0) (j 1)) := by
  show (cfg0.win 5).cut (grid0.coords t) ((dats m 0 c).after 5 t) = _
  rw [after_out]
  unfold blockOut
  rw [View.canon_unit_zero zero_offsets]
  simp only [View.ld_unit_zero (S := S256x4096) zero_offsets, View.ld_unit_zero (S := S1x4096) zero_offsets,
    View.ld_unit_zero (S := S7x4096) zero_offsets]
  obtain ⟨-, -, -, -, -, -, -, -, -, -, e0, e1⟩ := index_facts t
  funext j
  obtain ⟨p, q, rfl⟩ : ∃ (p : Fin 256) (q : Fin 4096), j = ix2 p q := ⟨j 0, j 1, eq_ix2 j⟩
  have hr : ((((cfg0.win 5).blk t).view.emb (ix2 p q)) 0 : Fin 8192).val = 256 * t.val + p.val := by
    show win0_5.index t (0 : Fin 2) * 256 + 1 * p.val = _; omega
  have hq : ((((cfg0.win 5).blk t).view.emb (ix2 p q)) 1 : Fin 4096) = q :=
    Fin.ext (by show win0_5.index t (1 : Fin 2) * 4096 + 1 * q.val = q.val; omega)
  show k0_pay1 (iblk m c 0 t) (k0_pay2 (iblk m c 2 t)) (k0_pay3 (iblk m c 3 t)) (k0_pay4 (iblk m c 4 t))
      (k0_pay5 (iblk m c 0 t) (iblk m c 1 t) (iblk m c 2 t) (iblk m c 3 t)) (k0_pay6 (iblk m c 3 t)) 4#32 (ix2 p q)
    = Cert.Band.kernelForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ((((cfg0.win 5).blk t).view.emb (ix2 p q)) 0) ((((cfg0.win 5).blk t).view.emb (ix2 p q)) 1)
  rw [hq, BandBlock.payload_apply]
  generalize (((cfg0.win 5).blk t).view.emb (ix2 p q)) 0 = r at hr
  exact blockForm_eq_kernelForm p r (block_x m c t p r hr) (block_diag m c t) (block_lower m c t) (block_upper m c t) (block_bias m c t) q

/-- An index of the output array is in point `t`'s block iff each coordinate is in the block's range on its axis. -/
theorem mem_block_out (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v60).slice (win0_5.rect t)).set ↔ _
  rw [View.set_slice_whole, Rect.mem_set_unit]
  exact Iff.rfl

/-- Row r0 lies in block r0 / 256: the 32 blocks cover the array. -/
theorem cover_out (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := index_facts t
  refine ⟨t, flush0_5 t, ?_⟩
  rw [mem_block_out]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 4096 ≤ (i 1).val ∧ (i 1).val < win0_5.index t (1 : Fin 2) * 4096 + 4096; omega

/-- The output array after the run is `kernelForm` of the arguments. -/
theorem final_out (c : Dev nD) : (dats m 0 c).arrAt 5 cfg0.N
    = (fun j => Cert.Band.kernelForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 0) (j 1)) :=
  (dats m 0 c).arrAt_eq_of_cover 5 _ (fun t _ => flushed_out m c t) cover_out

/-! ## The run, read -/

/-- The program runs; its output array ends at `kernelForm` of the five argument arrays, entry by entry, and the five
    arguments end unchanged. -/
theorem run_value : θ_run (defs (F := Ideal)) (onTc (τ := τ) (main (F := Ideal))) ⟨m, fun _ => 0, ρ⟩ (fun r => ∀ c : Dev nD,
      r.2.mem ((c.tc : Thread nD τ).loc main_v60) = (fun j => Cert.Band.kernelForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.BandArray

end
-- ==== Proof.RefRunOps.lean ====
/-
  The reference program's @main as a list of host operations, cut where the program itself is cut: the main diagonal's
  matrix (13 operations: the zero-fill, the two index grids, the offset and its spread, the sum, the comparison, the
  spread of the filled vector along the rows, and the selection's three), then for each of the fourteen off-diagonals
  its row taken out of the table and flattened, the same 13 operations at that diagonal's fill and offset, and the sum
  into the matrix so far (16 operations each), then the product with `x` and the bias spread over the rows (3), then
  the final sum (1): 241 in all. Each callee's operations are listed at its call site over that call's own buffers.
-/
import proofs.«138330_j66048007078594_2_alg».proof.ReferenceIdeal
import Idealize.ShloMosaic.Lib.StableHlo.Run

noncomputable section

namespace Cert.ReferenceIdeal.BandRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The main diagonal's matrix: the thirteen operations of the first call, over its buffers. -/
abbrev ops0 : List (HloOp τ sig (Elt F)) :=
  [ TRef.nullary main_call0.cst (constant S_ .f32 0x00000000#32),
    TRef.binary (TRef.of main_arg1 : TRef sig ⟨S4096, .f32⟩) main_call0.cst main_call0.v0 (fun x v => pad S4096 ![0] ![0] ![0] x v pads_S4096_S4096_000 h_S_),
    TRef.nullary main_call0.v1 (iotaInDim S4096x4096 32 0),
    TRef.nullary main_call0.v2 (iotaInDim S4096x4096 32 1),
    TRef.nullary main_call0.c (constantI S_ 32 0#32),
    TRef.unary main_call0.c main_call0.v3 (broadcastInDim S4096x4096 ![] bcast_S_S4096x4096),
    TRef.binary main_call0.v1 main_call0.v3 main_call0.v4 addi,
    TRef.binary main_call0.v4 main_call0.v2 main_call0.v5 (cmpi .eq),
    TRef.unary main_call0.v0 main_call0.v6 (broadcastInDim S4096x1 ![0] bcast_S4096_S4096x1_0),
    TRef.nullary main_call0.cst_0 (constant S_ .f32 0x00000000#32),
    TRef.unary main_call0.v6 main_call0.call0.v0 (broadcastInDim S4096x4096 ![0, 1] bcast_S4096x1_S4096x4096_0_1),
    TRef.unary main_call0.cst_0 main_call0.call0.v1 (broadcastInDim S4096x4096 ![] bcast_S_S4096x4096),
    TRef.ternary main_call0.v5 main_call0.call0.v0 main_call0.call0.v1 main_call0.call0.v2 select ]

/-- The sub-diagonal at distance 1: its row of the table, flattened, laid into a matrix, and added to the sum so far. -/
abbrev ops1 : List (HloOp τ sig (Elt F)) :=
  [ unary main_arg2 main_v1 ((extractStridedSlice S1x4095 ![0, 0] · slices_S7x4095_S1x4095_0_0) : (⟨S7x4095, .f32⟩ : BufTy).Contents (Elt F) → (⟨S1x4095, .f32⟩ : BufTy).Contents (Elt F)),
    reshape main_v1 main_v2 rfl shapeCasts_S1x4095_S4095,
    TRef.nullary main_call1.cst (constant S_ .f32 0x00000000#32),
    TRef.binary (TRef.of main_v2 : TRef sig ⟨S4095, .f32⟩) main_call1.cst main_call1.v0 (fun x v => pad S4096 ![1] ![0] ![0] x v pads_S4095_S4096_100 h_S_),
    TRef.nullary main_call1.v1 (iotaInDim S4096x4096 32 0),
    TRef.nullary main_call1.v2 (iotaInDim S4096x4096 32 1),
    TRef.nullary main_call1.c (constantI S_ 32 4294967295#32),
    TRef.unary main_call1.c main_call1.v3 (broadcastInDim S4096x4096 ![] bcast_S_S4096x4096),
    TRef.binary main_call1.v1 main_call1.v3 main_call1.v4 addi,
    TRef.binary main_call1.v4 main_call1.v2 main_call1.v5 (cmpi .eq),
    TRef.unary main_call1.v0 main_call1.v6 (broadcastInDim S4096x1 ![0] bcast_S4096_S4096x1_0),
    TRef.nullary main_call1.cst_0 (constant S_ .f32 0x00000000#32),
    TRef.unary main_call1.v6 main_call1.call0.v0 (broadcastInDim S4096x4096 ![0, 1] bcast_S4096x1_S4096x4096_0_1),
    TRef.unary main_call1.cst_0 main_call1.call0.v1 (broadcastInDim S4096x4096 ![] bcast_S_S4096x4096),
    TRef.ternary main_call1.v5 main_call1.call0.v0 main_call1.call0.v1 main_call1.call0.v2 select,
    binary main_v0 main_v3 main_v4 (addf : (⟨S4096x4096, .f32⟩ : BufTy).Contents (Elt F) → (⟨S4096x4096, .f32⟩ : BufTy).Contents (Elt F) → (⟨S4096x4096, .f32⟩ : BufTy).Contents (Elt F)) ]

/-- The super-diagonal at distance 1: its row of the table, flattened, laid into a matrix, and added to the sum so far. -/
abbrev ops2 : List (HloOp τ sig (Elt F)) :=
  [ unary main_arg3 main_v5 ((extractStridedSlice S1x4095 ![0, 0] · slices_S7x4095_S1x4095_0_0) : (⟨S7x4095, .f32⟩ : BufTy).Contents (Elt F) → (⟨S1x4095, .f32⟩ : BufTy).Contents (Elt F)),
    reshape main_v5 main_v6 rfl shapeCasts_S1x4095_S4095,
    TRef.nullary main_call2.cst (constant S_ .f32 0x00000000#32),
    TRef.binary (TRef.of main_v6 : TRef sig ⟨S4095, .f32⟩) main_call2.cst main_call2.v0 (fun x v => pad S4096 ![0] ![1] ![0] x v pads_S4095_S4096_010 h_S_),
    TRef.nullary main_call2.v1 (iotaInDim S4096x4096 32 0),
    TRef.nullary main_call2.v2 (iotaInDim S4096x4096 32 1),
    TRef.nullary main_call2.c (constantI S_ 32 1#32),
    TRef.unary main_call2.c main_call2.v3 (broadcastInDim S4096x4096 ![] bcast_S_S4096x4096),
    TRef.binary main_call2.v1 main_call2.v3 main_call2.v4 addi,
    TRef.binary main_call2.v4 main_call2.v2 main_call2.v5 (cmpi .eq),
    TRef.unary main_call2.v0 main_call2.v6 (broadcastInDim S4096x1 ![0] bcast_S4096_S4096x1_0),
    TRef.nullary main_call2.cst_0 (constant S_ .f32 0x00000000#32),
    TRef.unary main_call2.v6 main_call2.call0.v0 (broadcastInDim S4096x4096 ![0, 1] bcast_S4096x1_S4096x4096_0_1),
    TRef.unary main_call2.cst_0 main_call2.call0.v1 (broadcastInDim S4096x4096 ![] bcast_S_S4096x4096),
    TRef.ternary main_call2.v5 main_call2.call0.v0 main_call2.call0.v1 main_call2.call0.v2 select,
    binary main_v4 main_v7 main_v8 (addf : (⟨S4096x4096, .f32⟩ : BufTy).Contents (Elt F) → (⟨S4096x4096, .f32⟩ : BufTy).Contents (Elt F) → (⟨S4096x4096, .f32⟩ : BufTy).Contents (Elt F)) ]

/-- The sub-diagonal at distance 2: its row of the table, flattened, laid into a matrix, and added to the sum so far. -/
abbrev ops3 : List (HloOp τ sig (Elt F)) :=
  [ unary main_arg2 main_v9 ((extractStridedSlice S1x4094 ![1, 0] · slices_S7x4095_S1x4094_1_0) : (⟨S7x4095, .f32⟩ : BufTy).Contents (Elt F) → (⟨S1x4094, .f32⟩ : BufTy).Contents (Elt F)),
    reshape main_v9 main_v10 rfl shapeCasts_S1x4094_S4094,
    TRef.nullary main_call3.cst (constant S_ .f32 0x00000000#32),
    TRef.binary (TRef.of main_v10 : TRef sig ⟨S4094, .f32⟩) main_call3.cst main_call3.v0 (fun x v => pad S4096 ![2] ![0] ![0] x v pads_S4094_S4096_200 h_S_),
    TRef.nullary main_call3.v1 (iotaInDim S4096x4096 32 0),
    TRef.nullary main_call3.v2 (iotaInDim S4096x4096 32 1),
    TRef.nullary main_call3.c (constantI S_ 32 4294967294#32),
    TRef.unary main_call3.c main_call3.v3 (broadcastInDim S4096x4096 ![] bcast_S_S4096x4096),
    TRef.binary main_call3.v1 main_call3.v3 main_call3.v4 addi,
    TRef.binary main_call3.v4 main_call3.v2 main_call3.v5 (cmpi .eq),
    TRef.unary main_call3.v0 main_call3.v6 (broadcastInDim S4096x1 ![0] bcast_S4096_S4096x1_0),
    TRef.nullary main_call3.cst_0 (constant S_ .f32 0x00000000#32),
    TRef.unary main_call3.v6 main_call3.call0.v0 (broadcastInDim S4096x4096 ![0, 1] bcast_S4096x1_S4096x4096_0_1),
    TRef.unary main_call3.cst_0 main_call3.call0.v1 (broadcastInDim S4096x4096 ![] bcast_S_S4096x4096),
    TRef.ternary main_call3.v5 main_call3.call0.v0 main_call3.call0.v1 main_call3.call0.v2 select,
    binary main_v8 main_v11 main_v12 (addf : (⟨S4096x4096, .f32⟩ : BufTy).Contents (Elt F) → (⟨S4096x4096, .f32⟩ : BufTy).Contents (Elt F) → (⟨S4096x4096, .f32⟩ : BufTy).Contents (Elt F)) ]

/-- The super-diagonal at distance 2: its row of the table, flattened, laid into a matrix, and added to the sum so far. -/
abbrev ops4 : List (HloOp τ sig (Elt F)) :=
  [ unary main_arg3 main_v13 ((extractStridedSlice S1x4094 ![1, 0] · slices_S7x4095_S1x4094_1_0) : (⟨S7x4095, .f32⟩ : BufTy).Contents (Elt F) → (⟨S1x4094, .f32⟩ : BufTy).Contents (Elt F)),
    reshape main_v13 main_v14 rfl shapeCasts_S1x4094_S4094,
    TRef.nullary main_call4.cst (constant S_ .f32 0x00000000#32),
    TRef.binary (TRef.of main_v14 : TRef sig ⟨S4094, .f32⟩) main_call4.cst main_call4.v0 (fun x v => pad S4096 ![0] ![2] ![0] x v pads_S4094_S4096_020 h_S_),
    TRef.nullary main_call4.v1 (iotaInDim S4096x4096 32 0),
    TRef.nullary main_call4.v2 (iotaInDim S4096x4096 32 1),
    TRef.nullary main_call4.c (constantI S_ 32 2#32),
    TRef.unary main_call4.c main_call4.v3 (broadcastInDim S4096x4096 ![] bcast_S_S4096x4096),
    TRef.binary main_call4.v1 main_call4.v3 main_call4.v4 addi,
    TRef.binary main_call4.v4 main_call4.v2 main_call4.v5 (cmpi .eq),
    TRef.unary main_call4.v0 main_call4.v6 (broadcastInDim S4096x1 ![0] bcast_S4096_S4096x1_0),
    TRef.nullary main_call4.cst_0 (constant S_ .f32 0x00000000#32),
    TRef.unary main_call4.v6 main_call4.call0.v0 (broadcastInDim S4096x4096 ![0, 1] bcast_S4096x1_S4096x4096_0_1),
    TRef.unary main_call4.cst_0 main_call4.call0.v1 (broadcastInDim S4096x4096 ![] bcast_S_S4096x4096),
    TRef.ternary main_call4.v5 main_call4.call0.v0 main_call4.call0.v1 main_call4.call0.v2 select,
    binary main_v12 main_v15 main_v16 (addf : (⟨S4096x4096, .f32⟩ : BufTy).Contents (Elt F) → (⟨S4096x4096, .f32⟩ : BufTy).Contents (Elt F) → (⟨S4096x4096, .f32⟩ : BufTy).Contents (Elt F)) ]

/-- The sub-diagonal at distance 3: its row of the table, flattened, laid into a matrix, and added to the sum so far. -/
abbrev ops5 : List (HloOp τ sig (Elt F)) :=
  [ unary main_arg2 main_v17 ((extractStridedSlice S1x4093 ![2, 0] · slices_S7x4095_S1x4093_2_0) : (⟨S7x4095, .f32⟩ : BufTy).Contents (Elt F) → (⟨S1x4093, .f32⟩ : BufTy).Contents (Elt F)),
    reshape main_v17 main_v18 rfl shapeCasts_S1x4093_S4093,
    TRef.nullary main_call5.cst (constant S_ .f32 0x00000000#32),
    TRef.binary (TRef.of main_v18 : TRef sig ⟨S4093, .f32⟩) main_call5.cst main_call5.v0 (fun x v => pad S4096 ![3] ![0] ![0] x v pads_S4093_S4096_300 h_S_),
    TRef.nullary main_call5.v1 (iotaInDim S4096x4096 32 0),
    TRef.nullary main_call5.v2 (iotaInDim S4096x4096 32 1),
    TRef.nullary main_call5.c (constantI S_ 32 4294967293#32),
    TRef.unary main_call5.c main_call5.v3 (broadcastInDim S4096x4096 ![] bcast_S_S4096x4096),
    TRef.binary main_call5.v1 main_call5.v3 main_call5.v4 addi,
    TRef.binary main_call5.v4 main_call5.v2 main_call5.v5 (cmpi .eq),
    TRef.unary main_call5.v0 main_call5.v6 (broadcastInDim S4096x1 ![0] bcast_S4096_S4096x1_0),
    TRef.nullary main_call5.cst_0 (constant S_ .f32 0x00000000#32),
    TRef.unary main_call5.v6 main_call5.call0.v0 (broadcastInDim S4096x4096 ![0, 1] bcast_S4096x1_S4096x4096_0_1),
    TRef.unary main_call5.cst_0 main_call5.call0.v1 (broadcastInDim S4096x4096 ![] bcast_S_S4096x4096),
    TRef.ternary main_call5.v5 main_call5.call0.v0 main_call5.call0.v1 main_call5.call0.v2 select,
    binary main_v16 main_v19 main_v20 (addf : (⟨S4096x4096, .f32⟩ : BufTy).Contents (Elt F) → (⟨S4096x4096, .f32⟩ : BufTy).Contents (Elt F) → (⟨S4096x4096, .f32⟩ : BufTy).Contents (Elt F)) ]

/-- The super-diagonal at distance 3: its row of the table, flattened, laid into a matrix, and added to the sum so far. -/
abbrev ops6 : List (HloOp τ sig (Elt F)) :=
  [ unary main_arg3 main_v21 ((extractStridedSlice S1x4093 ![2, 0] · slices_S7x4095_S1x4093_2_0) : (⟨S7x4095, .f32⟩ : BufTy).Contents (Elt F) → (⟨S1x4093, .f32⟩ : BufTy).Contents (Elt F)),
    reshape main_v21 main_v22 rfl shapeCasts_S1x4093_S4093,
    TRef.nullary main_call6.cst (constant S_ .f32 0x00000000#32),
    TRef.binary (TRef.of main_v22 : TRef sig ⟨S4093, .f32⟩) main_call6.cst main_call6.v0 (fun x v => pad S4096 ![0] ![3] ![0] x v pads_S4093_S4096_030 h_S_),
    TRef.nullary main_call6.v1 (iotaInDim S4096x4096 32 0),
    TRef.nullary main_call6.v2 (iotaInDim S4096x4096 32 1),
    TRef.nullary main_call6.c (constantI S_ 32 3#32),
    TRef.unary main_call6.c main_call6.v3 (broadcastInDim S4096x4096 ![] bcast_S_S4096x4096),
    TRef.binary main_call6.v1 main_call6.v3 main_call6.v4 addi,
    TRef.binary main_call6.v4 main_call6.v2 main_call6.v5 (cmpi .eq),
    TRef.unary main_call6.v0 main_call6.v6 (broadcastInDim S4096x1 ![0] bcast_S4096_S4096x1_0),
    TRef.nullary main_call6.cst_0 (constant S_ .f32 0x00000000#32),
    TRef.unary main_call6.v6 main_call6.call0.v0 (broadcastInDim S4096x4096 ![0, 1] bcast_S4096x1_S4096x4096_0_1),
    TRef.unary main_call6.cst_0 main_call6.call0.v1 (broadcastInDim S4096x4096 ![] bcast_S_S4096x4096),
    TRef.ternary main_call6.v5 main_call6.call0.v0 main_call6.call0.v1 main_call6.call0.v2 select,
    binary main_v20 main_v23 main_v24 (addf : (⟨S4096x4096, .f32⟩ : BufTy).Contents (Elt F) → (⟨S4096x4096, .f32⟩ : BufTy).Contents (Elt F) → (⟨S4096x4096, .f32⟩ : BufTy).Contents (Elt F)) ]

/-- The sub-diagonal at distance 4: its row of the table, flattened, laid into a matrix, and added to the sum so far. -/
abbrev ops7 : List (HloOp τ sig (Elt F)) :=
  [ unary main_arg2 main_v25 ((extractStridedSlice S1x4092 ![3, 0] · slices_S7x4095_S1x4092_3_0) : (⟨S7x4095, .f32⟩ : BufTy).Contents (Elt F) → (⟨S1x4092, .f32⟩ : BufTy).Contents (Elt F)),
    reshape main_v25 main_v26 rfl shapeCasts_S1x4092_S4092,
    TRef.nullary main_call7.cst (constant S_ .f32 0x00000000#32),
    TRef.binary (TRef.of main_v26 : TRef sig ⟨S4092, .f32⟩) main_call7.cst main_call7.v0 (fun x v => pad S4096 ![4] ![0] ![0] x v pads_S4092_S4096_400 h_S_),
    TRef.nullary main_call7.v1 (iotaInDim S4096x4096 32 0),
    TRef.nullary main_call7.v2 (iotaInDim S4096x4096 32 1),
    TRef.nullary main_call7.c (constantI S_ 32 4294967292#32),
    TRef.unary main_call7.c main_call7.v3 (broadcastInDim S4096x4096 ![] bcast_S_S4096x4096),
    TRef.binary main_call7.v1 main_call7.v3 main_call7.v4 addi,
    TRef.binary main_call7.v4 main_call7.v2 main_call7.v5 (cmpi .eq),
    TRef.unary main_call7.v0 main_call7.v6 (broadcastInDim S4096x1 ![0] bcast_S4096_S4096x1_0),
    TRef.nullary main_call7.cst_0 (constant S_ .f32 0x00000000#32),
    TRef.unary main_call7.v6 main_call7.call0.v0 (broadcastInDim S4096x4096 ![0, 1] bcast_S4096x1_S4096x4096_0_1),
    TRef.unary main_call7.cst_0 main_call7.call0.v1 (broadcastInDim S4096x4096 ![] bcast_S_S4096x4096),
    TRef.ternary main_call7.v5 main_call7.call0.v0 main_call7.call0.v1 main_call7.call0.v2 select,
    binary main_v24 main_v27 main_v28 (addf : (⟨S4096x4096, .f32⟩ : BufTy).Contents (Elt F) → (⟨S4096x4096, .f32⟩ : BufTy).Contents (Elt F) → (⟨S4096x4096, .f32⟩ : BufTy).Contents (Elt F)) ]

/-- The super-diagonal at distance 4: its row of the table, flattened, laid into a matrix, and added to the sum so far. -/
abbrev ops8 : List (HloOp τ sig (Elt F)) :=
  [ unary main_arg3 main_v29 ((extractStridedSlice S1x4092 ![3, 0] · slices_S7x4095_S1x4092_3_0) : (⟨S7x4095, .f32⟩ : BufTy).Contents (Elt F) → (⟨S1x4092, .f32⟩ : BufTy).Contents (Elt F)),
    reshape main_v29 main_v30 rfl shapeCasts_S1x4092_S4092,
    TRef.nullary main_call8.cst (constant S_ .f32 0x00000000#32),
    TRef.binary (TRef.of main_v30 : TRef sig ⟨S4092, .f32⟩) main_call8.cst main_call8.v0 (fun x v => pad S4096 ![0] ![4] ![0] x v pads_S4092_S4096_040 h_S_),
    TRef.nullary main_call8.v1 (iotaInDim S4096x4096 32 0),
    TRef.nullary main_call8.v2 (iotaInDim S4096x4096 32 1),
    TRef.nullary main_call8.c (constantI S_ 32 4#32),
    TRef.unary main_call8.c main_call8.v3 (broadcastInDim S4096x4096 ![] bcast_S_S4096x4096),
    TRef.binary main_call8.v1 main_call8.v3 main_call8.v4 addi,
    TRef.binary main_call8.v4 main_call8.v2 main_call8.v5 (cmpi .eq),
    TRef.unary main_call8.v0 main_call8.v6 (broadcastInDim S4096x1 ![0] bcast_S4096_S4096x1_0),
    TRef.nullary main_call8.cst_0 (constant S_ .f32 0x00000000#32),
    TRef.unary main_call8.v6 main_call8.call0.v0 (broadcastInDim S4096x4096 ![0, 1] bcast_S4096x1_S4096x4096_0_1),
    TRef.unary main_call8.cst_0 main_call8.call0.v1 (broadcastInDim S4096x4096 ![] bcast_S_S4096x4096),
    TRef.ternary main_call8.v5 main_call8.call0.v0 main_call8.call0.v1 main_call8.call0.v2 select,
    binary main_v28 main_v31 main_v32 (addf : (⟨S4096x4096, .f32⟩ : BufTy).Contents (Elt F) → (⟨S4096x4096, .f32⟩ : BufTy).Contents (Elt F) → (⟨S4096x4096, .f32⟩ : BufTy).Contents (Elt F)) ]

/-- The sub-diagonal at distance 5: its row of the table, flattened, laid into a matrix, and added to the sum so far. -/
abbrev ops9 : List (HloOp τ sig (Elt F)) :=
  [ unary main_arg2 main_v33 ((extractStridedSlice S1x4091 ![4, 0] · slices_S7x4095_S1x4091_4_0) : (⟨S7x4095, .f32⟩ : BufTy).Contents (Elt F) → (⟨S1x4091, .f32⟩ : BufTy).Contents (Elt F)),
    reshape main_v33 main_v34 rfl shapeCasts_S1x4091_S4091,
    TRef.nullary main_call9.cst (constant S_ .f32 0x00000000#32),
    TRef.binary (TRef.of main_v34 : TRef sig ⟨S4091, .f32⟩) main_call9.cst main_call9.v0 (fun x v => pad S4096 ![5] ![0] ![0] x v pads_S4091_S4096_500 h_S_),
    TRef.nullary main_call9.v1 (iotaInDim S4096x4096 32 0),
    TRef.nullary main_call9.v2 (iotaInDim S4096x4096 32 1),
    TRef.nullary main_call9.c (constantI S_ 32 4294967291#32),
    TRef.unary main_call9.c main_call9.v3 (broadcastInDim S4096x4096 ![] bcast_S_S4096x4096),
    TRef.binary main_call9.v1 main_call9.v3 main_call9.v4 addi,
    TRef.binary main_call9.v4 main_call9.v2 main_call9.v5 (cmpi .eq),
    TRef.unary main_call9.v0 main_call9.v6 (broadcastInDim S4096x1 ![0] bcast_S4096_S4096x1_0),
    TRef.nullary main_call9.cst_0 (constant S_ .f32 0x00000000#32),
    TRef.unary main_call9.v6 main_call9.call0.v0 (broadcastInDim S4096x4096 ![0, 1] bcast_S4096x1_S4096x4096_0_1),
    TRef.unary main_call9.cst_0 main_call9.call0.v1 (broadcastInDim S4096x4096 ![] bcast_S_S4096x4096),
    TRef.ternary main_call9.v5 main_call9.call0.v0 main_call9.call0.v1 main_call9.call0.v2 select,
    binary main_v32 main_v35 main_v36 (addf : (⟨S4096x4096, .f32⟩ : BufTy).Contents (Elt F) → (⟨S4096x4096, .f32⟩ : BufTy).Contents (Elt F) → (⟨S4096x4096, .f32⟩ : BufTy).Contents (Elt F)) ]

/-- The super-diagonal at distance 5: its row of the table, flattened, laid into a matrix, and added to the sum so far. -/
abbrev ops10 : List (HloOp τ sig (Elt F)) :=
  [ unary main_arg3 main_v37 ((extractStridedSlice S1x4091 ![4, 0] · slices_S7x4095_S1x4091_4_0) : (⟨S7x4095, .f32⟩ : BufTy).Contents (Elt F) → (⟨S1x4091, .f32⟩ : BufTy).Contents (Elt F)),
    reshape main_v37 main_v38 rfl shapeCasts_S1x4091_S4091,
    TRef.nullary main_call10.cst (constant S_ .f32 0x00000000#32),
    TRef.binary (TRef.of main_v38 : TRef sig ⟨S4091, .f32⟩) main_call10.cst main_call10.v0 (fun x v => pad S4096 ![0] ![5] ![0] x v pads_S4091_S4096_050 h_S_),
    TRef.nullary main_call10.v1 (iotaInDim S4096x4096 32 0),
    TRef.nullary main_call10.v2 (iotaInDim S4096x4096 32 1),
    TRef.nullary main_call10.c (constantI S_ 32 5#32),
    TRef.unary main_call10.c main_call10.v3 (broadcastInDim S4096x4096 ![] bcast_S_S4096x4096),
    TRef.binary main_call10.v1 main_call10.v3 main_call10.v4 addi,
    TRef.binary main_call10.v4 main_call10.v2 main_call10.v5 (cmpi .eq),
    TRef.unary main_call10.v0 main_call10.v6 (broadcastInDim S4096x1 ![0] bcast_S4096_S4096x1_0),
    TRef.nullary main_call10.cst_0 (constant S_ .f32 0x00000000#32),
    TRef.unary main_call10.v6 main_call10.call0.v0 (broadcastInDim S4096x4096 ![0, 1] bcast_S4096x1_S4096x4096_0_1),
    TRef.unary main_call10.cst_0 main_call10.call0.v1 (broadcastInDim S4096x4096 ![] bcast_S_S4096x4096),
    TRef.ternary main_call10.v5 main_call10.call0.v0 main_call10.call0.v1 main_call10.call0.v2 select,
    binary main_v36 main_v39 main_v40 (addf : (⟨S4096x4096, .f32⟩ : BufTy).Contents (Elt F) → (⟨S4096x4096, .f32⟩ : BufTy).Contents (Elt F) → (⟨S4096x4096, .f32⟩ : BufTy).Contents (Elt F)) ]

/-- The sub-diagonal at distance 6: its row of the table, flattened, laid into a matrix, and added to the sum so far. -/
abbrev ops11 : List (HloOp τ sig (Elt F)) :=
  [ unary main_arg2 main_v41 ((extractStridedSlice S1x4090 ![5, 0] · slices_S7x4095_S1x4090_5_0) : (⟨S7x4095, .f32⟩ : BufTy).Contents (Elt F) → (⟨S1x4090, .f32⟩ : BufTy).Contents (Elt F)),
    reshape main_v41 main_v42 rfl shapeCasts_S1x4090_S4090,
    TRef.nullary main_call11.cst (constant S_ .f32 0x00000000#32),
    TRef.binary (TRef.of main_v42 : TRef sig ⟨S4090, .f32⟩) main_call11.cst main_call11.v0 (fun x v => pad S4096 ![6] ![0] ![0] x v pads_S4090_S4096_600 h_S_),
    TRef.nullary main_call11.v1 (iotaInDim S4096x4096 32 0),
    TRef.nullary main_call11.v2 (iotaInDim S4096x4096 32 1),
    TRef.nullary main_call11.c (constantI S_ 32 4294967290#32),
    TRef.unary main_call11.c main_call11.v3 (broadcastInDim S4096x4096 ![] bcast_S_S4096x4096),
    TRef.binary main_call11.v1 main_call11.v3 main_call11.v4 addi,
    TRef.binary main_call11.v4 main_call11.v2 main_call11.v5 (cmpi .eq),
    TRef.unary main_call11.v0 main_call11.v6 (broadcastInDim S4096x1 ![0] bcast_S4096_S4096x1_0),
    TRef.nullary main_call11.cst_0 (constant S_ .f32 0x00000000#32),
    TRef.unary main_call11.v6 main_call11.call0.v0 (broadcastInDim S4096x4096 ![0, 1] bcast_S4096x1_S4096x4096_0_1),
    TRef.unary main_call11.cst_0 main_call11.call0.v1 (broadcastInDim S4096x4096 ![] bcast_S_S4096x4096),
    TRef.ternary main_call11.v5 main_call11.call0.v0 main_call11.call0.v1 main_call11.call0.v2 select,
    binary main_v40 main_v43 main_v44 (addf : (⟨S4096x4096, .f32⟩ : BufTy).Contents (Elt F) → (⟨S4096x4096, .f32⟩ : BufTy).Contents (Elt F) → (⟨S4096x4096, .f32⟩ : BufTy).Contents (Elt F)) ]

/-- The super-diagonal at distance 6: its row of the table, flattened, laid into a matrix, and added to the sum so far. -/
abbrev ops12 : List (HloOp τ sig (Elt F)) :=
  [ unary main_arg3 main_v45 ((extractStridedSlice S1x4090 ![5, 0] · slices_S7x4095_S1x4090_5_0) : (⟨S7x4095, .f32⟩ : BufTy).Contents (Elt F) → (⟨S1x4090, .f32⟩ : BufTy).Contents (Elt F)),
    reshape main_v45 main_v46 rfl shapeCasts_S1x4090_S4090,
    TRef.nullary main_call12.cst (constant S_ .f32 0x00000000#32),
    TRef.binary (TRef.of main_v46 : TRef sig ⟨S4090, .f32⟩) main_call12.cst main_call12.v0 (fun x v => pad S4096 ![0] ![6] ![0] x v pads_S4090_S4096_060 h_S_),
    TRef.nullary main_call12.v1 (iotaInDim S4096x4096 32 0),
    TRef.nullary main_call12.v2 (iotaInDim S4096x4096 32 1),
    TRef.nullary main_call12.c (constantI S_ 32 6#32),
    TRef.unary main_call12.c main_call12.v3 (broadcastInDim S4096x4096 ![] bcast_S_S4096x4096),
    TRef.binary main_call12.v1 main_call12.v3 main_call12.v4 addi,
    TRef.binary main_call12.v4 main_call12.v2 main_call12.v5 (cmpi .eq),
    TRef.unary main_call12.v0 main_call12.v6 (broadcastInDim S4096x1 ![0] bcast_S4096_S4096x1_0),
    TRef.nullary main_call12.cst_0 (constant S_ .f32 0x00000000#32),
    TRef.unary main_call12.v6 main_call12.call0.v0 (broadcastInDim S4096x4096 ![0, 1] bcast_S4096x1_S4096x4096_0_1),
    TRef.unary main_call12.cst_0 main_call12.call0.v1 (broadcastInDim S4096x4096 ![] bcast_S_S4096x4096),
    TRef.ternary main_call12.v5 main_call12.call0.v0 main_call12.call0.v1 main_call12.call0.v2 select,
    binary main_v44 main_v47 main_v48 (addf : (⟨S4096x4096, .f32⟩ : BufTy).Contents (Elt F) → (⟨S4096x4096, .f32⟩ : BufTy).Contents (Elt F) → (⟨S4096x4096, .f32⟩ : BufTy).Contents (Elt F)) ]

/-- The sub-diagonal at distance 7: its row of the table, flattened, laid into a matrix, and added to the sum so far. -/
abbrev ops13 : List (HloOp τ sig (Elt F)) :=
  [ unary main_arg2 main_v49 ((extractStridedSlice S1x4089 ![6, 0] · slices_S7x4095_S1x4089_6_0) : (⟨S7x4095, .f32⟩ : BufTy).Contents (Elt F) → (⟨S1x4089, .f32⟩ : BufTy).Contents (Elt F)),
    reshape main_v49 main_v50 rfl shapeCasts_S1x4089_S4089,
    TRef.nullary main_call13.cst (constant S_ .f32 0x00000000#32),
    TRef.binary (TRef.of main_v50 : TRef sig ⟨S4089, .f32⟩) main_call13.cst main_call13.v0 (fun x v => pad S4096 ![7] ![0] ![0] x v pads_S4089_S4096_700 h_S_),
    TRef.nullary main_call13.v1 (iotaInDim S4096x4096 32 0),
    TRef.nullary main_call13.v2 (iotaInDim S4096x4096 32 1),
    TRef.nullary main_call13.c (constantI S_ 32 4294967289#32),
    TRef.unary main_call13.c main_call13.v3 (broadcastInDim S4096x4096 ![] bcast_S_S4096x4096),
    TRef.binary main_call13.v1 main_call13.v3 main_call13.v4 addi,
    TRef.binary main_call13.v4 main_call13.v2 main_call13.v5 (cmpi .eq),
    TRef.unary main_call13.v0 main_call13.v6 (broadcastInDim S4096x1 ![0] bcast_S4096_S4096x1_0),
    TRef.nullary main_call13.cst_0 (constant S_ .f32 0x00000000#32),
    TRef.unary main_call13.v6 main_call13.call0.v0 (broadcastInDim S4096x4096 ![0, 1] bcast_S4096x1_S4096x4096_0_1),
    TRef.unary main_call13.cst_0 main_call13.call0.v1 (broadcastInDim S4096x4096 ![] bcast_S_S4096x4096),
    TRef.ternary main_call13.v5 main_call13.call0.v0 main_call13.call0.v1 main_call13.call0.v2 select,
    binary main_v48 main_v51 main_v52 (addf : (⟨S4096x4096, .f32⟩ : BufTy).Contents (Elt F) → (⟨S4096x4096, .f32⟩ : BufTy).Contents (Elt F) → (⟨S4096x4096, .f32⟩ : BufTy).Contents (Elt F)) ]

/-- The super-diagonal at distance 7: its row of the table, flattened, laid into a matrix, and added to the sum so far. -/
abbrev ops14 : List (HloOp τ sig (Elt F)) :=
  [ unary main_arg3 main_v53 ((extractStridedSlice S1x4089 ![6, 0] · slices_S7x4095_S1x4089_6_0) : (⟨S7x4095, .f32⟩ : BufTy).Contents (Elt F) → (⟨S1x4089, .f32⟩ : BufTy).Contents (Elt F)),
    reshape main_v53 main_v54 rfl shapeCasts_S1x4089_S4089,
    TRef.nullary main_call14.cst (constant S_ .f32 0x00000000#32),
    TRef.binary (TRef.of main_v54 : TRef sig ⟨S4089, .f32⟩) main_call14.cst main_call14.v0 (fun x v => pad S4096 ![0] ![7] ![0] x v pads_S4089_S4096_070 h_S_),
    TRef.nullary main_call14.v1 (iotaInDim S4096x4096 32 0),
    TRef.nullary main_call14.v2 (iotaInDim S4096x4096 32 1),
    TRef.nullary main_call14.c (constantI S_ 32 7#32),
    TRef.unary main_call14.c main_call14.v3 (broadcastInDim S4096x4096 ![] bcast_S_S4096x4096),
    TRef.binary main_call14.v1 main_call14.v3 main_call14.v4 addi,
    TRef.binary main_call14.v4 main_call14.v2 main_call14.v5 (cmpi .eq),
    TRef.unary main_call14.v0 main_call14.v6 (broadcastInDim S4096x1 ![0] bcast_S4096_S4096x1_0),
    TRef.nullary main_call14.cst_0 (constant S_ .f32 0x00000000#32),
    TRef.unary main_call14.v6 main_call14.call0.v0 (broadcastInDim S4096x4096 ![0, 1] bcast_S4096x1_S4096x4096_0_1),
    TRef.unary main_call14.cst_0 main_call14.call0.v1 (broadcastInDim S4096x4096 ![] bcast_S_S4096x4096),
    TRef.ternary main_call14.v5 main_call14.call0.v0 main_call14.call0.v1 main_call14.call0.v2 select,
    binary main_v52 main_v55 main_v56 (addf : (⟨S4096x4096, .f32⟩ : BufTy).Contents (Elt F) → (⟨S4096x4096, .f32⟩ : BufTy).Contents (Elt F) → (⟨S4096x4096, .f32⟩ : BufTy).Contents (Elt F)) ]

/-- The product of `x` with the assembled matrix, and the bias spread to one row and then over all rows. -/
abbrev opsT : List (HloOp τ sig (Elt F)) :=
  [ binary main_arg0 main_v56 main_v57 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg4 main_v58 (broadcastInDim S1x4096 ![1] bcast_S4096_S1x4096_1 : (⟨S4096, .f32⟩ : BufTy).Contents (Elt F) → (⟨S1x4096, .f32⟩ : BufTy).Contents (Elt F)),
    unary main_v58 main_v59 (broadcastInDim S8192x4096 ![0, 1] bcast_S1x4096_S8192x4096_0_1 : (⟨S1x4096, .f32⟩ : BufTy).Contents (Elt F) → (⟨S8192x4096, .f32⟩ : BufTy).Contents (Elt F)) ]

/-- The final sum of the product and the spread bias. -/
abbrev opsU : List (HloOp τ sig (Elt F)) :=
  [ binary main_v57 main_v59 main_v60 (addf : (⟨S8192x4096, .f32⟩ : BufTy).Contents (Elt F) → (⟨S8192x4096, .f32⟩ : BufTy).Contents (Elt F) → (⟨S8192x4096, .f32⟩ : BufTy).Contents (Elt F)) ]

/-- @main's 241 operations, in order. -/
abbrev ops : List (HloOp τ sig (Elt F)) :=
  ops0 ++ ops1 ++ ops2 ++ ops3 ++ ops4 ++ ops5 ++ ops6 ++ ops7 ++ ops8 ++ ops9 ++ ops10 ++ ops11 ++ ops12 ++ ops13 ++ ops14 ++ opsT ++ opsU

theorem ops0_sub : (ops0 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem ops0_fresh : ∀ op ∈ (ops0 : List (HloOp τ sig (Elt F))), op.fresh = ∅ := by
  intro _ h; (repeat (cases h with | head => rfl | tail _ h => ?_)); exact nomatch h

theorem ops1_sub : (ops1 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops1_fresh : ∀ op ∈ (ops1 : List (HloOp τ sig (Elt F))), op.fresh = ∅ := by
  intro _ h; (repeat (cases h with | head => rfl | tail _ h => ?_)); exact nomatch h

theorem ops2_sub : (ops2 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops2_fresh : ∀ op ∈ (ops2 : List (HloOp τ sig (Elt F))), op.fresh = ∅ := by
  intro _ h; (repeat (cases h with | head => rfl | tail _ h => ?_)); exact nomatch h

theorem ops3_sub : (ops3 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops3_fresh : ∀ op ∈ (ops3 : List (HloOp τ sig (Elt F))), op.fresh = ∅ := by
  intro _ h; (repeat (cases h with | head => rfl | tail _ h => ?_)); exact nomatch h

theorem ops4_sub : (ops4 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops4_fresh : ∀ op ∈ (ops4 : List (HloOp τ sig (Elt F))), op.fresh = ∅ := by
  intro _ h; (repeat (cases h with | head => rfl | tail _ h => ?_)); exact nomatch h

theorem ops5_sub : (ops5 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops5_fresh : ∀ op ∈ (ops5 : List (HloOp τ sig (Elt F))), op.fresh = ∅ := by
  intro _ h; (repeat (cases h with | head => rfl | tail _ h => ?_)); exact nomatch h

theorem ops6_sub : (ops6 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops6_fresh : ∀ op ∈ (ops6 : List (HloOp τ sig (Elt F))), op.fresh = ∅ := by
  intro _ h; (repeat (cases h with | head => rfl | tail _ h => ?_)); exact nomatch h

theorem ops7_sub : (ops7 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops7_fresh : ∀ op ∈ (ops7 : List (HloOp τ sig (Elt F))), op.fresh = ∅ := by
  intro _ h; (repeat (cases h with | head => rfl | tail _ h => ?_)); exact nomatch h

theorem ops8_sub : (ops8 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops8_fresh : ∀ op ∈ (ops8 : List (HloOp τ sig (Elt F))), op.fresh = ∅ := by
  intro _ h; (repeat (cases h with | head => rfl | tail _ h => ?_)); exact nomatch h

theorem ops9_sub : (ops9 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops9_fresh : ∀ op ∈ (ops9 : List (HloOp τ sig (Elt F))), op.fresh = ∅ := by
  intro _ h; (repeat (cases h with | head => rfl | tail _ h => ?_)); exact nomatch h

theorem ops10_sub : (ops10 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops10_fresh : ∀ op ∈ (ops10 : List (HloOp τ sig (Elt F))), op.fresh = ∅ := by
  intro _ h; (repeat (cases h with | head => rfl | tail _ h => ?_)); exact nomatch h

theorem ops11_sub : (ops11 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops11_fresh : ∀ op ∈ (ops11 : List (HloOp τ sig (Elt F))), op.fresh = ∅ := by
  intro _ h; (repeat (cases h with | head => rfl | tail _ h => ?_)); exact nomatch h

theorem ops12_sub : (ops12 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops12_fresh : ∀ op ∈ (ops12 : List (HloOp τ sig (Elt F))), op.fresh = ∅ := by
  intro _ h; (repeat (cases h with | head => rfl | tail _ h => ?_)); exact nomatch h

theorem ops13_sub : (ops13 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops13_fresh : ∀ op ∈ (ops13 : List (HloOp τ sig (Elt F))), op.fresh = ∅ := by
  intro _ h; (repeat (cases h with | head => rfl | tail _ h => ?_)); exact nomatch h

theorem ops14_sub : (ops14 : List (HloOp τ sig (Elt F))).Forall fun op => op.bufs ⊆ tcRefs τ sig :=
  ⟨unary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub ..⟩
theorem ops14_fresh : ∀ op ∈ (ops14 : List (HloOp τ sig (Elt F))), op.fresh = ∅ := by
  intro _ h; (repeat (cases h with | head => rfl | tail _ h => ?_)); exact nomatch h

theorem opsT_sub : (opsT : List (HloOp τ sig (Elt F))).Forall fun op => op.bufs ⊆ tcRefs τ sig :=
  ⟨binary_bufs_sub .., unary_bufs_sub .., unary_bufs_sub ..⟩
theorem opsT_fresh : ∀ op ∈ (opsT : List (HloOp τ sig (Elt F))), op.fresh = ∅ := by
  intro _ h; (repeat (cases h with | head => rfl | tail _ h => ?_)); exact nomatch h

theorem opsU_sub : (opsU : List (HloOp τ sig (Elt F))).Forall fun op => op.bufs ⊆ tcRefs τ sig :=
  binary_bufs_sub ..
theorem opsU_fresh : ∀ op ∈ (opsU : List (HloOp τ sig (Elt F))), op.fresh = ∅ := by
  intro _ h; (repeat (cases h with | head => rfl | tail _ h => ?_)); exact nomatch h

end Cert.ReferenceIdeal.BandRun

end
-- ==== Proof.RefRunMainA.lean ====
/-
  The reference's @main IS the line of its operations: the callees' definitions unfolded at their calls and the calls'
  records at their fields, both sides are one chain of host steps once sequencing is re-associated. Every operation of
  the line touches TensorCore buffers only and determines its result, and the signature scopes no buffer and no counter.
-/
import proofs.«138330_j66048007078594_2_alg».proof.Proof.RefRunOps

noncomputable section

namespace Cert.ReferenceIdeal.BandRun

open Cert.ReferenceIdeal Cert.ReferenceIdeal.Facts₀ Idealize.ShloMosaic Idealize.ShloMosaic.TcCoe Idealize.SL.Sem Idealize.ShloMosaic.StableHlo

variable {F : FTy → Type} [FloatOps F] [Facts]

set_option maxRecDepth 16384 in
set_option maxHeartbeats 8000000 in
/-- The first sixty statements of @main are the first 240 operations. -/
theorem main_part0_eq (c : Dev nD) :
    main_part0 (F := F) c = seq (ops0 ++ ops1 ++ ops2 ++ ops3 ++ ops4 ++ ops5 ++ ops6 ++ ops7 ++ ops8 ++ ops9 ++ ops10 ++ ops11 ++ ops12 ++ ops13 ++ ops14 ++ opsT) := by
  simp only [main_part0, fn_diag.body, fn_diag_0.body, fn_diag_1.body, fn_diag_2.body, fn_diag_3.body, fn_diag_4.body, fn_diag_5.body, fn_diag_6.body, fn_diag_7.body, fn_diag_8.body, fn_diag_9.body, fn_diag_10.body, fn_diag_11.body, fn_diag_12.body, fn_diag_13.body, fn_where.body, seq_append, ops0, ops1, ops2, ops3, ops4, ops5, ops6, ops7, ops8, ops9, ops10, ops11, ops12, ops13, ops14, opsT, seq, bind_assoc, pure_bind]
  rfl

/-- The last statement of @main is the last operation. -/
theorem main_part1_eq (c : Dev nD) : main_part1 (F := F) c = seq opsU := rfl

/-- @main is the line of its 241 operations. -/
theorem main_eq (c : Dev nD) : main (F := F) c = seq ops := by
  rw [show (ops : List (HloOp τ sig (Elt F))) = (ops0 ++ ops1 ++ ops2 ++ ops3 ++ ops4 ++ ops5 ++ ops6 ++ ops7 ++ ops8 ++ ops9 ++ ops10 ++ ops11 ++ ops12 ++ ops13 ++ ops14 ++ opsT) ++ opsU from rfl, seq_append,
    ← main_part0_eq c, ← main_part1_eq c]
  rfl

theorem app_all {α : Type} {p : α → Prop} {l₁ l₂ : List α} (h₁ : ∀ a ∈ l₁, p a) (h₂ : ∀ a ∈ l₂, p a) : ∀ a ∈ l₁ ++ l₂, p a :=
  fun a h => (List.mem_append.mp h).elim (h₁ a) (h₂ a)

/-- Every operation touches TensorCore buffers only. -/
theorem ops_sub_mem : ∀ op ∈ (ops : List (HloOp τ sig (Elt F))), op.bufs ⊆ tcRefs τ sig :=
  (app_all (app_all (app_all (app_all (app_all (app_all (app_all (app_all (app_all (app_all (app_all (app_all (app_all (app_all (app_all (app_all (List.forall_iff_forall_mem.mp ops0_sub) (List.forall_iff_forall_mem.mp ops1_sub)) (List.forall_iff_forall_mem.mp ops2_sub)) (List.forall_iff_forall_mem.mp ops3_sub)) (List.forall_iff_forall_mem.mp ops4_sub)) (List.forall_iff_forall_mem.mp ops5_sub)) (List.forall_iff_forall_mem.mp ops6_sub)) (List.forall_iff_forall_mem.mp ops7_sub)) (List.forall_iff_forall_mem.mp ops8_sub)) (List.forall_iff_forall_mem.mp ops9_sub)) (List.forall_iff_forall_mem.mp ops10_sub)) (List.forall_iff_forall_mem.mp ops11_sub)) (List.forall_iff_forall_mem.mp ops12_sub)) (List.forall_iff_forall_mem.mp ops13_sub)) (List.forall_iff_forall_mem.mp ops14_sub)) (List.forall_iff_forall_mem.mp opsT_sub)) (List.forall_iff_forall_mem.mp opsU_sub))

/-- Every operation determines its result. -/
theorem ops_fresh : ∀ op ∈ (ops : List (HloOp τ sig (Elt F))), op.fresh = ∅ :=
  (app_all (app_all (app_all (app_all (app_all (app_all (app_all (app_all (app_all (app_all (app_all (app_all (app_all (app_all (app_all (app_all ops0_fresh ops1_fresh) ops2_fresh) ops3_fresh) ops4_fresh) ops5_fresh) ops6_fresh) ops7_fresh) ops8_fresh) ops9_fresh) ops10_fresh) ops11_fresh) ops12_fresh) ops13_fresh) ops14_fresh) opsT_fresh) opsU_fresh)

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.BandRun

end
-- ==== Proof.RefRunMain.lean ====
/-
  Every weakly fair execution of the reference's @main terminates and leaves each buffer at the fold of its line of
  operations over the launch contents: the library's theorem for a straight line of host operations, at this program's
  line. It is stated first for any list the program equals, so that the line's own 241 entries are never walked.
-/
import proofs.«138330_j66048007078594_2_alg».proof.Proof.RefRunMainA

noncomputable section

namespace Cert.ReferenceIdeal.BandRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- If @main is the line `l`, every operation of `l` touches TensorCore buffers only and determines its result, then
    from any memory with zero counters every weakly fair execution of @main terminates, and every buffer ends at the
    fold of `l` over the launch contents. -/
theorem run_of_line (l : List (HloOp τ sig (Elt F))) (hmain : ∀ c : Dev nD, main (F := F) c = seq l)
    (hsub : ∀ op ∈ l, op.bufs ⊆ tcRefs τ sig) (hfresh : ∀ op ∈ l, op.fresh = ∅)
    (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after l (launchContents m c) (Proc.devRef .tc b) :=
  run_seq scopedRefs_eq scopedSems_eq defs main (fun _ => l) hmain (fun _ => List.forall_iff_forall_mem.mpr hsub) m ρ (fun _ => hfresh)

/-- On every device, for any float values, from any memory with zero counters: every weakly fair execution of @main
    terminates, and every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_of_line ops main_eq ops_sub_mem ops_fresh m ρ

end Cert.ReferenceIdeal.BandRun

end
-- ==== Proof.RefTerm.lean ====
/-
  The reference program's result as one term of its five arguments: the dense 4096 × 4096 band matrix assembled from
  fifteen diagonals, the rows of `x` multiplied into it, the bias added to every row.

  Each diagonal is laid into the matrix the same way (`diagMatrix`): the diagonal's entries, zero-filled in front or
  behind to 4096, are spread along the rows, and entry (k, q) keeps row `k`'s value where `k + off = q` (as 32-bit
  words: `off` is the diagonal's signed distance from the main one) and is zero elsewhere. The main diagonal has
  distance 0; sub-diagonal `i` (row `i` of `lower`, its first `4096 - (i+1)` entries) distance `-(i+1)`, zero-filled in
  front; super-diagonal `i` (row `i` of `upper`) distance `i+1`, zero-filled behind. The fifteen matrices are added in
  the order main, sub 0, super 0, sub 1, super 1, …
-/
import proofs.«138330_j66048007078594_2_alg».proof.ReferenceIdeal

noncomputable section

namespace Cert.ReferenceIdeal.Band

open Idealize.ShloMosaic Cert.ReferenceIdeal Cert.ReferenceIdeal.Facts₀

variable {F : FTy → Type} [FloatOps F] [Facts]

/-- A diagonal of `n` entries as a 4096 × 4096 matrix: zero-filled by `lo` places in front and `hi` behind, and kept at
    the entries (k, q) with `k + off = q` (32-bit words), row `k` holding the filled vector's entry `k`. -/
def diagMatrix {n : Nat} (lo hi : Nat) (off : BitVec 32) (v : FVec F (⟨1, ![n]⟩ : Shape) .f32)
    (hp : (⟨1, ![n]⟩ : Shape).Pads (![lo] : Fin 1 → Nat) ![hi] ![0] S4096) : FVec F S4096x4096 .f32 :=
  select
    (cmpi .eq (addi (iotaInDim S4096x4096 32 0) (broadcastInDim S4096x4096 ![] bcast_S_S4096x4096 (constantI S_ 32 off)))
      (iotaInDim S4096x4096 32 1))
    (broadcastInDim S4096x4096 ![0, 1] bcast_S4096x1_S4096x4096_0_1
      (broadcastInDim S4096x1 ![0] bcast_S4096_S4096x1_0
        (pad S4096 ![lo] ![hi] ![0] v (constant S_ .f32 0x00000000#32) hp h_S_)))
    (broadcastInDim S4096x4096 ![] bcast_S_S4096x4096 (constant S_ .f32 0x00000000#32))

/-- The dense band matrix: the fifteen diagonals' matrices added, main first, then sub- and super-diagonal of each
    distance 1 … 7 in turn. -/
def bandMatrix (diag : FVec F S4096 .f32) (lower upper : FVec F S7x4095 .f32) : FVec F S4096x4096 .f32 :=
  (addf (addf (addf (addf (addf (addf (addf (addf (addf (addf (addf (addf (addf (addf (diagMatrix 0 0 0#32 diag pads_S4096_S4096_000)
      (diagMatrix 1 0 4294967295#32 (shapeCast S4095 (extractStridedSlice S1x4095 ![0, 0] lower slices_S7x4095_S1x4095_0_0) shapeCasts_S1x4095_S4095) pads_S4095_S4096_100))
      (diagMatrix 0 1 1#32 (shapeCast S4095 (extractStridedSlice S1x4095 ![0, 0] upper slices_S7x4095_S1x4095_0_0) shapeCasts_S1x4095_S4095) pads_S4095_S4096_010))
      (diagMatrix 2 0 4294967294#32 (shapeCast S4094 (extractStridedSlice S1x4094 ![1, 0] lower slices_S7x4095_S1x4094_1_0) shapeCasts_S1x4094_S4094) pads_S4094_S4096_200))
      (diagMatrix 0 2 2#32 (shapeCast S4094 (extractStridedSlice S1x4094 ![1, 0] upper slices_S7x4095_S1x4094_1_0) shapeCasts_S1x4094_S4094) pads_S4094_S4096_020))
      (diagMatrix 3 0 4294967293#32 (shapeCast S4093 (extractStridedSlice S1x4093 ![2, 0] lower slices_S7x4095_S1x4093_2_0) shapeCasts_S1x4093_S4093) pads_S4093_S4096_300))
      (diagMatrix 0 3 3#32 (shapeCast S4093 (extractStridedSlice S1x4093 ![2, 0] upper slices_S7x4095_S1x4093_2_0) shapeCasts_S1x4093_S4093) pads_S4093_S4096_030))
      (diagMatrix 4 0 4294967292#32 (shapeCast S4092 (extractStridedSlice S1x4092 ![3, 0] lower slices_S7x4095_S1x4092_3_0) shapeCasts_S1x4092_S4092) pads_S4092_S4096_400))
      (diagMatrix 0 4 4#32 (shapeCast S4092 (extractStridedSlice S1x4092 ![3, 0] upper slices_S7x4095_S1x4092_3_0) shapeCasts_S1x4092_S4092) pads_S4092_S4096_040))
      (diagMatrix 5 0 4294967291#32 (shapeCast S4091 (extractStridedSlice S1x4091 ![4, 0] lower slices_S7x4095_S1x4091_4_0) shapeCasts_S1x4091_S4091) pads_S4091_S4096_500))
      (diagMatrix 0 5 5#32 (shapeCast S4091 (extractStridedSlice S1x4091 ![4, 0] upper slices_S7x4095_S1x4091_4_0) shapeCasts_S1x4091_S4091) pads_S4091_S4096_050))
      (diagMatrix 6 0 4294967290#32 (shapeCast S4090 (extractStridedSlice S1x4090 ![5, 0] lower slices_S7x4095_S1x4090_5_0) shapeCasts_S1x4090_S4090) pads_S4090_S4096_600))
      (diagMatrix 0 6 6#32 (shapeCast S4090 (extractStridedSlice S1x4090 ![5, 0] upper slices_S7x4095_S1x4090_5_0) shapeCasts_S1x4090_S4090) pads_S4090_S4096_060))
      (diagMatrix 7 0 4294967289#32 (shapeCast S4089 (extractStridedSlice S1x4089 ![6, 0] lower slices_S7x4095_S1x4089_6_0) shapeCasts_S1x4089_S4089) pads_S4089_S4096_700))
      (diagMatrix 0 7 7#32 (shapeCast S4089 (extractStridedSlice S1x4089 ![6, 0] upper slices_S7x4095_S1x4089_6_0) shapeCasts_S1x4089_S4089) pads_S4089_S4096_070))

/-- The reference's result: `x` times the band matrix (one contraction over the 4096 columns of `x` and rows of the
    matrix), plus the bias spread over the 8192 rows. -/
def refTerm (x : FVec F S8192x4096 .f32) (diag : FVec F S4096 .f32) (lower upper : FVec F S7x4095 .f32)
    (bias : FVec F S4096 .f32) : FVec F S8192x4096 .f32 :=
  addf (Host.dotGeneral dot_S8192x4096_S4096x4096_S8192x4096_1_0_0_1_n_n none x (bandMatrix diag lower upper))
    (broadcastInDim S8192x4096 ![0, 1] bcast_S1x4096_S8192x4096_0_1 (broadcastInDim S1x4096 ![1] bcast_S4096_S1x4096_1 bias))

end Cert.ReferenceIdeal.Band

end
-- ==== Proof.RefRunVal.lean ====
/-
  What the reference's operations leave in the buffers, chunk by chunk. After the first chunk the matrix buffer holds the
  main diagonal's matrix; each later chunk adds one off-diagonal's matrix to the sum so far; the last two chunks multiply
  `x` into the finished matrix and add the spread bias. No chunk writes an argument buffer. Chained, the result buffer
  holds the reference's result term of the five arguments.
-/
import proofs.«138330_j66048007078594_2_alg».proof.Proof.RefRunOps
import proofs.«138330_j66048007078594_2_alg».proof.Proof.RefTerm

noncomputable section

namespace Cert.ReferenceIdeal.BandRun

open Cert.ReferenceIdeal Cert.ReferenceIdeal.Facts₀ Cert.ReferenceIdeal.Band Idealize.ShloMosaic Idealize.ShloMosaic.TcCoe Idealize.SL.Sem Idealize.ShloMosaic.StableHlo

variable {F : FTy → Type} [FloatOps F] [Facts]

/-- Two lines run one after the other leave what the second leaves from what the first left. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The partial sums of the band matrix -/

/-- The main diagonal's matrix. -/
def M0 (diag : FVec F S4096 .f32) : FVec F S4096x4096 .f32 :=
  diagMatrix 0 0 0#32 diag pads_S4096_S4096_000
/-- The sum of the first 2 diagonals' matrices. -/
def M1 (diag : FVec F S4096 .f32) (lower upper : FVec F S7x4095 .f32) : FVec F S4096x4096 .f32 :=
  addf (M0 diag) (diagMatrix 1 0 4294967295#32 (shapeCast S4095 (extractStridedSlice S1x4095 ![0, 0] lower slices_S7x4095_S1x4095_0_0) shapeCasts_S1x4095_S4095) pads_S4095_S4096_100)
/-- The sum of the first 3 diagonals' matrices. -/
def M2 (diag : FVec F S4096 .f32) (lower upper : FVec F S7x4095 .f32) : FVec F S4096x4096 .f32 :=
  addf (M1 diag lower upper) (diagMatrix 0 1 1#32 (shapeCast S4095 (extractStridedSlice S1x4095 ![0, 0] upper slices_S7x4095_S1x4095_0_0) shapeCasts_S1x4095_S4095) pads_S4095_S4096_010)
/-- The sum of the first 4 diagonals' matrices. -/
def M3 (diag : FVec F S4096 .f32) (lower upper : FVec F S7x4095 .f32) : FVec F S4096x4096 .f32 :=
  addf (M2 diag lower upper) (diagMatrix 2 0 4294967294#32 (shapeCast S4094 (extractStridedSlice S1x4094 ![1, 0] lower slices_S7x4095_S1x4094_1_0) shapeCasts_S1x4094_S4094) pads_S4094_S4096_200)
/-- The sum of the first 5 diagonals' matrices. -/
def M4 (diag : FVec F S4096 .f32) (lower upper : FVec F S7x4095 .f32) : FVec F S4096x4096 .f32 :=
  addf (M3 diag lower upper) (diagMatrix 0 2 2#32 (shapeCast S4094 (extractStridedSlice S1x4094 ![1, 0] upper slices_S7x4095_S1x4094_1_0) shapeCasts_S1x4094_S4094) pads_S4094_S4096_020)
/-- The sum of the first 6 diagonals' matrices. -/
def M5 (diag : FVec F S4096 .f32) (lower upper : FVec F S7x4095 .f32) : FVec F S4096x4096 .f32 :=
  addf (M4 diag lower upper) (diagMatrix 3 0 4294967293#32 (shapeCast S4093 (extractStridedSlice S1x4093 ![2, 0] lower slices_S7x4095_S1x4093_2_0) shapeCasts_S1x4093_S4093) pads_S4093_S4096_300)
/-- The sum of the first 7 diagonals' matrices. -/
def M6 (diag : FVec F S4096 .f32) (lower upper : FVec F S7x4095 .f32) : FVec F S4096x4096 .f32 :=
  addf (M5 diag lower upper) (diagMatrix 0 3 3#32 (shapeCast S4093 (extractStridedSlice S1x4093 ![2, 0] upper slices_S7x4095_S1x4093_2_0) shapeCasts_S1x4093_S4093) pads_S4093_S4096_030)
/-- The sum of the first 8 diagonals' matrices. -/
def M7 (diag : FVec F S4096 .f32) (lower upper : FVec F S7x4095 .f32) : FVec F S4096x4096 .f32 :=
  addf (M6 diag lower upper) (diagMatrix 4 0 4294967292#32 (shapeCast S4092 (extractStridedSlice S1x4092 ![3, 0] lower slices_S7x4095_S1x4092_3_0) shapeCasts_S1x4092_S4092) pads_S4092_S4096_400)
/-- The sum of the first 9 diagonals' matrices. -/
def M8 (diag : FVec F S4096 .f32) (lower upper : FVec F S7x4095 .f32) : FVec F S4096x4096 .f32 :=
  addf (M7 diag lower upper) (diagMatrix 0 4 4#32 (shapeCast S4092 (extractStridedSlice S1x4092 ![3, 0] upper slices_S7x4095_S1x4092_3_0) shapeCasts_S1x4092_S4092) pads_S4092_S4096_040)
/-- The sum of the first 10 diagonals' matrices. -/
def M9 (diag : FVec F S4096 .f32) (lower upper : FVec F S7x4095 .f32) : FVec F S4096x4096 .f32 :=
  addf (M8 diag lower upper) (diagMatrix 5 0 4294967291#32 (shapeCast S4091 (extractStridedSlice S1x4091 ![4, 0] lower slices_S7x4095_S1x4091_4_0) shapeCasts_S1x4091_S4091) pads_S4091_S4096_500)
/-- The sum of the first 11 diagonals' matrices. -/
def M10 (diag : FVec F S4096 .f32) (lower upper : FVec F S7x4095 .f32) : FVec F S4096x4096 .f32 :=
  addf (M9 diag lower upper) (diagMatrix 0 5 5#32 (shapeCast S4091 (extractStridedSlice S1x4091 ![4, 0] upper slices_S7x4095_S1x4091_4_0) shapeCasts_S1x4091_S4091) pads_S4091_S4096_050)
/-- The sum of the first 12 diagonals' matrices. -/
def M11 (diag : FVec F S4096 .f32) (lower upper : FVec F S7x4095 .f32) : FVec F S4096x4096 .f32 :=
  addf (M10 diag lower upper) (diagMatrix 6 0 4294967290#32 (shapeCast S4090 (extractStridedSlice S1x4090 ![5, 0] lower slices_S7x4095_S1x4090_5_0) shapeCasts_S1x4090_S4090) pads_S4090_S4096_600)
/-- The sum of the first 13 diagonals' matrices. -/
def M12 (diag : FVec F S4096 .f32) (lower upper : FVec F S7x4095 .f32) : FVec F S4096x4096 .f32 :=
  addf (M11 diag lower upper) (diagMatrix 0 6 6#32 (shapeCast S4090 (extractStridedSlice S1x4090 ![5, 0] upper slices_S7x4095_S1x4090_5_0) shapeCasts_S1x4090_S4090) pads_S4090_S4096_060)
/-- The sum of the first 14 diagonals' matrices. -/
def M13 (diag : FVec F S4096 .f32) (lower upper : FVec F S7x4095 .f32) : FVec F S4096x4096 .f32 :=
  addf (M12 diag lower upper) (diagMatrix 7 0 4294967289#32 (shapeCast S4089 (extractStridedSlice S1x4089 ![6, 0] lower slices_S7x4095_S1x4089_6_0) shapeCasts_S1x4089_S4089) pads_S4089_S4096_700)
/-- The sum of the first 15 diagonals' matrices. -/
def M14 (diag : FVec F S4096 .f32) (lower upper : FVec F S7x4095 .f32) : FVec F S4096x4096 .f32 :=
  addf (M13 diag lower upper) (diagMatrix 0 7 7#32 (shapeCast S4089 (extractStridedSlice S1x4089 ![6, 0] upper slices_S7x4095_S1x4089_6_0) shapeCasts_S1x4089_S4089) pads_S4089_S4096_070)

theorem M14_eq (diag : FVec F S4096 .f32) (lower upper : FVec F S7x4095 .f32) : M14 diag lower upper = bandMatrix diag lower upper := rfl

/-! ## Contents at a buffer's own type

A callee's operations are stated at the tensor types of its values and moved to each buffer's own type and back; at these
buffers both moves are the identity. -/

/-- Contents moved to a buffer's own type and back are the contents. -/
theorem ofBuf_toBuf {T : BufTy} (x : TRef sig T) (v : T.Contents (Elt F)) : x.ofBuf (x.toBuf v) = v := by
  obtain ⟨r, h, a, b⟩ := x
  subst h
  rfl

theorem toBuf_main_v0 (p1 p2 p3) (v : (⟨S4096x4096, .f32⟩ : BufTy).Contents (Elt F)) :
    (TRef.of main_v0 p1 p2 p3 : TRef sig ⟨S4096x4096, .f32⟩).toBuf (Val := Elt F) v = v := rfl
theorem ofBuf_main_arg1 (p1 p2 p3) (v : (⟨S4096, .f32⟩ : BufTy).Contents (Elt F)) :
    (TRef.of main_arg1 p1 p2 p3 : TRef sig ⟨S4096, .f32⟩).ofBuf (Val := Elt F) v = v := rfl
theorem toBuf_main_v3 (p1 p2 p3) (v : (⟨S4096x4096, .f32⟩ : BufTy).Contents (Elt F)) :
    (TRef.of main_v3 p1 p2 p3 : TRef sig ⟨S4096x4096, .f32⟩).toBuf (Val := Elt F) v = v := rfl
theorem ofBuf_main_v2 (p1 p2 p3) (v : (⟨S4095, .f32⟩ : BufTy).Contents (Elt F)) :
    (TRef.of main_v2 p1 p2 p3 : TRef sig ⟨S4095, .f32⟩).ofBuf (Val := Elt F) v = v := rfl
theorem toBuf_main_v7 (p1 p2 p3) (v : (⟨S4096x4096, .f32⟩ : BufTy).Contents (Elt F)) :
    (TRef.of main_v7 p1 p2 p3 : TRef sig ⟨S4096x4096, .f32⟩).toBuf (Val := Elt F) v = v := rfl
theorem ofBuf_main_v6 (p1 p2 p3) (v : (⟨S4095, .f32⟩ : BufTy).Contents (Elt F)) :
    (TRef.of main_v6 p1 p2 p3 : TRef sig ⟨S4095, .f32⟩).ofBuf (Val := Elt F) v = v := rfl
theorem toBuf_main_v11 (p1 p2 p3) (v : (⟨S4096x4096, .f32⟩ : BufTy).Contents (Elt F)) :
    (TRef.of main_v11 p1 p2 p3 : TRef sig ⟨S4096x4096, .f32⟩).toBuf (Val := Elt F) v = v := rfl
theorem ofBuf_main_v10 (p1 p2 p3) (v : (⟨S4094, .f32⟩ : BufTy).Contents (Elt F)) :
    (TRef.of main_v10 p1 p2 p3 : TRef sig ⟨S4094, .f32⟩).ofBuf (Val := Elt F) v = v := rfl
theorem toBuf_main_v15 (p1 p2 p3) (v : (⟨S4096x4096, .f32⟩ : BufTy).Contents (Elt F)) :
    (TRef.of main_v15 p1 p2 p3 : TRef sig ⟨S4096x4096, .f32⟩).toBuf (Val := Elt F) v = v := rfl
theorem ofBuf_main_v14 (p1 p2 p3) (v : (⟨S4094, .f32⟩ : BufTy).Contents (Elt F)) :
    (TRef.of main_v14 p1 p2 p3 : TRef sig ⟨S4094, .f32⟩).ofBuf (Val := Elt F) v = v := rfl
theorem toBuf_main_v19 (p1 p2 p3) (v : (⟨S4096x4096, .f32⟩ : BufTy).Contents (Elt F)) :
    (TRef.of main_v19 p1 p2 p3 : TRef sig ⟨S4096x4096, .f32⟩).toBuf (Val := Elt F) v = v := rfl
theorem ofBuf_main_v18 (p1 p2 p3) (v : (⟨S4093, .f32⟩ : BufTy).Contents (Elt F)) :
    (TRef.of main_v18 p1 p2 p3 : TRef sig ⟨S4093, .f32⟩).ofBuf (Val := Elt F) v = v := rfl
theorem toBuf_main_v23 (p1 p2 p3) (v : (⟨S4096x4096, .f32⟩ : BufTy).Contents (Elt F)) :
    (TRef.of main_v23 p1 p2 p3 : TRef sig ⟨S4096x4096, .f32⟩).toBuf (Val := Elt F) v = v := rfl
theorem ofBuf_main_v22 (p1 p2 p3) (v : (⟨S4093, .f32⟩ : BufTy).Contents (Elt F)) :
    (TRef.of main_v22 p1 p2 p3 : TRef sig ⟨S4093, .f32⟩).ofBuf (Val := Elt F) v = v := rfl
theorem toBuf_main_v27 (p1 p2 p3) (v : (⟨S4096x4096, .f32⟩ : BufTy).Contents (Elt F)) :
    (TRef.of main_v27 p1 p2 p3 : TRef sig ⟨S4096x4096, .f32⟩).toBuf (Val := Elt F) v = v := rfl
theorem ofBuf_main_v26 (p1 p2 p3) (v : (⟨S4092, .f32⟩ : BufTy).Contents (Elt F)) :
    (TRef.of main_v26 p1 p2 p3 : TRef sig ⟨S4092, .f32⟩).ofBuf (Val := Elt F) v = v := rfl
theorem toBuf_main_v31 (p1 p2 p3) (v : (⟨S4096x4096, .f32⟩ : BufTy).Contents (Elt F)) :
    (TRef.of main_v31 p1 p2 p3 : TRef sig ⟨S4096x4096, .f32⟩).toBuf (Val := Elt F) v = v := rfl
theorem ofBuf_main_v30 (p1 p2 p3) (v : (⟨S4092, .f32⟩ : BufTy).Contents (Elt F)) :
    (TRef.of main_v30 p1 p2 p3 : TRef sig ⟨S4092, .f32⟩).ofBuf (Val := Elt F) v = v := rfl
theorem toBuf_main_v35 (p1 p2 p3) (v : (⟨S4096x4096, .f32⟩ : BufTy).Contents (Elt F)) :
    (TRef.of main_v35 p1 p2 p3 : TRef sig ⟨S4096x4096, .f32⟩).toBuf (Val := Elt F) v = v := rfl
theorem ofBuf_main_v34 (p1 p2 p3) (v : (⟨S4091, .f32⟩ : BufTy).Contents (Elt F)) :
    (TRef.of main_v34 p1 p2 p3 : TRef sig ⟨S4091, .f32⟩).ofBuf (Val := Elt F) v = v := rfl
theorem toBuf_main_v39 (p1 p2 p3) (v : (⟨S4096x4096, .f32⟩ : BufTy).Contents (Elt F)) :
    (TRef.of main_v39 p1 p2 p3 : TRef sig ⟨S4096x4096, .f32⟩).toBuf (Val := Elt F) v = v := rfl
theorem ofBuf_main_v38 (p1 p2 p3) (v : (⟨S4091, .f32⟩ : BufTy).Contents (Elt F)) :
    (TRef.of main_v38 p1 p2 p3 : TRef sig ⟨S4091, .f32⟩).ofBuf (Val := Elt F) v = v := rfl
theorem toBuf_main_v43 (p1 p2 p3) (v : (⟨S4096x4096, .f32⟩ : BufTy).Contents (Elt F)) :
    (TRef.of main_v43 p1 p2 p3 : TRef sig ⟨S4096x4096, .f32⟩).toBuf (Val := Elt F) v = v := rfl
theorem ofBuf_main_v42 (p1 p2 p3) (v : (⟨S4090, .f32⟩ : BufTy).Contents (Elt F)) :
    (TRef.of main_v42 p1 p2 p3 : TRef sig ⟨S4090, .f32⟩).ofBuf (Val := Elt F) v = v := rfl
theorem toBuf_main_v47 (p1 p2 p3) (v : (⟨S4096x4096, .f32⟩ : BufTy).Contents (Elt F)) :
    (TRef.of main_v47 p1 p2 p3 : TRef sig ⟨S4096x4096, .f32⟩).toBuf (Val := Elt F) v = v := rfl
theorem ofBuf_main_v46 (p1 p2 p3) (v : (⟨S4090, .f32⟩ : BufTy).Contents (Elt F)) :
    (TRef.of main_v46 p1 p2 p3 : TRef sig ⟨S4090, .f32⟩).ofBuf (Val := Elt F) v = v := rfl
theorem toBuf_main_v51 (p1 p2 p3) (v : (⟨S4096x4096, .f32⟩ : BufTy).Contents (Elt F)) :
    (TRef.of main_v51 p1 p2 p3 : TRef sig ⟨S4096x4096, .f32⟩).toBuf (Val := Elt F) v = v := rfl
theorem ofBuf_main_v50 (p1 p2 p3) (v : (⟨S4089, .f32⟩ : BufTy).Contents (Elt F)) :
    (TRef.of main_v50 p1 p2 p3 : TRef sig ⟨S4089, .f32⟩).ofBuf (Val := Elt F) v = v := rfl
theorem toBuf_main_v55 (p1 p2 p3) (v : (⟨S4096x4096, .f32⟩ : BufTy).Contents (Elt F)) :
    (TRef.of main_v55 p1 p2 p3 : TRef sig ⟨S4096x4096, .f32⟩).toBuf (Val := Elt F) v = v := rfl
theorem ofBuf_main_v54 (p1 p2 p3) (v : (⟨S4089, .f32⟩ : BufTy).Contents (Elt F)) :
    (TRef.of main_v54 p1 p2 p3 : TRef sig ⟨S4089, .f32⟩).ofBuf (Val := Elt F) v = v := rfl

/-! ## One chunk at a time, from any contents -/

theorem ops0_val (V : Valuation τ sig (Elt F)) :
    after ops0 V (main_v0 : DevRef τ sig) = diagMatrix (F := F) 0 0 0#32 (V (main_arg1 : DevRef τ sig)) pads_S4096_S4096_000 := by
  after_results
  simp only [ofBuf_toBuf, toBuf_main_v0, ofBuf_main_arg1]
  rfl
theorem ops0_args (V : Valuation τ sig (Elt F)) :
    after ops0 V (main_arg0 : DevRef τ sig) = (V (main_arg0 : DevRef τ sig))
      ∧ after ops0 V (main_arg1 : DevRef τ sig) = (V (main_arg1 : DevRef τ sig))
      ∧ after ops0 V (main_arg2 : DevRef τ sig) = (V (main_arg2 : DevRef τ sig))
      ∧ after ops0 V (main_arg3 : DevRef τ sig) = (V (main_arg3 : DevRef τ sig))
      ∧ after ops0 V (main_arg4 : DevRef τ sig) = (V (main_arg4 : DevRef τ sig)) := by
  refine ⟨?_, ?_, ?_, ?_, ?_⟩ <;> after_results

theorem ops1_val (V : Valuation τ sig (Elt F)) :
    after ops1 V (main_v4 : DevRef τ sig)
      = addf (V (main_v0 : DevRef τ sig)) (diagMatrix (F := F) 1 0 4294967295#32 (shapeCast S4095 (extractStridedSlice S1x4095 ![0, 0] (V (main_arg2 : DevRef τ sig)) slices_S7x4095_S1x4095_0_0) shapeCasts_S1x4095_S4095) pads_S4095_S4096_100) := by
  after_results
  simp only [ofBuf_toBuf, toBuf_main_v3, ofBuf_main_v2]
  rfl
theorem ops1_args (V : Valuation τ sig (Elt F)) :
    after ops1 V (main_arg0 : DevRef τ sig) = (V (main_arg0 : DevRef τ sig))
      ∧ after ops1 V (main_arg1 : DevRef τ sig) = (V (main_arg1 : DevRef τ sig))
      ∧ after ops1 V (main_arg2 : DevRef τ sig) = (V (main_arg2 : DevRef τ sig))
      ∧ after ops1 V (main_arg3 : DevRef τ sig) = (V (main_arg3 : DevRef τ sig))
      ∧ after ops1 V (main_arg4 : DevRef τ sig) = (V (main_arg4 : DevRef τ sig)) := by
  refine ⟨?_, ?_, ?_, ?_, ?_⟩ <;> after_results

theorem ops2_val (V : Valuation τ sig (Elt F)) :
    after ops2 V (main_v8 : DevRef τ sig)
      = addf (V (main_v4 : DevRef τ sig)) (diagMatrix (F := F) 0 1 1#32 (shapeCast S4095 (extractStridedSlice S1x4095 ![0, 0] (V (main_arg3 : DevRef τ sig)) slices_S7x4095_S1x4095_0_0) shapeCasts_S1x4095_S4095) pads_S4095_S4096_010) := by
  after_results
  simp only [ofBuf_toBuf, toBuf_main_v7, ofBuf_main_v6]
  rfl
theorem ops2_args (V : Valuation τ sig (Elt F)) :
    after ops2 V (main_arg0 : DevRef τ sig) = (V (main_arg0 : DevRef τ sig))
      ∧ after ops2 V (main_arg1 : DevRef τ sig) = (V (main_arg1 : DevRef τ sig))
      ∧ after ops2 V (main_arg2 : DevRef τ sig) = (V (main_arg2 : DevRef τ sig))
      ∧ after ops2 V (main_arg3 : DevRef τ sig) = (V (main_arg3 : DevRef τ sig))
      ∧ after ops2 V (main_arg4 : DevRef τ sig) = (V (main_arg4 : DevRef τ sig)) := by
  refine ⟨?_, ?_, ?_, ?_, ?_⟩ <;> after_results

theorem ops3_val (V : Valuation τ sig (Elt F)) :
    after ops3 V (main_v12 : DevRef τ sig)
      = addf (V (main_v8 : DevRef τ sig)) (diagMatrix (F := F) 2 0 4294967294#32 (shapeCast S4094 (extractStridedSlice S1x4094 ![1, 0] (V (main_arg2 : DevRef τ sig)) slices_S7x4095_S1x4094_1_0) shapeCasts_S1x4094_S4094) pads_S4094_S4096_200) := by
  after_results
  simp only [ofBuf_toBuf, toBuf_main_v11, ofBuf_main_v10]
  rfl
theorem ops3_args (V : Valuation τ sig (Elt F)) :
    after ops3 V (main_arg0 : DevRef τ sig) = (V (main_arg0 : DevRef τ sig))
      ∧ after ops3 V (main_arg1 : DevRef τ sig) = (V (main_arg1 : DevRef τ sig))
      ∧ after ops3 V (main_arg2 : DevRef τ sig) = (V (main_arg2 : DevRef τ sig))
      ∧ after ops3 V (main_arg3 : DevRef τ sig) = (V (main_arg3 : DevRef τ sig))
      ∧ after ops3 V (main_arg4 : DevRef τ sig) = (V (main_arg4 : DevRef τ sig)) := by
  refine ⟨?_, ?_, ?_, ?_, ?_⟩ <;> after_results

theorem ops4_val (V : Valuation τ sig (Elt F)) :
    after ops4 V (main_v16 : DevRef τ sig)
      = addf (V (main_v12 : DevRef τ sig)) (diagMatrix (F := F) 0 2 2#32 (shapeCast S4094 (extractStridedSlice S1x4094 ![1, 0] (V (main_arg3 : DevRef τ sig)) slices_S7x4095_S1x4094_1_0) shapeCasts_S1x4094_S4094) pads_S4094_S4096_020) := by
  after_results
  simp only [ofBuf_toBuf, toBuf_main_v15, ofBuf_main_v14]
  rfl
theorem ops4_args (V : Valuation τ sig (Elt F)) :
    after ops4 V (main_arg0 : DevRef τ sig) = (V (main_arg0 : DevRef τ sig))
      ∧ after ops4 V (main_arg1 : DevRef τ sig) = (V (main_arg1 : DevRef τ sig))
      ∧ after ops4 V (main_arg2 : DevRef τ sig) = (V (main_arg2 : DevRef τ sig))
      ∧ after ops4 V (main_arg3 : DevRef τ sig) = (V (main_arg3 : DevRef τ sig))
      ∧ after ops4 V (main_arg4 : DevRef τ sig) = (V (main_arg4 : DevRef τ sig)) := by
  refine ⟨?_, ?_, ?_, ?_, ?_⟩ <;> after_results

theorem ops5_val (V : Valuation τ sig (Elt F)) :
    after ops5 V (main_v20 : DevRef τ sig)
      = addf (V (main_v16 : DevRef τ sig)) (diagMatrix (F := F) 3 0 4294967293#32 (shapeCast S4093 (extractStridedSlice S1x4093 ![2, 0] (V (main_arg2 : DevRef τ sig)) slices_S7x4095_S1x4093_2_0) shapeCasts_S1x4093_S4093) pads_S4093_S4096_300) := by
  after_results
  simp only [ofBuf_toBuf, toBuf_main_v19, ofBuf_main_v18]
  rfl
theorem ops5_args (V : Valuation τ sig (Elt F)) :
    after ops5 V (main_arg0 : DevRef τ sig) = (V (main_arg0 : DevRef τ sig))
      ∧ after ops5 V (main_arg1 : DevRef τ sig) = (V (main_arg1 : DevRef τ sig))
      ∧ after ops5 V (main_arg2 : DevRef τ sig) = (V (main_arg2 : DevRef τ sig))
      ∧ after ops5 V (main_arg3 : DevRef τ sig) = (V (main_arg3 : DevRef τ sig))
      ∧ after ops5 V (main_arg4 : DevRef τ sig) = (V (main_arg4 : DevRef τ sig)) := by
  refine ⟨?_, ?_, ?_, ?_, ?_⟩ <;> after_results

theorem ops6_val (V : Valuation τ sig (Elt F)) :
    after ops6 V (main_v24 : DevRef τ sig)
      = addf (V (main_v20 : DevRef τ sig)) (diagMatrix (F := F) 0 3 3#32 (shapeCast S4093 (extractStridedSlice S1x4093 ![2, 0] (V (main_arg3 : DevRef τ sig)) slices_S7x4095_S1x4093_2_0) shapeCasts_S1x4093_S4093) pads_S4093_S4096_030) := by
  after_results
  simp only [ofBuf_toBuf, toBuf_main_v23, ofBuf_main_v22]
  rfl
theorem ops6_args (V : Valuation τ sig (Elt F)) :
    after ops6 V (main_arg0 : DevRef τ sig) = (V (main_arg0 : DevRef τ sig))
      ∧ after ops6 V (main_arg1 : DevRef τ sig) = (V (main_arg1 : DevRef τ sig))
      ∧ after ops6 V (main_arg2 : DevRef τ sig) = (V (main_arg2 : DevRef τ sig))
      ∧ after ops6 V (main_arg3 : DevRef τ sig) = (V (main_arg3 : DevRef τ sig))
      ∧ after ops6 V (main_arg4 : DevRef τ sig) = (V (main_arg4 : DevRef τ sig)) := by
  refine ⟨?_, ?_, ?_, ?_, ?_⟩ <;> after_results

theorem ops7_val (V : Valuation τ sig (Elt F)) :
    after ops7 V (main_v28 : DevRef τ sig)
      = addf (V (main_v24 : DevRef τ sig)) (diagMatrix (F := F) 4 0 4294967292#32 (shapeCast S4092 (extractStridedSlice S1x4092 ![3, 0] (V (main_arg2 : DevRef τ sig)) slices_S7x4095_S1x4092_3_0) shapeCasts_S1x4092_S4092) pads_S4092_S4096_400) := by
  after_results
  simp only [ofBuf_toBuf, toBuf_main_v27, ofBuf_main_v26]
  rfl
theorem ops7_args (V : Valuation τ sig (Elt F)) :
    after ops7 V (main_arg0 : DevRef τ sig) = (V (main_arg0 : DevRef τ sig))
      ∧ after ops7 V (main_arg1 : DevRef τ sig) = (V (main_arg1 : DevRef τ sig))
      ∧ after ops7 V (main_arg2 : DevRef τ sig) = (V (main_arg2 : DevRef τ sig))
      ∧ after ops7 V (main_arg3 : DevRef τ sig) = (V (main_arg3 : DevRef τ sig))
      ∧ after ops7 V (main_arg4 : DevRef τ sig) = (V (main_arg4 : DevRef τ sig)) := by
  refine ⟨?_, ?_, ?_, ?_, ?_⟩ <;> after_results

theorem ops8_val (V : Valuation τ sig (Elt F)) :
    after ops8 V (main_v32 : DevRef τ sig)
      = addf (V (main_v28 : DevRef τ sig)) (diagMatrix (F := F) 0 4 4#32 (shapeCast S4092 (extractStridedSlice S1x4092 ![3, 0] (V (main_arg3 : DevRef τ sig)) slices_S7x4095_S1x4092_3_0) shapeCasts_S1x4092_S4092) pads_S4092_S4096_040) := by
  after_results
  simp only [ofBuf_toBuf, toBuf_main_v31, ofBuf_main_v30]
  rfl
theorem ops8_args (V : Valuation τ sig (Elt F)) :
    after ops8 V (main_arg0 : DevRef τ sig) = (V (main_arg0 : DevRef τ sig))
      ∧ after ops8 V (main_arg1 : DevRef τ sig) = (V (main_arg1 : DevRef τ sig))
      ∧ after ops8 V (main_arg2 : DevRef τ sig) = (V (main_arg2 : DevRef τ sig))
      ∧ after ops8 V (main_arg3 : DevRef τ sig) = (V (main_arg3 : DevRef τ sig))
      ∧ after ops8 V (main_arg4 : DevRef τ sig) = (V (main_arg4 : DevRef τ sig)) := by
  refine ⟨?_, ?_, ?_, ?_, ?_⟩ <;> after_results

theorem ops9_val (V : Valuation τ sig (Elt F)) :
    after ops9 V (main_v36 : DevRef τ sig)
      = addf (V (main_v32 : DevRef τ sig)) (diagMatrix (F := F) 5 0 4294967291#32 (shapeCast S4091 (extractStridedSlice S1x4091 ![4, 0] (V (main_arg2 : DevRef τ sig)) slices_S7x4095_S1x4091_4_0) shapeCasts_S1x4091_S4091) pads_S4091_S4096_500) := by
  after_results
  simp only [ofBuf_toBuf, toBuf_main_v35, ofBuf_main_v34]
  rfl
theorem ops9_args (V : Valuation τ sig (Elt F)) :
    after ops9 V (main_arg0 : DevRef τ sig) = (V (main_arg0 : DevRef τ sig))
      ∧ after ops9 V (main_arg1 : DevRef τ sig) = (V (main_arg1 : DevRef τ sig))
      ∧ after ops9 V (main_arg2 : DevRef τ sig) = (V (main_arg2 : DevRef τ sig))
      ∧ after ops9 V (main_arg3 : DevRef τ sig) = (V (main_arg3 : DevRef τ sig))
      ∧ after ops9 V (main_arg4 : DevRef τ sig) = (V (main_arg4 : DevRef τ sig)) := by
  refine ⟨?_, ?_, ?_, ?_, ?_⟩ <;> after_results

theorem ops10_val (V : Valuation τ sig (Elt F)) :
    after ops10 V (main_v40 : DevRef τ sig)
      = addf (V (main_v36 : DevRef τ sig)) (diagMatrix (F := F) 0 5 5#32 (shapeCast S4091 (extractStridedSlice S1x4091 ![4, 0] (V (main_arg3 : DevRef τ sig)) slices_S7x4095_S1x4091_4_0) shapeCasts_S1x4091_S4091) pads_S4091_S4096_050) := by
  after_results
  simp only [ofBuf_toBuf, toBuf_main_v39, ofBuf_main_v38]
  rfl
theorem ops10_args (V : Valuation τ sig (Elt F)) :
    after ops10 V (main_arg0 : DevRef τ sig) = (V (main_arg0 : DevRef τ sig))
      ∧ after ops10 V (main_arg1 : DevRef τ sig) = (V (main_arg1 : DevRef τ sig))
      ∧ after ops10 V (main_arg2 : DevRef τ sig) = (V (main_arg2 : DevRef τ sig))
      ∧ after ops10 V (main_arg3 : DevRef τ sig) = (V (main_arg3 : DevRef τ sig))
      ∧ after ops10 V (main_arg4 : DevRef τ sig) = (V (main_arg4 : DevRef τ sig)) := by
  refine ⟨?_, ?_, ?_, ?_, ?_⟩ <;> after_results

theorem ops11_val (V : Valuation τ sig (Elt F)) :
    after ops11 V (main_v44 : DevRef τ sig)
      = addf (V (main_v40 : DevRef τ sig)) (diagMatrix (F := F) 6 0 4294967290#32 (shapeCast S4090 (extractStridedSlice S1x4090 ![5, 0] (V (main_arg2 : DevRef τ sig)) slices_S7x4095_S1x4090_5_0) shapeCasts_S1x4090_S4090) pads_S4090_S4096_600) := by
  after_results
  simp only [ofBuf_toBuf, toBuf_main_v43, ofBuf_main_v42]
  rfl
theorem ops11_args (V : Valuation τ sig (Elt F)) :
    after ops11 V (main_arg0 : DevRef τ sig) = (V (main_arg0 : DevRef τ sig))
      ∧ after ops11 V (main_arg1 : DevRef τ sig) = (V (main_arg1 : DevRef τ sig))
      ∧ after ops11 V (main_arg2 : DevRef τ sig) = (V (main_arg2 : DevRef τ sig))
      ∧ after ops11 V (main_arg3 : DevRef τ sig) = (V (main_arg3 : DevRef τ sig))
      ∧ after ops11 V (main_arg4 : DevRef τ sig) = (V (main_arg4 : DevRef τ sig)) := by
  refine ⟨?_, ?_, ?_, ?_, ?_⟩ <;> after_results

theorem ops12_val (V : Valuation τ sig (Elt F)) :
    after ops12 V (main_v48 : DevRef τ sig)
      = addf (V (main_v44 : DevRef τ sig)) (diagMatrix (F := F) 0 6 6#32 (shapeCast S4090 (extractStridedSlice S1x4090 ![5, 0] (V (main_arg3 : DevRef τ sig)) slices_S7x4095_S1x4090_5_0) shapeCasts_S1x4090_S4090) pads_S4090_S4096_060) := by
  after_results
  simp only [ofBuf_toBuf, toBuf_main_v47, ofBuf_main_v46]
  rfl
theorem ops12_args (V : Valuation τ sig (Elt F)) :
    after ops12 V (main_arg0 : DevRef τ sig) = (V (main_arg0 : DevRef τ sig))
      ∧ after ops12 V (main_arg1 : DevRef τ sig) = (V (main_arg1 : DevRef τ sig))
      ∧ after ops12 V (main_arg2 : DevRef τ sig) = (V (main_arg2 : DevRef τ sig))
      ∧ after ops12 V (main_arg3 : DevRef τ sig) = (V (main_arg3 : DevRef τ sig))
      ∧ after ops12 V (main_arg4 : DevRef τ sig) = (V (main_arg4 : DevRef τ sig)) := by
  refine ⟨?_, ?_, ?_, ?_, ?_⟩ <;> after_results

theorem ops13_val (V : Valuation τ sig (Elt F)) :
    after ops13 V (main_v52 : DevRef τ sig)
      = addf (V (main_v48 : DevRef τ sig)) (diagMatrix (F := F) 7 0 4294967289#32 (shapeCast S4089 (extractStridedSlice S1x4089 ![6, 0] (V (main_arg2 : DevRef τ sig)) slices_S7x4095_S1x4089_6_0) shapeCasts_S1x4089_S4089) pads_S4089_S4096_700) := by
  after_results
  simp only [ofBuf_toBuf, toBuf_main_v51, ofBuf_main_v50]
  rfl
theorem ops13_args (V : Valuation τ sig (Elt F)) :
    after ops13 V (main_arg0 : DevRef τ sig) = (V (main_arg0 : DevRef τ sig))
      ∧ after ops13 V (main_arg1 : DevRef τ sig) = (V (main_arg1 : DevRef τ sig))
      ∧ after ops13 V (main_arg2 : DevRef τ sig) = (V (main_arg2 : DevRef τ sig))
      ∧ after ops13 V (main_arg3 : DevRef τ sig) = (V (main_arg3 : DevRef τ sig))
      ∧ after ops13 V (main_arg4 : DevRef τ sig) = (V (main_arg4 : DevRef τ sig)) := by
  refine ⟨?_, ?_, ?_, ?_, ?_⟩ <;> after_results

theorem ops14_val (V : Valuation τ sig (Elt F)) :
    after ops14 V (main_v56 : DevRef τ sig)
      = addf (V (main_v52 : DevRef τ sig)) (diagMatrix (F := F) 0 7 7#32 (shapeCast S4089 (extractStridedSlice S1x4089 ![6, 0] (V (main_arg3 : DevRef τ sig)) slices_S7x4095_S1x4089_6_0) shapeCasts_S1x4089_S4089) pads_S4089_S4096_070) := by
  after_results
  simp only [ofBuf_toBuf, toBuf_main_v55, ofBuf_main_v54]
  rfl
theorem ops14_args (V : Valuation τ sig (Elt F)) :
    after ops14 V (main_arg0 : DevRef τ sig) = (V (main_arg0 : DevRef τ sig))
      ∧ after ops14 V (main_arg1 : DevRef τ sig) = (V (main_arg1 : DevRef τ sig))
      ∧ after ops14 V (main_arg2 : DevRef τ sig) = (V (main_arg2 : DevRef τ sig))
      ∧ after ops14 V (main_arg3 : DevRef τ sig) = (V (main_arg3 : DevRef τ sig))
      ∧ after ops14 V (main_arg4 : DevRef τ sig) = (V (main_arg4 : DevRef τ sig)) := by
  refine ⟨?_, ?_, ?_, ?_, ?_⟩ <;> after_results

theorem opsT_val (V : Valuation τ sig (Elt F)) :
    after opsT V (main_v57 : DevRef τ sig) = Host.dotGeneral dot_S8192x4096_S4096x4096_S8192x4096_1_0_0_1_n_n none (V (main_arg0 : DevRef τ sig)) (V (main_v56 : DevRef τ sig))
      ∧ after opsT V (main_v59 : DevRef τ sig) = broadcastInDim S8192x4096 ![0, 1] bcast_S1x4096_S8192x4096_0_1 (broadcastInDim S1x4096 ![1] bcast_S4096_S1x4096_1 (V (main_arg4 : DevRef τ sig))) := by
  refine ⟨?_, ?_⟩ <;> after_results
theorem opsT_args (V : Valuation τ sig (Elt F)) :
    after opsT V (main_arg0 : DevRef τ sig) = (V (main_arg0 : DevRef τ sig))
      ∧ after opsT V (main_arg1 : DevRef τ sig) = (V (main_arg1 : DevRef τ sig))
      ∧ after opsT V (main_arg2 : DevRef τ sig) = (V (main_arg2 : DevRef τ sig))
      ∧ after opsT V (main_arg3 : DevRef τ sig) = (V (main_arg3 : DevRef τ sig))
      ∧ after opsT V (main_arg4 : DevRef τ sig) = (V (main_arg4 : DevRef τ sig)) := by
  refine ⟨?_, ?_, ?_, ?_, ?_⟩ <;> after_results

theorem opsU_val (V : Valuation τ sig (Elt F)) :
    after opsU V (main_v60 : DevRef τ sig) = addf (V (main_v57 : DevRef τ sig)) (V (main_v59 : DevRef τ sig)) := by
  after_results
theorem opsU_args (V : Valuation τ sig (Elt F)) :
    after opsU V (main_arg0 : DevRef τ sig) = (V (main_arg0 : DevRef τ sig))
      ∧ after opsU V (main_arg1 : DevRef τ sig) = (V (main_arg1 : DevRef τ sig))
      ∧ after opsU V (main_arg2 : DevRef τ sig) = (V (main_arg2 : DevRef τ sig))
      ∧ after opsU V (main_arg3 : DevRef τ sig) = (V (main_arg3 : DevRef τ sig))
      ∧ after opsU V (main_arg4 : DevRef τ sig) = (V (main_arg4 : DevRef τ sig)) := by
  refine ⟨?_, ?_, ?_, ?_, ?_⟩ <;> after_results

/-! ## The chunks chained -/

/-- The contents after the first chunk. -/
def val0 (V : Valuation τ sig (Elt F)) : Valuation τ sig (Elt F) := after ops0 V
/-- The contents after the first 2 chunks. -/
def val1 (V : Valuation τ sig (Elt F)) : Valuation τ sig (Elt F) := after ops1 (val0 V)
/-- The contents after the first 3 chunks. -/
def val2 (V : Valuation τ sig (Elt F)) : Valuation τ sig (Elt F) := after ops2 (val1 V)
/-- The contents after the first 4 chunks. -/
def val3 (V : Valuation τ sig (Elt F)) : Valuation τ sig (Elt F) := after ops3 (val2 V)
/-- The contents after the first 5 chunks. -/
def val4 (V : Valuation τ sig (Elt F)) : Valuation τ sig (Elt F) := after ops4 (val3 V)
/-- The contents after the first 6 chunks. -/
def val5 (V : Valuation τ sig (Elt F)) : Valuation τ sig (Elt F) := after ops5 (val4 V)
/-- The contents after the first 7 chunks. -/
def val6 (V : Valuation τ sig (Elt F)) : Valuation τ sig (Elt F) := after ops6 (val5 V)
/-- The contents after the first 8 chunks. -/
def val7 (V : Valuation τ sig (Elt F)) : Valuation τ sig (Elt F) := after ops7 (val6 V)
/-- The contents after the first 9 chunks. -/
def val8 (V : Valuation τ sig (Elt F)) : Valuation τ sig (Elt F) := after ops8 (val7 V)
/-- The contents after the first 10 chunks. -/
def val9 (V : Valuation τ sig (Elt F)) : Valuation τ sig (Elt F) := after ops9 (val8 V)
/-- The contents after the first 11 chunks. -/
def val10 (V : Valuation τ sig (Elt F)) : Valuation τ sig (Elt F) := after ops10 (val9 V)
/-- The contents after the first 12 chunks. -/
def val11 (V : Valuation τ sig (Elt F)) : Valuation τ sig (Elt F) := after ops11 (val10 V)
/-- The contents after the first 13 chunks. -/
def val12 (V : Valuation τ sig (Elt F)) : Valuation τ sig (Elt F) := after ops12 (val11 V)
/-- The contents after the first 14 chunks. -/
def val13 (V : Valuation τ sig (Elt F)) : Valuation τ sig (Elt F) := after ops13 (val12 V)
/-- The contents after the first 15 chunks. -/
def val14 (V : Valuation τ sig (Elt F)) : Valuation τ sig (Elt F) := after ops14 (val13 V)
/-- The contents after the product and the spread bias. -/
def valT (V : Valuation τ sig (Elt F)) : Valuation τ sig (Elt F) := after opsT (val14 V)
/-- The contents at the end. -/
def valU (V : Valuation τ sig (Elt F)) : Valuation τ sig (Elt F) := after opsU (valT V)

theorem after_ops (V : Valuation τ sig (Elt F)) : after ops V = valU V := by
  simp only [ops, after_app]
  rfl

theorem val0_eq (V : Valuation τ sig (Elt F)) :
    val0 V (main_v0 : DevRef τ sig) = M0 (F := F) (V (main_arg1 : DevRef τ sig))
      ∧ val0 V (main_arg0 : DevRef τ sig) = (V (main_arg0 : DevRef τ sig))
      ∧ val0 V (main_arg1 : DevRef τ sig) = (V (main_arg1 : DevRef τ sig))
      ∧ val0 V (main_arg2 : DevRef τ sig) = (V (main_arg2 : DevRef τ sig))
      ∧ val0 V (main_arg3 : DevRef τ sig) = (V (main_arg3 : DevRef τ sig))
      ∧ val0 V (main_arg4 : DevRef τ sig) = (V (main_arg4 : DevRef τ sig)) :=
  ⟨ops0_val V, ops0_args V⟩

theorem val1_eq (V : Valuation τ sig (Elt F)) :
    val1 V (main_v4 : DevRef τ sig) = M1 (F := F) (V (main_arg1 : DevRef τ sig)) (V (main_arg2 : DevRef τ sig)) (V (main_arg3 : DevRef τ sig))
      ∧ val1 V (main_arg0 : DevRef τ sig) = (V (main_arg0 : DevRef τ sig))
      ∧ val1 V (main_arg1 : DevRef τ sig) = (V (main_arg1 : DevRef τ sig))
      ∧ val1 V (main_arg2 : DevRef τ sig) = (V (main_arg2 : DevRef τ sig))
      ∧ val1 V (main_arg3 : DevRef τ sig) = (V (main_arg3 : DevRef τ sig))
      ∧ val1 V (main_arg4 : DevRef τ sig) = (V (main_arg4 : DevRef τ sig)) := by
  obtain ⟨h, h0, h1, h2, h3, h4⟩ := val0_eq V
  obtain ⟨g0, g1, g2, g3, g4⟩ := ops1_args (val0 V)
  refine ⟨?_, g0.trans h0, g1.trans h1, g2.trans h2, g3.trans h3, g4.trans h4⟩
  show after ops1 (val0 V) _ = _
  rw [ops1_val, h, h2]
  rfl

theorem val2_eq (V : Valuation τ sig (Elt F)) :
    val2 V (main_v8 : DevRef τ sig) = M2 (F := F) (V (main_arg1 : DevRef τ sig)) (V (main_arg2 : DevRef τ sig)) (V (main_arg3 : DevRef τ sig))
      ∧ val2 V (main_arg0 : DevRef τ sig) = (V (main_arg0 : DevRef τ sig))
      ∧ val2 V (main_arg1 : DevRef τ sig) = (V (main_arg1 : DevRef τ sig))
      ∧ val2 V (main_arg2 : DevRef τ sig) = (V (main_arg2 : DevRef τ sig))
      ∧ val2 V (main_arg3 : DevRef τ sig) = (V (main_arg3 : DevRef τ sig))
      ∧ val2 V (main_arg4 : DevRef τ sig) = (V (main_arg4 : DevRef τ sig)) := by
  obtain ⟨h, h0, h1, h2, h3, h4⟩ := val1_eq V
  obtain ⟨g0, g1, g2, g3, g4⟩ := ops2_args (val1 V)
  refine ⟨?_, g0.trans h0, g1.trans h1, g2.trans h2, g3.trans h3, g4.trans h4⟩
  show after ops2 (val1 V) _ = _
  rw [ops2_val, h, h3]
  rfl

theorem val3_eq (V : Valuation τ sig (Elt F)) :
    val3 V (main_v12 : DevRef τ sig) = M3 (F := F) (V (main_arg1 : DevRef τ sig)) (V (main_arg2 : DevRef τ sig)) (V (main_arg3 : DevRef τ sig))
      ∧ val3 V (main_arg0 : DevRef τ sig) = (V (main_arg0 : DevRef τ sig))
      ∧ val3 V (main_arg1 : DevRef τ sig) = (V (main_arg1 : DevRef τ sig))
      ∧ val3 V (main_arg2 : DevRef τ sig) = (V (main_arg2 : DevRef τ sig))
      ∧ val3 V (main_arg3 : DevRef τ sig) = (V (main_arg3 : DevRef τ sig))
      ∧ val3 V (main_arg4 : DevRef τ sig) = (V (main_arg4 : DevRef τ sig)) := by
  obtain ⟨h, h0, h1, h2, h3, h4⟩ := val2_eq V
  obtain ⟨g0, g1, g2, g3, g4⟩ := ops3_args (val2 V)
  refine ⟨?_, g0.trans h0, g1.trans h1, g2.trans h2, g3.trans h3, g4.trans h4⟩
  show after ops3 (val2 V) _ = _
  rw [ops3_val, h, h2]
  rfl

theorem val4_eq (V : Valuation τ sig (Elt F)) :
    val4 V (main_v16 : DevRef τ sig) = M4 (F := F) (V (main_arg1 : DevRef τ sig)) (V (main_arg2 : DevRef τ sig)) (V (main_arg3 : DevRef τ sig))
      ∧ val4 V (main_arg0 : DevRef τ sig) = (V (main_arg0 : DevRef τ sig))
      ∧ val4 V (main_arg1 : DevRef τ sig) = (V (main_arg1 : DevRef τ sig))
      ∧ val4 V (main_arg2 : DevRef τ sig) = (V (main_arg2 : DevRef τ sig))
      ∧ val4 V (main_arg3 : DevRef τ sig) = (V (main_arg3 : DevRef τ sig))
      ∧ val4 V (main_arg4 : DevRef τ sig) = (V (main_arg4 : DevRef τ sig)) := by
  obtain ⟨h, h0, h1, h2, h3, h4⟩ := val3_eq V
  obtain ⟨g0, g1, g2, g3, g4⟩ := ops4_args (val3 V)
  refine ⟨?_, g0.trans h0, g1.trans h1, g2.trans h2, g3.trans h3, g4.trans h4⟩
  show after ops4 (val3 V) _ = _
  rw [ops4_val, h, h3]
  rfl

theorem val5_eq (V : Valuation τ sig (Elt F)) :
    val5 V (main_v20 : DevRef τ sig) = M5 (F := F) (V (main_arg1 : DevRef τ sig)) (V (main_arg2 : DevRef τ sig)) (V (main_arg3 : DevRef τ sig))
      ∧ val5 V (main_arg0 : DevRef τ sig) = (V (main_arg0 : DevRef τ sig))
      ∧ val5 V (main_arg1 : DevRef τ sig) = (V (main_arg1 : DevRef τ sig))
      ∧ val5 V (main_arg2 : DevRef τ sig) = (V (main_arg2 : DevRef τ sig))
      ∧ val5 V (main_arg3 : DevRef τ sig) = (V (main_arg3 : DevRef τ sig))
      ∧ val5 V (main_arg4 : DevRef τ sig) = (V (main_arg4 : DevRef τ sig)) := by
  obtain ⟨h, h0, h1, h2, h3, h4⟩ := val4_eq V
  obtain ⟨g0, g1, g2, g3, g4⟩ := ops5_args (val4 V)
  refine ⟨?_, g0.trans h0, g1.trans h1, g2.trans h2, g3.trans h3, g4.trans h4⟩
  show after ops5 (val4 V) _ = _
  rw [ops5_val, h, h2]
  rfl

theorem val6_eq (V : Valuation τ sig (Elt F)) :
    val6 V (main_v24 : DevRef τ sig) = M6 (F := F) (V (main_arg1 : DevRef τ sig)) (V (main_arg2 : DevRef τ sig)) (V (main_arg3 : DevRef τ sig))
      ∧ val6 V (main_arg0 : DevRef τ sig) = (V (main_arg0 : DevRef τ sig))
      ∧ val6 V (main_arg1 : DevRef τ sig) = (V (main_arg1 : DevRef τ sig))
      ∧ val6 V (main_arg2 : DevRef τ sig) = (V (main_arg2 : DevRef τ sig))
      ∧ val6 V (main_arg3 : DevRef τ sig) = (V (main_arg3 : DevRef τ sig))
      ∧ val6 V (main_arg4 : DevRef τ sig) = (V (main_arg4 : DevRef τ sig)) := by
  obtain ⟨h, h0, h1, h2, h3, h4⟩ := val5_eq V
  obtain ⟨g0, g1, g2, g3, g4⟩ := ops6_args (val5 V)
  refine ⟨?_, g0.trans h0, g1.trans h1, g2.trans h2, g3.trans h3, g4.trans h4⟩
  show after ops6 (val5 V) _ = _
  rw [ops6_val, h, h3]
  rfl

theorem val7_eq (V : Valuation τ sig (Elt F)) :
    val7 V (main_v28 : DevRef τ sig) = M7 (F := F) (V (main_arg1 : DevRef τ sig)) (V (main_arg2 : DevRef τ sig)) (V (main_arg3 : DevRef τ sig))
      ∧ val7 V (main_arg0 : DevRef τ sig) = (V (main_arg0 : DevRef τ sig))
      ∧ val7 V (main_arg1 : DevRef τ sig) = (V (main_arg1 : DevRef τ sig))
      ∧ val7 V (main_arg2 : DevRef τ sig) = (V (main_arg2 : DevRef τ sig))
      ∧ val7 V (main_arg3 : DevRef τ sig) = (V (main_arg3 : DevRef τ sig))
      ∧ val7 V (main_arg4 : DevRef τ sig) = (V (main_arg4 : DevRef τ sig)) := by
  obtain ⟨h, h0, h1, h2, h3, h4⟩ := val6_eq V
  obtain ⟨g0, g1, g2, g3, g4⟩ := ops7_args (val6 V)
  refine ⟨?_, g0.trans h0, g1.trans h1, g2.trans h2, g3.trans h3, g4.trans h4⟩
  show after ops7 (val6 V) _ = _
  rw [ops7_val, h, h2]
  rfl

theorem val8_eq (V : Valuation τ sig (Elt F)) :
    val8 V (main_v32 : DevRef τ sig) = M8 (F := F) (V (main_arg1 : DevRef τ sig)) (V (main_arg2 : DevRef τ sig)) (V (main_arg3 : DevRef τ sig))
      ∧ val8 V (main_arg0 : DevRef τ sig) = (V (main_arg0 : DevRef τ sig))
      ∧ val8 V (main_arg1 : DevRef τ sig) = (V (main_arg1 : DevRef τ sig))
      ∧ val8 V (main_arg2 : DevRef τ sig) = (V (main_arg2 : DevRef τ sig))
      ∧ val8 V (main_arg3 : DevRef τ sig) = (V (main_arg3 : DevRef τ sig))
      ∧ val8 V (main_arg4 : DevRef τ sig) = (V (main_arg4 : DevRef τ sig)) := by
  obtain ⟨h, h0, h1, h2, h3, h4⟩ := val7_eq V
  obtain ⟨g0, g1, g2, g3, g4⟩ := ops8_args (val7 V)
  refine ⟨?_, g0.trans h0, g1.trans h1, g2.trans h2, g3.trans h3, g4.trans h4⟩
  show after ops8 (val7 V) _ = _
  rw [ops8_val, h, h3]
  rfl

theorem val9_eq (V : Valuation τ sig (Elt F)) :
    val9 V (main_v36 : DevRef τ sig) = M9 (F := F) (V (main_arg1 : DevRef τ sig)) (V (main_arg2 : DevRef τ sig)) (V (main_arg3 : DevRef τ sig))
      ∧ val9 V (main_arg0 : DevRef τ sig) = (V (main_arg0 : DevRef τ sig))
      ∧ val9 V (main_arg1 : DevRef τ sig) = (V (main_arg1 : DevRef τ sig))
      ∧ val9 V (main_arg2 : DevRef τ sig) = (V (main_arg2 : DevRef τ sig))
      ∧ val9 V (main_arg3 : DevRef τ sig) = (V (main_arg3 : DevRef τ sig))
      ∧ val9 V (main_arg4 : DevRef τ sig) = (V (main_arg4 : DevRef τ sig)) := by
  obtain ⟨h, h0, h1, h2, h3, h4⟩ := val8_eq V
  obtain ⟨g0, g1, g2, g3, g4⟩ := ops9_args (val8 V)
  refine ⟨?_, g0.trans h0, g1.trans h1, g2.trans h2, g3.trans h3, g4.trans h4⟩
  show after ops9 (val8 V) _ = _
  rw [ops9_val, h, h2]
  rfl

theorem val10_eq (V : Valuation τ sig (Elt F)) :
    val10 V (main_v40 : DevRef τ sig) = M10 (F := F) (V (main_arg1 : DevRef τ sig)) (V (main_arg2 : DevRef τ sig)) (V (main_arg3 : DevRef τ sig))
      ∧ val10 V (main_arg0 : DevRef τ sig) = (V (main_arg0 : DevRef τ sig))
      ∧ val10 V (main_arg1 : DevRef τ sig) = (V (main_arg1 : DevRef τ sig))
      ∧ val10 V (main_arg2 : DevRef τ sig) = (V (main_arg2 : DevRef τ sig))
      ∧ val10 V (main_arg3 : DevRef τ sig) = (V (main_arg3 : DevRef τ sig))
      ∧ val10 V (main_arg4 : DevRef τ sig) = (V (main_arg4 : DevRef τ sig)) := by
  obtain ⟨h, h0, h1, h2, h3, h4⟩ := val9_eq V
  obtain ⟨g0, g1, g2, g3, g4⟩ := ops10_args (val9 V)
  refine ⟨?_, g0.trans h0, g1.trans h1, g2.trans h2, g3.trans h3, g4.trans h4⟩
  show after ops10 (val9 V) _ = _
  rw [ops10_val, h, h3]
  rfl

theorem val11_eq (V : Valuation τ sig (Elt F)) :
    val11 V (main_v44 : DevRef τ sig) = M11 (F := F) (V (main_arg1 : DevRef τ sig)) (V (main_arg2 : DevRef τ sig)) (V (main_arg3 : DevRef τ sig))
      ∧ val11 V (main_arg0 : DevRef τ sig) = (V (main_arg0 : DevRef τ sig))
      ∧ val11 V (main_arg1 : DevRef τ sig) = (V (main_arg1 : DevRef τ sig))
      ∧ val11 V (main_arg2 : DevRef τ sig) = (V (main_arg2 : DevRef τ sig))
      ∧ val11 V (main_arg3 : DevRef τ sig) = (V (main_arg3 : DevRef τ sig))
      ∧ val11 V (main_arg4 : DevRef τ sig) = (V (main_arg4 : DevRef τ sig)) := by
  obtain ⟨h, h0, h1, h2, h3, h4⟩ := val10_eq V
  obtain ⟨g0, g1, g2, g3, g4⟩ := ops11_args (val10 V)
  refine ⟨?_, g0.trans h0, g1.trans h1, g2.trans h2, g3.trans h3, g4.trans h4⟩
  show after ops11 (val10 V) _ = _
  rw [ops11_val, h, h2]
  rfl

theorem val12_eq (V : Valuation τ sig (Elt F)) :
    val12 V (main_v48 : DevRef τ sig) = M12 (F := F) (V (main_arg1 : DevRef τ sig)) (V (main_arg2 : DevRef τ sig)) (V (main_arg3 : DevRef τ sig))
      ∧ val12 V (main_arg0 : DevRef τ sig) = (V (main_arg0 : DevRef τ sig))
      ∧ val12 V (main_arg1 : DevRef τ sig) = (V (main_arg1 : DevRef τ sig))
      ∧ val12 V (main_arg2 : DevRef τ sig) = (V (main_arg2 : DevRef τ sig))
      ∧ val12 V (main_arg3 : DevRef τ sig) = (V (main_arg3 : DevRef τ sig))
      ∧ val12 V (main_arg4 : DevRef τ sig) = (V (main_arg4 : DevRef τ sig)) := by
  obtain ⟨h, h0, h1, h2, h3, h4⟩ := val11_eq V
  obtain ⟨g0, g1, g2, g3, g4⟩ := ops12_args (val11 V)
  refine ⟨?_, g0.trans h0, g1.trans h1, g2.trans h2, g3.trans h3, g4.trans h4⟩
  show after ops12 (val11 V) _ = _
  rw [ops12_val, h, h3]
  rfl

theorem val13_eq (V : Valuation τ sig (Elt F)) :
    val13 V (main_v52 : DevRef τ sig) = M13 (F := F) (V (main_arg1 : DevRef τ sig)) (V (main_arg2 : DevRef τ sig)) (V (main_arg3 : DevRef τ sig))
      ∧ val13 V (main_arg0 : DevRef τ sig) = (V (main_arg0 : DevRef τ sig))
      ∧ val13 V (main_arg1 : DevRef τ sig) = (V (main_arg1 : DevRef τ sig))
      ∧ val13 V (main_arg2 : DevRef τ sig) = (V (main_arg2 : DevRef τ sig))
      ∧ val13 V (main_arg3 : DevRef τ sig) = (V (main_arg3 : DevRef τ sig))
      ∧ val13 V (main_arg4 : DevRef τ sig) = (V (main_arg4 : DevRef τ sig)) := by
  obtain ⟨h, h0, h1, h2, h3, h4⟩ := val12_eq V
  obtain ⟨g0, g1, g2, g3, g4⟩ := ops13_args (val12 V)
  refine ⟨?_, g0.trans h0, g1.trans h1, g2.trans h2, g3.trans h3, g4.trans h4⟩
  show after ops13 (val12 V) _ = _
  rw [ops13_val, h, h2]
  rfl

theorem val14_eq (V : Valuation τ sig (Elt F)) :
    val14 V (main_v56 : DevRef τ sig) = M14 (F := F) (V (main_arg1 : DevRef τ sig)) (V (main_arg2 : DevRef τ sig)) (V (main_arg3 : DevRef τ sig))
      ∧ val14 V (main_arg0 : DevRef τ sig) = (V (main_arg0 : DevRef τ sig))
      ∧ val14 V (main_arg1 : DevRef τ sig) = (V (main_arg1 : DevRef τ sig))
      ∧ val14 V (main_arg2 : DevRef τ sig) = (V (main_arg2 : DevRef τ sig))
      ∧ val14 V (main_arg3 : DevRef τ sig) = (V (main_arg3 : DevRef τ sig))
      ∧ val14 V (main_arg4 : DevRef τ sig) = (V (main_arg4 : DevRef τ sig)) := by
  obtain ⟨h, h0, h1, h2, h3, h4⟩ := val13_eq V
  obtain ⟨g0, g1, g2, g3, g4⟩ := ops14_args (val13 V)
  refine ⟨?_, g0.trans h0, g1.trans h1, g2.trans h2, g3.trans h3, g4.trans h4⟩
  show after ops14 (val13 V) _ = _
  rw [ops14_val, h, h3]
  rfl

/-- The result buffer after the whole line: the reference's result term of the five arguments' contents. -/
theorem out_eq (V : Valuation τ sig (Elt F)) :
    after ops V (main_v60 : DevRef τ sig) = refTerm (F := F) (V (main_arg0 : DevRef τ sig)) (V (main_arg1 : DevRef τ sig)) (V (main_arg2 : DevRef τ sig)) (V (main_arg3 : DevRef τ sig)) (V (main_arg4 : DevRef τ sig)) := by
  obtain ⟨h, h0, _, _, _, h4⟩ := val14_eq V
  obtain ⟨t57, t59⟩ := opsT_val (val14 V)
  rw [after_ops]
  show after opsU (after opsT (val14 V)) _ = _
  rw [opsU_val, t57, t59, h, h0, h4, M14_eq]
  rfl

/-- The argument buffers after the whole line: unchanged. -/
theorem args_eq (V : Valuation τ sig (Elt F)) :
    after ops V (main_arg0 : DevRef τ sig) = (V (main_arg0 : DevRef τ sig))
      ∧ after ops V (main_arg1 : DevRef τ sig) = (V (main_arg1 : DevRef τ sig))
      ∧ after ops V (main_arg2 : DevRef τ sig) = (V (main_arg2 : DevRef τ sig))
      ∧ after ops V (main_arg3 : DevRef τ sig) = (V (main_arg3 : DevRef τ sig))
      ∧ after ops V (main_arg4 : DevRef τ sig) = (V (main_arg4 : DevRef τ sig)) := by
  obtain ⟨_, h0, h1, h2, h3, h4⟩ := val14_eq V
  obtain ⟨g0, g1, g2, g3, g4⟩ := opsT_args (val14 V)
  obtain ⟨k0, k1, k2, k3, k4⟩ := opsU_args (after opsT (val14 V))
  rw [after_ops]
  exact ⟨k0.trans (g0.trans h0), k1.trans (g1.trans h1), k2.trans (g2.trans h2), k3.trans (g3.trans h3), k4.trans (g4.trans h4)⟩

end Cert.ReferenceIdeal.BandRun

end
-- ==== Proof.RefRun.lean ====
/-
  The reference's run read back: every weakly fair execution of @main terminates, the result buffer holds the product of
  `x` with the assembled band matrix plus the spread bias — the reference's result term of the five arguments' launch
  contents — and the arguments are unchanged. The claim's frame conjunct for the reference follows by forgetting the result.
-/
import proofs.«138330_j66048007078594_2_alg».proof.Proof.RefRunMain
import proofs.«138330_j66048007078594_2_alg».proof.Proof.RefRunVal
import proofs.«138330_j66048007078594_2_alg».proof.Defs

noncomputable section

namespace Cert.ReferenceIdeal.BandRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- On every device, for any float values, from any memory with zero counters: every weakly fair execution of @main
    terminates with the result at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = Cert.ReferenceIdeal.Band.refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v60).trans (out_eq (launchContents m c)),
        (h c main_arg0).trans (args_eq (launchContents m c)).1,
        (h c main_arg1).trans (args_eq (launchContents m c)).2.1,
        (h c main_arg2).trans (args_eq (launchContents m c)).2.2.1,
        (h c main_arg3).trans (args_eq (launchContents m c)).2.2.2.1,
        (h c main_arg4).trans (args_eq (launchContents m c)).2.2.2.2⟩)
    (run_after m ρ)

/-- The reference runs and leaves its arguments unchanged. -/
theorem frame [hPre : Cert.Pre_finite_inputs.Facts] : Cert.frame_ReferenceIdeal :=
  fun m ρ _ => (θ_run (Cert.ReferenceIdeal.defs (F := Ideal)) _ _).mono (fun _ h c => (h c).2) (run m ρ)

end Cert.ReferenceIdeal.BandRun

end
-- ==== Proof.RefValue1.lean ====
/-
  One diagonal's matrix read at an entry.

  A diagonal laid into the 4096 × 4096 matrix keeps, at entry (k, q), row k's value of the zero-filled diagonal where
  the 32-bit words satisfy k + off = q, and is zero elsewhere (`diagMatrix_apply`). For the fifteen distances that
  occur the word condition is the arithmetic one: k + d = q for a super-diagonal at distance d, k = q + d for a
  sub-diagonal (`word_up_iff`, `word_down_iff`). The zero-filled diagonal itself, read at k, is the row of the table it
  was cut from at k less the filling in front, where that falls inside the cut, and zero outside (`padRow_apply`).
-/
import proofs.«138330_j66048007078594_2_alg».proof.Proof.BandSpec
import proofs.«138330_j66048007078594_2_alg».proof.Proof.RefTerm
import Idealize.ShloMosaic.Lib.IdealHost
import Idealize.ShloMosaic.Lib.KernelVsHost
import Idealize.ShloMosaic.Lib.ValueLayout

noncomputable section

namespace Cert.ReferenceIdeal.BandValue

open Idealize.ShloMosaic Idealize.ShloMosaic.ValueIdx Cert.ReferenceIdeal Cert.ReferenceIdeal.Facts₀ Cert.ReferenceIdeal.Band

variable [Facts]

/-- A rank-0 constant spread over any shape reads the real zero when its word is the zero word. -/
theorem zeroSplat_apply (j : S4096x4096.Idx) :
    broadcastInDim S4096x4096 ![] bcast_S_S4096x4096 (constant (F := Ideal) S_ .f32 0x00000000#32) j = 0 := by
  rw [broadcastInDim_scalar_apply, constant_apply, Ideal.ofBits_zero_f32]

/-- A vector of 4096 entries spread along the rows of the matrix reads, at (k, q), its entry k. -/
theorem rowSpread_apply (P : FVec Ideal S4096 .f32) (k q : Fin 4096) :
    broadcastInDim S4096x4096 ![0, 1] bcast_S4096x1_S4096x4096_0_1
      (broadcastInDim S4096x1 ![0] bcast_S4096_S4096x1_0 P) (ix2 k q) = P (ix1 k) := by
  rw [broadcastInDim_apply _ _ _ (ix2 k q) (ix2 k (0 : Fin 1)) (fun a => by
        match a with
        | ⟨0, _⟩ => rfl
        | ⟨1, _⟩ => rfl),
      broadcastInDim_apply _ _ _ (ix2 k (0 : Fin 1)) (ix1 k) (fun a => by
        match a with
        | ⟨0, _⟩ => rfl)]

/-- One diagonal's matrix at entry (k, q): row k's value of the zero-filled diagonal where `k + off = q` as 32-bit
    words, zero elsewhere. -/
theorem diagMatrix_apply {n : Nat} (lo hi : Nat) (off : BitVec 32) (v : FVec Ideal (⟨1, ![n]⟩ : Shape) .f32)
    (hp : (⟨1, ![n]⟩ : Shape).Pads (![lo] : Fin 1 → Nat) ![hi] ![0] S4096) (k q : Fin 4096) :
    diagMatrix lo hi off v hp (ix2 k q)
      = if BitVec.ofNat 32 k.val + off = BitVec.ofNat 32 q.val then
          pad S4096 ![lo] ![hi] ![0] v (constant (F := Ideal) S_ .f32 0x00000000#32) hp h_S_ (ix1 k)
        else 0 := by
  unfold diagMatrix
  rw [select_apply, rowSpread_apply, zeroSplat_apply]
  show Scalar.select (IntOp.cmpi .eq (IntOp.addi (BitVec.ofNat 32 k.val)
      (broadcastInDim S4096x4096 ![] bcast_S_S4096x4096 (constantI S_ 32 off) (ix2 k q))) (BitVec.ofNat 32 q.val)) _ _ = _
  rw [broadcastInDim_scalar_apply, constantI_apply]
  by_cases h : BitVec.ofNat 32 k.val + off = BitVec.ofNat 32 q.val
  · rw [if_pos h]
    have : IntOp.cmpi .eq (IntOp.addi (BitVec.ofNat 32 k.val) off) (BitVec.ofNat 32 q.val) = 1#1 := by
      simp [IntOp.cmpi, IntOp.addi, h]
    rw [this, select_one]
  · rw [if_neg h]
    have : IntOp.cmpi .eq (IntOp.addi (BitVec.ofNat 32 k.val) off) (BitVec.ofNat 32 q.val) = 0#1 := by
      show BitVec.ofBool (BitVec.ofNat 32 k.val + off == BitVec.ofNat 32 q.val) = 0#1
      rw [beq_eq_false_iff_ne.mpr h]; rfl
    rw [this, select_zero]

/-- For columns below 4096 and a distance of at most 7, `k + d = q` as 32-bit words is `k + d = q`. -/
theorem word_up_iff (k q d : Nat) (hk : k < 4096) (hq : q < 4096) (hd : d ≤ 7) :
    BitVec.ofNat 32 k + BitVec.ofNat 32 d = BitVec.ofNat 32 q ↔ k + d = q := by
  rw [← BitVec.toNat_inj, BitVec.toNat_add, BitVec.toNat_ofNat, BitVec.toNat_ofNat, BitVec.toNat_ofNat]
  omega

/-- For columns below 4096 and a distance from 1 to 7, `k + (2^32 - d) = q` as 32-bit words is `k = q + d`. -/
theorem word_down_iff (k q d : Nat) (hk : k < 4096) (hq : q < 4096) (hd1 : 1 ≤ d) (hd : d ≤ 7) :
    BitVec.ofNat 32 k + BitVec.ofNat 32 (4294967296 - d) = BitVec.ofNat 32 q ↔ k = q + d := by
  rw [← BitVec.toNat_inj, BitVec.toNat_add, BitVec.toNat_ofNat, BitVec.toNat_ofNat, BitVec.toNat_ofNat]
  omega

/-- Row `i` of a [7, 4095] table cut to its first `n` entries and zero-filled by `lo` places in front and `hi` behind,
    read at `k`: the table's entry (i, k - lo) where `k - lo` falls inside the cut, zero outside. -/
theorem padRow_apply (i : Fin 7) (io lo hi n : Nat) (hio : io = i.val) (hn : n ≤ 4095)
    (w : FVec Ideal S7x4095 .f32)
    (hsl : S7x4095.Slices ![io, 0] (⟨2, ![1, n]⟩ : Shape))
    (hsc : (⟨2, ![1, n]⟩ : Shape).ShapeCasts (⟨1, ![n]⟩ : Shape))
    (hp : (⟨1, ![n]⟩ : Shape).Pads (![lo] : Fin 1 → Nat) ![hi] ![0] S4096) (k : Fin 4096) :
    pad S4096 ![lo] ![hi] ![0]
        (shapeCast (⟨1, ![n]⟩ : Shape) (extractStridedSlice (⟨2, ![1, n]⟩ : Shape) ![io, 0] w hsl) hsc)
        (constant (F := Ideal) S_ .f32 0x00000000#32) hp h_S_ (ix1 k)
      = if h : lo ≤ k.val ∧ k.val - lo < n then w (ix2 i (⟨k.val - lo, by omega⟩ : Fin 4095)) else 0 := by
  by_cases h : lo ≤ k.val ∧ k.val - lo < n
  · rw [dif_pos h]
    rw [pad_apply_of_inside _ _ _ _ _ hp h_S_ (ix1 k) (ix1 (⟨k.val - lo, h.2⟩ : Fin n)) (fun a => by
      match a with
      | ⟨0, _⟩ => show k.val = lo + (k.val - lo) * (0 + 1); omega)]
    rw [shapeCast_apply _ hsc (ix1 (⟨k.val - lo, h.2⟩ : Fin n)) (ix2 (0 : Fin 1) (⟨k.val - lo, h.2⟩ : Fin n)) (by
      rw [Shape.rowMajor_val_two, Shape.rowMajor_val_one]; show 0 * n + (k.val - lo) = k.val - lo; omega)]
    rw [extractStridedSlice_apply _ w hsl _ (ix2 i (⟨k.val - lo, by omega⟩ : Fin 4095)) (fun a => by
      match a with
      | ⟨0, _⟩ => show i.val = io + 0; omega
      | ⟨1, _⟩ => show k.val - lo = 0 + (k.val - lo); omega)]
  · rw [dif_neg h]
    rw [pad_apply_of_not_inside _ _ _ _ _ hp h_S_ (ix1 k) (0 : Fin 1) (by
      show ¬(lo ≤ k.val ∧ (k.val - lo) % (0 + 1) = 0 ∧ (k.val - lo) / (0 + 1) < n)
      intro hh; exact h ⟨hh.1, by simpa using hh.2.2⟩)]
    rw [constant_apply, Ideal.ofBits_zero_f32]

/-- The main diagonal is laid in unfilled: read at `k` it is its own entry `k`. -/
theorem padMain_apply (diag : FVec Ideal S4096 .f32) (k : Fin 4096) :
    pad S4096 ![0] ![0] ![0] diag (constant (F := Ideal) S_ .f32 0x00000000#32) pads_S4096_S4096_000 h_S_ (ix1 k)
      = diag (ix1 k) := by
  rw [pad_apply_of_inside _ _ _ _ _ pads_S4096_S4096_000 h_S_ (ix1 k) (ix1 k) (fun a => by
    match a with
    | ⟨0, _⟩ => show k.val = 0 + k.val * (0 + 1); omega)]

end Cert.ReferenceIdeal.BandValue

end
-- ==== Proof.RefValue.lean ====
/-
  The reference's result read at an entry: the row of `x` against the column of the dense band matrix, plus the bias.

  Each of the fifteen diagonals' matrices, read at (k, q), is that diagonal's contribution to the entry as the
  specification names it (`mainMatrix_apply`, `subMatrix_apply`, `supMatrix_apply`): the word condition becomes the
  arithmetic one and the zero-filled diagonal at k becomes the table's entry or zero. Their sum is the band matrix's
  entry (`bandMatrix_apply`). The product with `x` at (r, q) is the sum over the one contracted coordinate of the
  products of the entries (`dot_apply`), and the bias spread over the rows reads its entry q (`biasSpread_apply`).
-/
import proofs.«138330_j66048007078594_2_alg».proof.Proof.RefValue1
import Idealize.ShloMosaic.Lib.StackMember

noncomputable section

open scoped BigOperators

namespace Cert.ReferenceIdeal.BandValue

open Idealize.ShloMosaic Idealize.ShloMosaic.ValueIdx Cert.ReferenceIdeal Cert.ReferenceIdeal.Facts₀ Cert.ReferenceIdeal.Band

variable [Facts]

/-- The main diagonal's matrix at (k, q) is the main diagonal's contribution to that entry. -/
theorem mainMatrix_apply (diag : FVec Ideal S4096 .f32) (k q : Fin 4096) :
    diagMatrix 0 0 0#32 diag pads_S4096_S4096_000 (ix2 k q) = Cert.Band.dgE diag k q := by
  rw [diagMatrix_apply, padMain_apply]
  unfold Cert.Band.dgE
  have hw := word_up_iff k.val q.val 0 k.isLt q.isLt (by omega)
  by_cases h : k.val = q.val
  · rw [if_pos h, if_pos (hw.mpr (by omega))]
  · rw [if_neg h, if_neg (fun hh => h (by have := hw.mp hh; omega))]

/-- Sub-diagonal `i`'s matrix — row `i` of `lower` cut to its first `n = 4096 - (i+1)` entries, zero-filled by `i + 1`
    places in front, kept where `k + (2^32 - (i+1)) = q` as words — at (k, q) is that sub-diagonal's contribution. -/
theorem subMatrix_apply (i : Fin 7) (io lo n : Nat) (hio : io = i.val) (hlo : lo = i.val + 1) (hn : n + lo = 4096)
    (off : BitVec 32) (hoff : off = BitVec.ofNat 32 (4294967296 - lo)) (lower : FVec Ideal S7x4095 .f32)
    (hsl : S7x4095.Slices ![io, 0] (⟨2, ![1, n]⟩ : Shape))
    (hsc : (⟨2, ![1, n]⟩ : Shape).ShapeCasts (⟨1, ![n]⟩ : Shape))
    (hp : (⟨1, ![n]⟩ : Shape).Pads (![lo] : Fin 1 → Nat) ![0] ![0] S4096) (k q : Fin 4096) :
    diagMatrix lo 0 off
        (shapeCast (⟨1, ![n]⟩ : Shape) (extractStridedSlice (⟨2, ![1, n]⟩ : Shape) ![io, 0] lower hsl) hsc) hp (ix2 k q)
      = Cert.Band.subE lower i k q := by
  subst hlo hoff
  rw [diagMatrix_apply, padRow_apply i io (i.val + 1) 0 n hio (by omega)]
  unfold Cert.Band.subE Cert.Band.padLo
  have hi := i.isLt
  have hk := k.isLt
  have hw := word_down_iff k.val q.val (i.val + 1) k.isLt q.isLt (by omega) (by omega)
  by_cases h : k.val = q.val + (i.val + 1)
  · have h1 : i.val + 1 ≤ k.val ∧ k.val - (i.val + 1) < n := by omega
    have h2 : i.val + 1 ≤ k.val := by omega
    rw [if_pos h, if_pos (hw.mpr h), dif_pos h1, dif_pos h2]
  · rw [if_neg h, if_neg (fun hh => h (hw.mp hh))]

/-- Super-diagonal `i`'s matrix — row `i` of `upper` cut to its first `n = 4096 - (i+1)` entries, zero-filled by `i + 1`
    places behind, kept where `k + (i+1) = q` as words — at (k, q) is that super-diagonal's contribution. -/
theorem supMatrix_apply (i : Fin 7) (io hi n : Nat) (hio : io = i.val) (hhi : hi = i.val + 1) (hn : n + hi = 4096)
    (off : BitVec 32) (hoff : off = BitVec.ofNat 32 hi) (upper : FVec Ideal S7x4095 .f32)
    (hsl : S7x4095.Slices ![io, 0] (⟨2, ![1, n]⟩ : Shape))
    (hsc : (⟨2, ![1, n]⟩ : Shape).ShapeCasts (⟨1, ![n]⟩ : Shape))
    (hp : (⟨1, ![n]⟩ : Shape).Pads (![0] : Fin 1 → Nat) ![hi] ![0] S4096) (k q : Fin 4096) :
    diagMatrix 0 hi off
        (shapeCast (⟨1, ![n]⟩ : Shape) (extractStridedSlice (⟨2, ![1, n]⟩ : Shape) ![io, 0] upper hsl) hsc) hp (ix2 k q)
      = Cert.Band.supE upper i k q := by
  subst hhi hoff
  rw [diagMatrix_apply, padRow_apply i io 0 (i.val + 1) n hio (by omega)]
  unfold Cert.Band.supE Cert.Band.padHi
  have hi := i.isLt
  have hk := k.isLt
  have hw := word_up_iff k.val q.val (i.val + 1) k.isLt q.isLt (by omega)
  by_cases h : k.val + (i.val + 1) = q.val
  · have h1 : 0 ≤ k.val ∧ k.val - 0 < n := by omega
    have h2 : k.val + (i.val + 1) < 4096 := by have := q.isLt; omega
    rw [if_pos h, if_pos (hw.mpr h), dif_pos h1, dif_pos h2]
    rfl
  · rw [if_neg h, if_neg (fun hh => h (hw.mp hh))]

/-- The dense band matrix at (k, q) is the specification's entry: the fifteen contributions added in the same order. -/
theorem bandMatrix_apply (diag : FVec Ideal S4096 .f32) (lower upper : FVec Ideal S7x4095 .f32) (k q : Fin 4096) :
    bandMatrix diag lower upper (ix2 k q) = Cert.Band.bandEntry diag lower upper k q := by
  unfold bandMatrix Cert.Band.bandEntry
  simp only [addf_apply]
  rw [mainMatrix_apply,
    subMatrix_apply 0 0 1 4095 rfl rfl rfl 4294967295#32 rfl, supMatrix_apply 0 0 1 4095 rfl rfl rfl 1#32 rfl,
    subMatrix_apply 1 1 2 4094 rfl rfl rfl 4294967294#32 rfl, supMatrix_apply 1 1 2 4094 rfl rfl rfl 2#32 rfl,
    subMatrix_apply 2 2 3 4093 rfl rfl rfl 4294967293#32 rfl, supMatrix_apply 2 2 3 4093 rfl rfl rfl 3#32 rfl,
    subMatrix_apply 3 3 4 4092 rfl rfl rfl 4294967292#32 rfl, supMatrix_apply 3 3 4 4092 rfl rfl rfl 4#32 rfl,
    subMatrix_apply 4 4 5 4091 rfl rfl rfl 4294967291#32 rfl, supMatrix_apply 4 4 5 4091 rfl rfl rfl 5#32 rfl,
    subMatrix_apply 5 5 6 4090 rfl rfl rfl 4294967290#32 rfl, supMatrix_apply 5 5 6 4090 rfl rfl rfl 6#32 rfl,
    subMatrix_apply 6 6 7 4089 rfl rfl rfl 4294967289#32 rfl, supMatrix_apply 6 6 7 4089 rfl rfl rfl 7#32 rfl]

/-- The product of `x` with a 4096 × 4096 matrix at (r, q): the sum over the contracted coordinate of the products of the
    entries (the dimension numbers are the plain product's). -/
theorem dot_apply (x : FVec Ideal S8192x4096 .f32) (W : FVec Ideal S4096x4096 .f32) (r : Fin 8192) (q : Fin 4096) :
    Host.dotGeneral dot_S8192x4096_S4096x4096_S8192x4096_1_0_0_1_n_n none x W (ix2 r q)
      = ∑ k : Fin 4096, x (ix2 r k) * W (ix2 k q) :=
  StackMember.dotGeneral_plain_apply (m := 8192) (n := 4096) (k := 4096) none x W r q

/-- The bias spread over the 8192 rows reads, at (r, q), its entry q. -/
theorem biasSpread_apply (bias : FVec Ideal S4096 .f32) (r : Fin 8192) (q : Fin 4096) :
    broadcastInDim S8192x4096 ![0, 1] bcast_S1x4096_S8192x4096_0_1
      (broadcastInDim S1x4096 ![1] bcast_S4096_S1x4096_1 bias) (ix2 r q) = bias (ix1 q) := by
  rw [broadcastInDim_apply _ _ _ (ix2 r q) (ix2 (0 : Fin 1) q) (fun a => by
        match a with
        | ⟨0, _⟩ => rfl
        | ⟨1, _⟩ => rfl),
      broadcastInDim_apply _ _ _ (ix2 (0 : Fin 1) q) (ix1 q) (fun a => by
        match a with
        | ⟨0, _⟩ => rfl)]

/-- The reference's result at (r, q) is the layer's entry as a matrix product: row r of `x` against column q of the dense
    band matrix, plus the bias at q. -/
theorem refTerm_apply (x : FVec Ideal S8192x4096 .f32) (diag : FVec Ideal S4096 .f32) (lower upper : FVec Ideal S7x4095 .f32)
    (bias : FVec Ideal S4096 .f32) (r : Fin 8192) (q : Fin 4096) :
    refTerm x diag lower upper bias (ix2 r q) = Cert.Band.refForm x diag lower upper bias r q := by
  unfold refTerm Cert.Band.refForm
  rw [addf_apply, dot_apply, biasSpread_apply]
  congr 1
  exact Finset.sum_congr rfl fun k _ => by rw [bandMatrix_apply]

end Cert.ReferenceIdeal.BandValue

end
-- ==== Proof.Finite.lean ====
/-
  From the stated precondition to "every entry of every argument is a real number".

  The precondition is five tests and-ed together, one per argument array: every entry's absolute value is below plus
  infinity. An `and` of one-bit words is 1 only if both are; a reduction by `and` over a whole array is 1 only if
  every entry's test is 1; and an extended real whose absolute value `max x (-x)` is below the top element is neither
  infinity, so it is a real number.
-/
import proofs.«138330_j66048007078594_2_alg».proof.Defs
import Idealize.ShloMosaic.Lib.ReduceAll
import Idealize.ShloMosaic.Lib.IdealHost

noncomputable section

namespace Cert.Band.Finite

open Idealize.ShloMosaic Idealize.ShloMosaic.ValueIdx Idealize.SL.Sem

/-- The shape with no axis has one index. -/
instance : Subsingleton (⟨0, ![]⟩ : Shape).Idx := ⟨fun a b => funext fun d => d.elim0⟩

/-- The word `0x7F800000` is plus infinity. -/
theorem inf_word : Ideal.ofBits .f32 0x7F800000#32 = (⊤ : EReal) := by simp [Ideal.ofBits, Ideal.ieee]

/-- An extended real whose absolute value tests below plus infinity is a real number. -/
theorem real_of_test (x : EReal)
    (h : Ideal.cmp .olt (max x (-x)) (Ideal.ofBits .f32 0x7F800000#32) = 1#1) : ∃ a : ℝ, x = (a : EReal) := by
  rw [inf_word] at h
  have hlt : max x (-x) < ⊤ := by
    by_contra hn
    have : Ideal.cmp .olt (max x (-x)) ⊤ = 0#1 := by simp [Ideal.cmp, hn]
    rw [this] at h
    exact absurd h (by decide)
  induction x using EReal.rec with
  | bot => simp at hlt
  | coe a => exact ⟨a, rfl⟩
  | top => simp at hlt

/-- One argument's test: if the reduction by `and` of "absolute value below plus infinity" over the whole array is 1,
    every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) (j : s.Idx) :
    ∃ a : ℝ, x j = (a : EReal) := by
  have e := Host.reduce_andi_all _ _ hr hu ix0 h j
  rw [cmpf_apply, broadcastInDim_scalar_apply] at e
  exact real_of_test (x j) e

/-- Under the precondition every entry of each of the five argument arrays of a device is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Cert.KernelIdeal.S8192x4096.Idx, ∃ a : ℝ,
        (m ((c.tc : Thread Cert.KernelIdeal.nD Cert.KernelIdeal.τ).loc Cert.KernelIdeal.main_arg0) :
          FVec Ideal Cert.KernelIdeal.S8192x4096 .f32) j = (a : EReal))
    ∧ (∀ j : Cert.KernelIdeal.S4096.Idx, ∃ a : ℝ,
        (m ((c.tc : Thread Cert.KernelIdeal.nD Cert.KernelIdeal.τ).loc Cert.KernelIdeal.main_arg1) :
          FVec Ideal Cert.KernelIdeal.S4096 .f32) j = (a : EReal))
    ∧ (∀ j : Cert.KernelIdeal.S7x4095.Idx, ∃ a : ℝ,
        (m ((c.tc : Thread Cert.KernelIdeal.nD Cert.KernelIdeal.τ).loc Cert.KernelIdeal.main_arg2) :
          FVec Ideal Cert.KernelIdeal.S7x4095 .f32) j = (a : EReal))
    ∧ (∀ j : Cert.KernelIdeal.S7x4095.Idx, ∃ a : ℝ,
        (m ((c.tc : Thread Cert.KernelIdeal.nD Cert.KernelIdeal.τ).loc Cert.KernelIdeal.main_arg3) :
          FVec Ideal Cert.KernelIdeal.S7x4095 .f32) j = (a : EReal))
    ∧ (∀ j : Cert.KernelIdeal.S4096.Idx, ∃ a : ℝ,
        (m ((c.tc : Thread Cert.KernelIdeal.nD Cert.KernelIdeal.τ).loc Cert.KernelIdeal.main_arg4) :
          FVec Ideal Cert.KernelIdeal.S4096 .f32) j = (a : EReal)) := by
  have h0 := congrFun (h c) ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ _ h0', real_of_all _ _ _ _ h1, real_of_all _ _ _ _ h2, real_of_all _ _ _ _ h3,
    real_of_all _ _ _ _ h4⟩

end Cert.Band.Finite

end
-- ==== Proof.BandAlgebra.lean ====
/-
  The two arrangements of the banded layer agree on real entries.

  The matrix product's column sum ∑ₖ x[r,k]·W[k,q] runs over 4096 rows of which at most fifteen meet a diagonal: on
  real entries the product distributes over the fifteen diagonals' contributions, and each diagonal's own sum over k has
  exactly one row that can contribute — the row `q` itself, `q + d` for the sub-diagonal at distance `d` (when that is
  still a row), `q - d` for the super-diagonal (when `d ≤ q`). That row's weight is the diagonal's entry laid out by
  output column, and the row's x is the row rotated by the distance: the rotation scheme's term. Where no row
  contributes, the laid-out weight is one of the filled-in zeros, so the scheme's term vanishes whatever the rotation
  brought around the end. Distributing a product over a sum is not a law of the extended reals at the infinities, so the
  statement is about real entries; the bias is added last on both sides and may be any extended real.
-/
import proofs.«138330_j66048007078594_2_alg».proof.Proof.BandSpec
import Mathlib.Tactic.Ring
import Mathlib.Algebra.BigOperators.Group.Finset.Basic

noncomputable section

open scoped BigOperators

namespace Cert.Band

open Idealize.ShloMosaic Idealize.ShloMosaic.ValueIdx

/-! ## The same definitions over the reals -/

/-- `padHi` over the reals. -/
def padHiR (w : (⟨2, ![7, 4095]⟩ : Shape).Idx → ℝ) (i : Fin 7) (k : Fin 4096) : ℝ :=
  if h : k.val + (i.val + 1) < 4096 then w (ix2 i (⟨k.val, by omega⟩ : Fin 4095)) else 0

/-- `padLo` over the reals. -/
def padLoR (w : (⟨2, ![7, 4095]⟩ : Shape).Idx → ℝ) (i : Fin 7) (k : Fin 4096) : ℝ :=
  if h : i.val + 1 ≤ k.val then w (ix2 i (⟨k.val - (i.val + 1), by have := k.isLt; omega⟩ : Fin 4095)) else 0

/-- `blockForm` over the reals, without the bias. -/
def coreR {R : Nat} (xb : (⟨2, ![R, 4096]⟩ : Shape).Idx → ℝ) (dg : (⟨2, ![1, 4096]⟩ : Shape).Idx → ℝ)
    (lo up : (⟨2, ![7, 4096]⟩ : Shape).Idx → ℝ) (p : Fin R) (q : Fin 4096) : ℝ :=
  ((((((((((((((xb (ix2 p q) * dg (ix2 (0 : Fin 1) q)
      + up (ix2 (0 : Fin 7) q) * xb (ix2 p (rot q 1)))
      + lo (ix2 (0 : Fin 7) q) * xb (ix2 p (rot q 4095)))
      + up (ix2 (1 : Fin 7) q) * xb (ix2 p (rot q 2)))
      + lo (ix2 (1 : Fin 7) q) * xb (ix2 p (rot q 4094)))
      + up (ix2 (2 : Fin 7) q) * xb (ix2 p (rot q 3)))
      + lo (ix2 (2 : Fin 7) q) * xb (ix2 p (rot q 4093)))
      + up (ix2 (3 : Fin 7) q) * xb (ix2 p (rot q 4)))
      + lo (ix2 (3 : Fin 7) q) * xb (ix2 p (rot q 4092)))
      + up (ix2 (4 : Fin 7) q) * xb (ix2 p (rot q 5)))
      + lo (ix2 (4 : Fin 7) q) * xb (ix2 p (rot q 4091)))
      + up (ix2 (5 : Fin 7) q) * xb (ix2 p (rot q 6)))
      + lo (ix2 (5 : Fin 7) q) * xb (ix2 p (rot q 4090)))
      + up (ix2 (6 : Fin 7) q) * xb (ix2 p (rot q 7)))
      + lo (ix2 (6 : Fin 7) q) * xb (ix2 p (rot q 4089)))

/-- `dgE`, `subE`, `supE`, `bandEntry` over the reals. -/
def dgR (diag : (⟨1, ![4096]⟩ : Shape).Idx → ℝ) (k q : Fin 4096) : ℝ := if k.val = q.val then diag (ix1 k) else 0
def subR (lower : (⟨2, ![7, 4095]⟩ : Shape).Idx → ℝ) (i : Fin 7) (k q : Fin 4096) : ℝ :=
  if k.val = q.val + (i.val + 1) then padLoR lower i k else 0
def supR (upper : (⟨2, ![7, 4095]⟩ : Shape).Idx → ℝ) (i : Fin 7) (k q : Fin 4096) : ℝ :=
  if k.val + (i.val + 1) = q.val then padHiR upper i k else 0
def bandEntryR (diag : (⟨1, ![4096]⟩ : Shape).Idx → ℝ) (lower upper : (⟨2, ![7, 4095]⟩ : Shape).Idx → ℝ)
    (k q : Fin 4096) : ℝ :=
  ((((((((((((((dgR diag k q + subR lower (0 : Fin 7) k q) + supR upper (0 : Fin 7) k q) + subR lower (1 : Fin 7) k q) + supR upper (1 : Fin 7) k q) + subR lower (2 : Fin 7) k q) + supR upper (2 : Fin 7) k q) + subR lower (3 : Fin 7) k q) + supR upper (3 : Fin 7) k q) + subR lower (4 : Fin 7) k q) + supR upper (4 : Fin 7) k q) + subR lower (5 : Fin 7) k q) + supR upper (5 : Fin 7) k q) + subR lower (6 : Fin 7) k q) + supR upper (6 : Fin 7) k q)

/-! ## The extended-real definitions on real entries are the real ones -/

theorem padHi_coe (w : (⟨2, ![7, 4095]⟩ : Shape).Idx → ℝ) (i : Fin 7) (k : Fin 4096) :
    padHi (fun j => (w j : EReal)) i k = ((padHiR w i k : ℝ) : EReal) := by
  unfold padHi padHiR
  split_ifs
  · rfl
  · exact EReal.coe_zero.symm

theorem padLo_coe (w : (⟨2, ![7, 4095]⟩ : Shape).Idx → ℝ) (i : Fin 7) (k : Fin 4096) :
    padLo (fun j => (w j : EReal)) i k = ((padLoR w i k : ℝ) : EReal) := by
  unfold padLo padLoR
  split_ifs
  · rfl
  · exact EReal.coe_zero.symm

theorem bandEntry_coe (d : (⟨1, ![4096]⟩ : Shape).Idx → ℝ) (l u : (⟨2, ![7, 4095]⟩ : Shape).Idx → ℝ) (k q : Fin 4096) :
    bandEntry (fun j => (d j : EReal)) (fun j => (l j : EReal)) (fun j => (u j : EReal)) k q
      = ((bandEntryR d l u k q : ℝ) : EReal) := by
  unfold bandEntry bandEntryR dgE subE supE dgR subR supR
  simp only [padHi_coe, padLo_coe, EReal.coe_add, apply_ite (fun t : ℝ => (t : EReal)), EReal.coe_zero]

theorem blockForm_coe {R : Nat} (xb : (⟨2, ![R, 4096]⟩ : Shape).Idx → ℝ) (dg : (⟨2, ![1, 4096]⟩ : Shape).Idx → ℝ)
    (lo up : (⟨2, ![7, 4096]⟩ : Shape).Idx → ℝ) (bs : (⟨2, ![1, 4096]⟩ : Shape).Idx → EReal) (p : Fin R) (q : Fin 4096) :
    blockForm (fun j => (xb j : EReal)) (fun j => (dg j : EReal)) (fun j => (lo j : EReal)) (fun j => (up j : EReal)) bs p q
      = ((coreR xb dg lo up p q : ℝ) : EReal) + bs (ix2 (0 : Fin 1) q) := by
  unfold blockForm coreR
  simp only [EReal.coe_add, EReal.coe_mul]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One diagonal's sum over the rows has one row that counts -/

/-- A sum over the 4096 rows of terms that vanish off the row numbered `t` is that row's term — or nothing, when there
    is no such row. -/
theorem sum_pick (f g : Fin 4096 → ℝ) (t : Nat) :
    ∑ k : Fin 4096, f k * (if k.val = t then g k else 0) = if h : t < 4096 then f ⟨t, h⟩ * g ⟨t, h⟩ else 0 := by
  by_cases h : t < 4096
  · rw [dif_pos h, Finset.sum_eq_single (⟨t, h⟩ : Fin 4096)]
    · rw [if_pos rfl]
    · intro b _ hb
      have hne : ¬ b.val = t := fun e => hb (Fin.ext e)
      rw [if_neg hne, mul_zero]
    · intro h'; exact absurd (Finset.mem_univ _) h'
  · rw [dif_neg h]
    refine Finset.sum_eq_zero fun k _ => ?_
    have hne : ¬ k.val = t := by have := k.isLt; omega
    rw [if_neg hne, mul_zero]

/-- The main diagonal: row `q`. -/
theorem dg_sum (X : Fin 4096 → ℝ) (d : (⟨1, ![4096]⟩ : Shape).Idx → ℝ) (q : Fin 4096) :
    ∑ k : Fin 4096, X k * (if k.val = q.val then d (ix1 k) else 0) = X q * d (ix1 q) := by
  rw [sum_pick X (fun k => d (ix1 k)) q.val, dif_pos q.isLt]

/-- The sub-diagonal at distance `i + 1`: row `q + (i+1)`, whose entry of the diagonal filled in front is the
    diagonal's entry `q` — the weight filled behind, at `q` — and whose x is the row rotated by `4096 - (i+1)`. -/
theorem sub_sum (X : Fin 4096 → ℝ) (w : (⟨2, ![7, 4095]⟩ : Shape).Idx → ℝ) (i : Fin 7) (q : Fin 4096) :
    ∑ k : Fin 4096, X k * (if k.val = q.val + (i.val + 1) then padLoR w i k else 0)
      = padHiR w i q * X (rot q (4096 - (i.val + 1))) := by
  have hi := i.isLt
  have hq := q.isLt
  rw [sum_pick X (fun k => padLoR w i k) (q.val + (i.val + 1))]
  by_cases h : q.val + (i.val + 1) < 4096
  · have e1 : rot q (4096 - (i.val + 1)) = ⟨q.val + (i.val + 1), h⟩ := Fin.ext (by simp only [rot]; omega)
    have e2 : padLoR w i ⟨q.val + (i.val + 1), h⟩ = padHiR w i q := by
      unfold padLoR padHiR
      rw [dif_pos (show i.val + 1 ≤ q.val + (i.val + 1) by omega), dif_pos h]
      exact congrArg w (congrArg (ix2 i) (Fin.ext (by simp)))
    rw [dif_pos h, e1, e2, mul_comm]
  · rw [dif_neg h]
    unfold padHiR
    rw [dif_neg h, zero_mul]

/-- The super-diagonal at distance `i + 1`: row `q - (i+1)`, whose entry of the diagonal filled behind is the weight
    filled in front, at `q`, and whose x is the row rotated by `i + 1`. -/
theorem sup_sum (X : Fin 4096 → ℝ) (w : (⟨2, ![7, 4095]⟩ : Shape).Idx → ℝ) (i : Fin 7) (q : Fin 4096) :
    ∑ k : Fin 4096, X k * (if k.val + (i.val + 1) = q.val then padHiR w i k else 0)
      = padLoR w i q * X (rot q (i.val + 1)) := by
  have hi := i.isLt
  have hq := q.isLt
  by_cases h : i.val + 1 ≤ q.val
  · have hc : ∀ k : Fin 4096, (k.val + (i.val + 1) = q.val) ↔ (k.val = q.val - (i.val + 1)) := fun k => by omega
    simp only [hc]
    have ht : q.val - (i.val + 1) < 4096 := by omega
    rw [sum_pick X (fun k => padHiR w i k) (q.val - (i.val + 1)), dif_pos ht]
    have e1 : rot q (i.val + 1) = ⟨q.val - (i.val + 1), ht⟩ := Fin.ext (by simp only [rot]; omega)
    have e2 : padHiR w i ⟨q.val - (i.val + 1), ht⟩ = padLoR w i q := by
      unfold padLoR padHiR
      rw [dif_pos (show q.val - (i.val + 1) + (i.val + 1) < 4096 by omega), dif_pos h]
    rw [e1, e2, mul_comm]
  · have hc : ∀ k : Fin 4096, ¬ (k.val + (i.val + 1) = q.val) := fun k => by omega
    simp only [hc, if_false, mul_zero, Finset.sum_const_zero]
    unfold padLoR
    rw [dif_neg h, zero_mul]

/-! ## The identity over the reals -/

/-- Row `X` against column `q` of the band matrix is the rotation scheme's sum. -/
theorem real_identity (X : Fin 4096 → ℝ) (d : (⟨1, ![4096]⟩ : Shape).Idx → ℝ) (l u : (⟨2, ![7, 4095]⟩ : Shape).Idx → ℝ)
    (q : Fin 4096) :
    ∑ k : Fin 4096, X k * bandEntryR d l u k q
      = ((((((((((((((X q * d (ix1 q)
      + padLoR u (0 : Fin 7) q * X (rot q 1))
      + padHiR l (0 : Fin 7) q * X (rot q 4095))
      + padLoR u (1 : Fin 7) q * X (rot q 2))
      + padHiR l (1 : Fin 7) q * X (rot q 4094))
      + padLoR u (2 : Fin 7) q * X (rot q 3))
      + padHiR l (2 : Fin 7) q * X (rot q 4093))
      + padLoR u (3 : Fin 7) q * X (rot q 4))
      + padHiR l (3 : Fin 7) q * X (rot q 4092))
      + padLoR u (4 : Fin 7) q * X (rot q 5))
      + padHiR l (4 : Fin 7) q * X (rot q 4091))
      + padLoR u (5 : Fin 7) q * X (rot q 6))
      + padHiR l (5 : Fin 7) q * X (rot q 4090))
      + padLoR u (6 : Fin 7) q * X (rot q 7))
      + padHiR l (6 : Fin 7) q * X (rot q 4089)) := by
  have h0 : ((0 : Fin 7) : Nat) = 0 := rfl
  have h1 : ((1 : Fin 7) : Nat) = 1 := rfl
  have h2 : ((2 : Fin 7) : Nat) = 2 := rfl
  have h3 : ((3 : Fin 7) : Nat) = 3 := rfl
  have h4 : ((4 : Fin 7) : Nat) = 4 := rfl
  have h5 : ((5 : Fin 7) : Nat) = 5 := rfl
  have h6 : ((6 : Fin 7) : Nat) = 6 := rfl
  unfold bandEntryR dgR subR supR
  simp only [mul_add, Finset.sum_add_distrib, dg_sum, sub_sum, sup_sum]
  simp only [h0, h1, h2, h3, h4, h5, h6, Nat.reduceAdd, Nat.reduceSub]
  ring

/-! ## The two arrangements agree -/

/-- On real `x`, `diag`, `lower`, `upper` (and any bias) the matrix-product entry is the rotation scheme's entry. -/
theorem refForm_eq_kernelForm (x : (⟨2, ![8192, 4096]⟩ : Shape).Idx → EReal) (diag : (⟨1, ![4096]⟩ : Shape).Idx → EReal)
    (lower upper : (⟨2, ![7, 4095]⟩ : Shape).Idx → EReal) (bias : (⟨1, ![4096]⟩ : Shape).Idx → EReal)
    (hx : ∀ j, ∃ a : ℝ, x j = (a : EReal)) (hd : ∀ j, ∃ a : ℝ, diag j = (a : EReal))
    (hl : ∀ j, ∃ a : ℝ, lower j = (a : EReal)) (hu : ∀ j, ∃ a : ℝ, upper j = (a : EReal))
    (r : Fin 8192) (q : Fin 4096) :
    refForm x diag lower upper bias r q = kernelForm x diag lower upper bias r q := by
  choose x' hx' using hx
  choose d' hd' using hd
  choose l' hl' using hl
  choose u' hu' using hu
  obtain rfl : x = fun j => (x' j : EReal) := funext hx'
  obtain rfl : diag = fun j => (d' j : EReal) := funext hd'
  obtain rfl : lower = fun j => (l' j : EReal) := funext hl'
  obtain rfl : upper = fun j => (u' j : EReal) := funext hu'
  -- the weights laid out by output column are real: the zero-filled rows of real tables
  have eLo : (fun j : (⟨2, ![7, 4096]⟩ : Shape).Idx => padHi (fun j => (l' j : EReal)) (j 0) (j 1))
      = fun j => ((padHiR l' (j 0) (j 1) : ℝ) : EReal) := funext fun j => padHi_coe l' (j 0) (j 1)
  have eUp : (fun j : (⟨2, ![7, 4096]⟩ : Shape).Idx => padLo (fun j => (u' j : EReal)) (j 0) (j 1))
      = fun j => ((padLoR u' (j 0) (j 1) : ℝ) : EReal) := funext fun j => padLo_coe u' (j 0) (j 1)
  -- the rotation scheme's entry is the coercion of its real counterpart, plus the bias
  have hK : kernelForm (fun j => (x' j : EReal)) (fun j => (d' j : EReal)) (fun j => (l' j : EReal))
        (fun j => (u' j : EReal)) bias r q
      = ((coreR (R := 8192) x' (fun j => d' (ix1 (j 1))) (fun j => padHiR l' (j 0) (j 1))
          (fun j => padLoR u' (j 0) (j 1)) r q : ℝ) : EReal) + bias (ix1 q) :=
    (congrArg (fun lo => blockForm (R := 8192) (fun j => (x' j : EReal)) (fun j => ((d' (ix1 (j 1)) : ℝ) : EReal)) lo
        (fun j => padLo (fun j => (u' j : EReal)) (j 0) (j 1)) (fun j => bias (ix1 (j 1))) r q) eLo).trans
      ((congrArg (fun up => blockForm (R := 8192) (fun j => (x' j : EReal)) (fun j => ((d' (ix1 (j 1)) : ℝ) : EReal))
        (fun j => ((padHiR l' (j 0) (j 1) : ℝ) : EReal)) up (fun j => bias (ix1 (j 1))) r q) eUp).trans
        (blockForm_coe (R := 8192) x' (fun j => d' (ix1 (j 1))) (fun j => padHiR l' (j 0) (j 1))
          (fun j => padLoR u' (j 0) (j 1)) (fun j => bias (ix1 (j 1))) r q))
  -- the matrix product's entry is the coercion of the real column sum, plus the bias
  have hL : refForm (fun j => (x' j : EReal)) (fun j => (d' j : EReal)) (fun j => (l' j : EReal))
        (fun j => (u' j : EReal)) bias r q
      = ((∑ k : Fin 4096, x' (ix2 r k) * bandEntryR d' l' u' k q : ℝ) : EReal) + bias (ix1 q) := by
    unfold refForm
    simp only [bandEntry_coe, ← EReal.coe_mul]
    rw [← coe_sum]
  rw [hL, hK]
  exact congrArg (fun t : ℝ => (t : EReal) + bias (ix1 q)) (real_identity (fun k => x' (ix2 r k)) d' l' u' q)

end Cert.Band

end
-- ==== Proof.lean ====
/-
  A banded linear layer computed two ways, and that the two agree on the extended reals.

  The layer is y = x · W + bias for a 4096 × 4096 matrix W whose only entries are a main diagonal, seven sub-diagonals
  and seven super-diagonals. One program never builds W: it lays each diagonal out as a row of 4096 weights indexed by
  OUTPUT column (zero-filled where the diagonal has left the matrix), and for each block of 256 rows of x adds up
  x·diag and, for each distance d = 1 … 7, the super-diagonal's weights times the block rotated by d along its rows and
  the sub-diagonal's weights times the block rotated by 4096 - d; wherever a rotation brings an entry around the end of
  a row, its weight is one of the filled-in zeros. The other program assembles the dense W — each diagonal spread into
  a matrix that is zero off that diagonal, the fifteen matrices added — and multiplies.

  Entry (r, q) of the first is `Cert.Band.kernelForm`, of the second `Cert.Band.refForm` (Proof/BandSpec.lean). They agree
  on real entries (Proof/BandAlgebra.lean): the product distributes over the fifteen diagonals' contributions, and
  each diagonal's sum over the 4096 rows of W has one row that counts. Distributivity is where finiteness of the inputs
  is used (Proof/Finite.lean reads it off the stated precondition); the bias may be anything.

  The rest is reading the two programs: the first program's run through its 32 row blocks, for any float values
  (Proof/KernelFrame.lean, Proof/KernelIdealFrame.lean) and its output array as one function of the arguments at the
  extended reals (Proof/KernelIdealBlock.lean: one entry of a block; Proof/KernelIdealPrefix.lean: the laid-out weights
  from the arguments; Proof/KernelIdealArray.lean: the blocks tile the array); the second program's run and its result
  as one term (Proof/RefTerm.lean, Proof/RefRun*.lean) read at an entry (Proof/RefValue*.lean).
-/
import proofs.«138330_j66048007078594_2_alg».proof.Defs
import proofs.«138330_j66048007078594_2_alg».proof.Proof.Gen.Kernel
import proofs.«138330_j66048007078594_2_alg».proof.Proof.Gen.KernelIdeal
import proofs.«138330_j66048007078594_2_alg».proof.Proof.Gen.ReferenceIdeal
import proofs.«138330_j66048007078594_2_alg».proof.Proof.Gen.Pre_finite_inputs
import proofs.«138330_j66048007078594_2_alg».proof.Proof.KernelFrame
import proofs.«138330_j66048007078594_2_alg».proof.Proof.KernelIdealFrame
import proofs.«138330_j66048007078594_2_alg».proof.Proof.KernelIdealArray
import proofs.«138330_j66048007078594_2_alg».proof.Proof.RefRun
import proofs.«138330_j66048007078594_2_alg».proof.Proof.RefValue
import proofs.«138330_j66048007078594_2_alg».proof.Proof.Finite
import proofs.«138330_j66048007078594_2_alg».proof.Proof.BandAlgebra

noncomputable section

namespace Cert.Proof

open Idealize.ShloMosaic Idealize.ShloMosaic.TcCoe Idealize.SL.Sem Idealize.ShloMosaic.ValueIdx

/-- The first program as printed runs to the end and leaves its arguments as they were. -/
theorem frame_kernel : Cert.frame_Kernel := fun m ρ _ => Cert.Kernel.Band.frame m ρ

/-- The same program read over the extended reals. -/
theorem frame_kernelIdeal : Cert.frame_KernelIdeal := fun m ρ _ => Cert.KernelIdeal.Band.frame m ρ

/-- The second program runs to the end and leaves its arguments as they were. -/
theorem frame_referenceIdeal : Cert.frame_ReferenceIdeal := Cert.ReferenceIdeal.BandRun.frame

/-- From memories agreeing on the five arguments, finite, both programs end with the same array: entry (r, q) of the
    first is the rotation scheme's sum, of the second the row of x against column q of the dense matrix plus the bias,
    and these agree on real entries. -/
theorem algebraic : Cert.algebraic_KernelIdeal_ReferenceIdeal := by
  intro m ρ m' ρ' hpre hagree
  refine ⟨fun c => fun j => Cert.Band.kernelForm (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (j 0) (j 1),
    Cert.KernelIdeal.BandArray.run_value m ρ, ?_⟩
  refine (θ_run Cert.ReferenceIdeal.defs _ _).mono (fun _ h c => ⟨(h c).1.trans ?_, (h c).2⟩)
    (Cert.ReferenceIdeal.BandRun.run (F := Ideal) m' ρ')
  obtain ⟨h0, h1, h2, h3, h4⟩ := hagree c
  obtain ⟨rx, rd, rl, ru, _⟩ := Cert.Band.Finite.real_of_pre m hpre c
  rw [h0, h1, h2, h3, h4]
  funext j
  obtain ⟨r0, q, rfl⟩ : ∃ (r0 : Fin 8192) (q : Fin 4096), j = ix2 r0 q := ⟨j 0, j 1, eq_ix2 j⟩
  rw [Cert.ReferenceIdeal.BandValue.refTerm_apply]
  exact Cert.Band.refForm_eq_kernelForm _ _ _ _ _ rx rd rl ru r0 q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
